-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v86)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S1024x5 : Shape := ⟨2, ![1024, 5]⟩
abbrev S1024x257 : Shape := ⟨2, ![1024, 257]⟩
abbrev S768x768 : Shape := ⟨2, ![768, 768]⟩
abbrev S768 : Shape := ⟨1, ![768]⟩
abbrev S768x256 : Shape := ⟨2, ![768, 256]⟩
abbrev S768x1536 : Shape := ⟨2, ![768, 1536]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S1024x257 : S_.BroadcastsInDim S1024x257 (![] : Fin 0 → Fin S1024x257.rank)
  reducesTo_S1024x257_S_d0_1 : S1024x257.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_
  bcast_S_S768x1536 : S_.BroadcastsInDim S768x1536 (![] : Fin 0 → Fin S768x1536.rank)
  reducesTo_S768x1536_S_d0_1 : S768x1536.ReducesTo [0, 1] S_

variable [Facts]

def fn_part4 {F : FTy → Type} [FloatOps F] (main_arg15 : FVec F S768x1536 .f32) (main_arg16 : FVec F S768 .f32) (main_v63 : IVec S_ 1) (main_v67 : IVec S_ 1) : IVec S_ 1 :=
  let main_v68 : IVec S_ 1 := andi main_v63 main_v67
  let main_v69 : FVec F S768x1536 .f32 := Host.absf main_arg15
  let main_cst_26 : FVec F S_ .f32 := constant S_ .f32 0x7F800000#32
  let main_v70 : FVec F S768x1536 .f32 := broadcastInDim S768x1536 ![] bcast_S_S768x1536 main_cst_26
  let main_v71 : IVec S768x1536 1 := cmpf .olt main_v69 main_v70
  let main_c_27 : IVec S_ 1 := constantI S_ 1 1#1
  let main_v72 : IVec S_ 1 := (fun x v => Host.reduce IntOp.andi x v reducesTo_S768x1536_S_d0_1 h_S_) main_v71 main_c_27
  let main_v73 : IVec S_ 1 := andi main_v68 main_v72
  let main_v74 : FVec F S768 .f32 := Host.absf main_arg16
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  main_v78

def fn_part3 {F : FTy → Type} [FloatOps F] (main_arg12 : FVec F S768 .f32) (main_arg13 : FVec F S768x768 .f32) (main_arg14 : FVec F S768 .f32) (main_arg15 : FVec F S768x1536 .f32) (main_arg16 : FVec F S768 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S768 .f32 := Host.absf main_arg12
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768x768 .f32 := Host.absf main_arg13
  let main_cst_22 : FVec F S_ .f32 := constant S_ .f32 0x7F800000#32
  let main_v60 : FVec F S768x768 .f32 := broadcastInDim S768x768 ![] bcast_S_S768x768 main_cst_22
  let main_v61 : IVec S768x768 1 := cmpf .olt main_v59 main_v60
  let main_c_23 : IVec S_ 1 := constantI S_ 1 1#1
  let main_v62 : IVec S_ 1 := (fun x v => Host.reduce IntOp.andi x v reducesTo_S768x768_S_d0_1 h_S_) main_v61 main_c_23
  let main_v63 : IVec S_ 1 := andi main_v58 main_v62
  let main_v64 : FVec F S768 .f32 := Host.absf main_arg14
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg15 main_arg16 main_v63 main_v67

def fn_part2 {F : FTy → Type} [FloatOps F] (main_arg8 : FVec F S768 .f32) (main_arg9 : FVec F S768x768 .f32) (main_arg10 : FVec F S768 .f32) (main_arg11 : FVec F S768x256 .f32) (main_arg12 : FVec F S768 .f32) (main_arg13 : FVec F S768x768 .f32) (main_arg14 : FVec F S768 .f32) (main_arg15 : FVec F S768x1536 .f32) (main_arg16 : FVec F S768 .f32) (main_v33 : IVec S_ 1) : IVec S_ 1 :=
  let main_v34 : FVec F S768 .f32 := Host.absf main_arg8
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x768 .f32 := Host.absf main_arg9
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768 .f32 := Host.absf main_arg10
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768x256 .f32 := Host.absf main_arg11
  let main_cst_18 : FVec F S_ .f32 := constant S_ .f32 0x7F800000#32
  let main_v50 : FVec F S768x256 .f32 := broadcastInDim S768x256 ![] bcast_S_S768x256 main_cst_18
  fn_part3 (F := F) main_arg12 main_arg13 main_arg14 main_arg15 main_arg16 main_v48 main_v49 main_v50

def fn_part1 {F : FTy → Type} [FloatOps F] (main_arg5 : FVec F S768x768 .f32) (main_arg6 : FVec F S768 .f32) (main_arg7 : FVec F S768x768 .f32) (main_arg8 : FVec F S768 .f32) (main_arg9 : FVec F S768x768 .f32) (main_arg10 : FVec F S768 .f32) (main_arg11 : FVec F S768x256 .f32) (main_arg12 : FVec F S768 .f32) (main_arg13 : FVec F S768x768 .f32) (main_arg14 : FVec F S768 .f32) (main_arg15 : FVec F S768x1536 .f32) (main_arg16 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg7
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S16x4096x768 .f32) (main_arg1 : IVec S1024x5 32) (main_arg2 : FVec F S1024x257 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) (main_arg9 : FVec F S768x768 .f32) (main_arg10 : FVec F S768 .f32) (main_arg11 : FVec F S768x256 .f32) (main_arg12 : FVec F S768 .f32) (main_arg13 : FVec F S768x768 .f32) (main_arg14 : FVec F S768 .f32) (main_arg15 : FVec F S768x1536 .f32) (main_arg16 : FVec F S768 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S1024x257 .f32 := Host.absf main_arg2
  let main_cst_0 : FVec F S_ .f32 := constant S_ .f32 0x7F800000#32
  let main_v5 : FVec F S1024x257 .f32 := broadcastInDim S1024x257 ![] bcast_S_S1024x257 main_cst_0
  let main_v6 : IVec S1024x257 1 := cmpf .olt main_v4 main_v5
  let main_c_1 : IVec S_ 1 := constantI S_ 1 1#1
  let main_v7 : IVec S_ 1 := (fun x v => Host.reduce IntOp.andi x v reducesTo_S1024x257_S_d0_1 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S16x4096x768 : Shape := ⟨3, ![16, 4096, 768]⟩
abbrev S1024x5 : Shape := ⟨2, ![1024, 5]⟩
abbrev S1024x257 : Shape := ⟨2, ![1024, 257]⟩
abbrev S768x768 : Shape := ⟨2, ![768, 768]⟩
abbrev S768 : Shape := ⟨1, ![768]⟩
abbrev S768x256 : Shape := ⟨2, ![768, 256]⟩
abbrev S768x1536 : Shape := ⟨2, ![768, 1536]⟩
abbrev S16x768 : Shape := ⟨2, ![16, 768]⟩
abbrev S8x1024x768 : Shape := ⟨3, ![8, 1024, 768]⟩
abbrev S8x768 : Shape := ⟨2, ![8, 768]⟩
abbrev S1x768 : Shape := ⟨2, ![1, 768]⟩
abbrev S_ : Shape := ⟨0, ![]⟩
abbrev S1024x1 : Shape := ⟨2, ![1024, 1]⟩
abbrev S1024 : Shape := ⟨1, ![1024]⟩
abbrev S1024x768 : Shape := ⟨2, ![1024, 768]⟩
abbrev S1024x256 : Shape := ⟨2, ![1024, 256]⟩
abbrev S256x768 : Shape := ⟨2, ![256, 768]⟩
abbrev S1024x1536 : Shape := ⟨2, ![1024, 1536]⟩
abbrev S1536x768 : Shape := ⟨2, ![1536, 768]⟩
abbrev S16 : Shape := ⟨1, ![16]⟩
abbrev S16x128x768 : Shape := ⟨3, ![16, 128, 768]⟩
abbrev S1024x2 : Shape := ⟨2, ![1024, 2]⟩
abbrev S128 : Shape := ⟨1, ![128]⟩
abbrev S1x128 : Shape := ⟨2, ![1, 128]⟩
abbrev S16x1 : Shape := ⟨2, ![16, 1]⟩
abbrev S16x128 : Shape := ⟨2, ![16, 128]⟩

abbrev nBuf : Space → Nat
  | .hbm => 123
  | .vmem => 4
  | .smem => 0
  | _ => 0

abbrev bufTy : (tb : Table) → Fin (tcTables nBuf tb) → BufTy
  | .hbm, ⟨0, _⟩ => ⟨S16x4096x768, .f32⟩
  | .hbm, ⟨1, _⟩ => ⟨S1024x5, .i32⟩
  | .hbm, ⟨2, _⟩ => ⟨S1024x257, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768x256, .f32⟩
  | .hbm, ⟨12, _⟩ => ⟨S768, .f32⟩
  | .hbm, ⟨13, _⟩ => ⟨S768x768, .f32⟩
  | .hbm, ⟨14, _⟩ => ⟨S768, .f32⟩
  | .hbm, ⟨15, _⟩ => ⟨S768x1536, .f32⟩
  | .hbm, ⟨16, _⟩ => ⟨S768, .f32⟩
  | .hbm, ⟨17, _⟩ => ⟨S16x768, .f32⟩
  | .hbm, ⟨18, _⟩ => ⟨S768x768, .f32⟩
  | .hbm, ⟨19, _⟩ => ⟨S16x768, .f32⟩
  | .hbm, ⟨20, _⟩ => ⟨S1x768, .f32⟩
  | .hbm, ⟨21, _⟩ => ⟨S16x768, .f32⟩
  | .hbm, ⟨22, _⟩ => ⟨S16x768, .f32⟩
  | .hbm, ⟨23, _⟩ => ⟨S_, .f32⟩
  | .hbm, ⟨24, _⟩ => ⟨S16x768, .f32⟩
  | .hbm, ⟨25, _⟩ => ⟨S16x768, .f32⟩
  | .hbm, ⟨26, _⟩ => ⟨S768x768, .f32⟩
  | .hbm, ⟨27, _⟩ => ⟨S16x768, .f32⟩
  | .hbm, ⟨28, _⟩ => ⟨S1x768, .f32⟩
  | .hbm, ⟨29, _⟩ => ⟨S16x768, .f32⟩
  | .hbm, ⟨30, _⟩ => ⟨S16x768, .f32⟩
  | .hbm, ⟨31, _⟩ => ⟨S768x768, .f32⟩
  | .hbm, ⟨32, _⟩ => ⟨S16x768, .f32⟩
  | .hbm, ⟨33, _⟩ => ⟨S1x768, .f32⟩
  | .hbm, ⟨34, _⟩ => ⟨S16x768, .f32⟩
  | .hbm, ⟨35, _⟩ => ⟨S16x768, .f32⟩
  | .hbm, ⟨36, _⟩ => ⟨S_, .f32⟩
  | .hbm, ⟨37, _⟩ => ⟨S16x768, .f32⟩
  | .hbm, ⟨38, _⟩ => ⟨S16x768, .f32⟩
  | .hbm, ⟨39, _⟩ => ⟨S768x768, .f32⟩
  | .hbm, ⟨40, _⟩ => ⟨S16x768, .f32⟩
  | .hbm, ⟨41, _⟩ => ⟨S1x768, .f32⟩
  | .hbm, ⟨42, _⟩ => ⟨S16x768, .f32⟩
  | .hbm, ⟨43, _⟩ => ⟨S16x768, .f32⟩
  | .hbm, ⟨44, _⟩ => ⟨S1024x1, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x768, .f32⟩
  | .hbm, ⟨55, _⟩ => ⟨S1024x256, .f32⟩
  | .hbm, ⟨56, _⟩ => ⟨S256x768, .f32⟩
  | .hbm, ⟨57, _⟩ => ⟨S1024x768, .f32⟩
  | .hbm, ⟨58, _⟩ => ⟨S1x768, .f32⟩
  | .hbm, ⟨59, _⟩ => ⟨S1024x768, .f32⟩
  | .hbm, ⟨60, _⟩ => ⟨S1024x768, .f32⟩
  | .hbm, ⟨61, _⟩ => ⟨S_, .f32⟩
  | .hbm, ⟨62, _⟩ => ⟨S1024x768, .f32⟩
  | .hbm, ⟨63, _⟩ => ⟨S1024x768, .f32⟩
  | .hbm, ⟨64, _⟩ => ⟨S768x768, .f32⟩
  | .hbm, ⟨65, _⟩ => ⟨S1024x768, .f32⟩
  | .hbm, ⟨66, _⟩ => ⟨S1x768, .f32⟩
  | .hbm, ⟨67, _⟩ => ⟨S1024x768, .f32⟩
  | .hbm, ⟨68, _⟩ => ⟨S1024x768, .f32⟩
  | .hbm, ⟨69, _⟩ => ⟨S1024x1536, .f32⟩
  | .hbm, ⟨70, _⟩ => ⟨S1536x768, .f32⟩
  | .hbm, ⟨71, _⟩ => ⟨S1024x768, .f32⟩
  | .hbm, ⟨72, _⟩ => ⟨S1x768, .f32⟩
  | .hbm, ⟨73, _⟩ => ⟨S1024x768, .f32⟩
  | .hbm, ⟨74, _⟩ => ⟨S1024x768, .f32⟩
  | .hbm, ⟨75, _⟩ => ⟨S_, .i32⟩
  | .hbm, ⟨76, _⟩ => ⟨S1024, .i32⟩
  | .hbm, ⟨77, _⟩ => ⟨S_, .i32⟩
  | .hbm, ⟨78, _⟩ => ⟨S16, .i32⟩
  | .hbm, ⟨79, _⟩ => ⟨S1024x1, .i32⟩
  | .hbm, ⟨80, _⟩ => ⟨S16, .i32⟩
  | .hbm, ⟨81, _⟩ => ⟨S_, .i32⟩
  | .hbm, ⟨82, _⟩ => ⟨S_, .i32⟩
  | .hbm, ⟨83, _⟩ => ⟨S16, .i32⟩
  | .hbm, ⟨84, _⟩ => ⟨S16, .i32⟩
  | .hbm, ⟨85, _⟩ => ⟨S1024, .i32⟩
  | .hbm, ⟨86, _⟩ => ⟨S_, .i32⟩
  | .hbm, ⟨87, _⟩ => ⟨S1024, .i32⟩
  | .hbm, ⟨88, _⟩ => ⟨S1024, .i1⟩
  | .hbm, ⟨89, _⟩ => ⟨S_, .i32⟩
  | .hbm, ⟨90, _⟩ => ⟨S1024, .i32⟩
  | .hbm, ⟨91, _⟩ => ⟨S1024, .i32⟩
  | .hbm, ⟨92, _⟩ => ⟨S1024, .i32⟩
  | .hbm, ⟨93, _⟩ => ⟨S1024x1, .i32⟩
  | .hbm, ⟨94, _⟩ => ⟨S1024, .i32⟩
  | .hbm, ⟨95, _⟩ => ⟨S1024, .i32⟩
  | .hbm, ⟨96, _⟩ => ⟨S_, .f32⟩
  | .hbm, ⟨97, _⟩ => ⟨S16x128x768, .f32⟩
  | .hbm, ⟨98, _⟩ => ⟨S_, .i32⟩
  | .hbm, ⟨99, _⟩ => ⟨S1024, .i32⟩
  | .hbm, ⟨100, _⟩ => ⟨S1024, .i1⟩
  | .hbm, ⟨101, _⟩ => ⟨S_, .i32⟩
  | .hbm, ⟨102, _⟩ => ⟨S1024, .i32⟩
  | .hbm, ⟨103, _⟩ => ⟨S1024, .i32⟩
  | .hbm, ⟨104, _⟩ => ⟨S1024, .i32⟩
  | .hbm, ⟨105, _⟩ => ⟨S_, .i32⟩
  | .hbm, ⟨106, _⟩ => ⟨S1024, .i32⟩
  | .hbm, ⟨107, _⟩ => ⟨S1024, .i1⟩
  | .hbm, ⟨108, _⟩ => ⟨S_, .i32⟩
  | .hbm, ⟨109, _⟩ => ⟨S1024, .i32⟩
  | .hbm, ⟨110, _⟩ => ⟨S1024, .i32⟩
  | .hbm, ⟨111, _⟩ => ⟨S1024, .i32⟩
  | .hbm, ⟨112, _⟩ => ⟨S1024x1, .i32⟩
  | .hbm, ⟨113, _⟩ => ⟨S1024x1, .i32⟩
  | .hbm, ⟨114, _⟩ => ⟨S1024x2, .i32⟩
  | .hbm, ⟨115, _⟩ => ⟨S16x128x768, .f32⟩
  | .hbm, ⟨116, _⟩ => ⟨S128, .i32⟩
  | .hbm, ⟨117, _⟩ => ⟨S1x128, .i32⟩
  | .hbm, ⟨118, _⟩ => ⟨S16x1, .i32⟩
  | .hbm, ⟨119, _⟩ => ⟨S16x128, .i32⟩
  | .hbm, ⟨120, _⟩ => ⟨S16x128, .i32⟩
  | .hbm, ⟨121, _⟩ => ⟨S16x128, .i1⟩
  | .hbm, ⟨122, _⟩ => ⟨S16x128, .f32⟩
  | .local _ .vmem, ⟨0, _⟩ => ⟨S8x1024x768, .f32⟩
  | .local _ .vmem, ⟨1, _⟩ => ⟨S8x1024x768, .f32⟩
  | .local _ .vmem, ⟨2, _⟩ => ⟨S8x768, .f32⟩
  | .local _ .vmem, ⟨3, _⟩ => ⟨S8x768, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call0_cst : Ref sig .tc := ⟨.hbm, 23, rfl⟩
abbrev main_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_cst : Ref sig .tc := ⟨.hbm, 36, rfl⟩
abbrev main_call1_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c : Ref sig .tc := ⟨.hbm, 46, rfl⟩
abbrev main_v25 : Ref sig .tc := ⟨.hbm, 47, rfl⟩
abbrev main_v26 : Ref sig .tc := ⟨.hbm, 48, rfl⟩
abbrev main_c_0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call2_cst : Ref sig .tc := ⟨.hbm, 61, rfl⟩
abbrev main_call2_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_1 : Ref sig .tc := ⟨.hbm, 75, rfl⟩
abbrev main_v50 : Ref sig .tc := ⟨.hbm, 76, rfl⟩
abbrev main_c_2 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call3_call0_c : Ref sig .tc := ⟨.hbm, 81, rfl⟩
abbrev main_call3_call0_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_3 : Ref sig .tc := ⟨.hbm, 86, rfl⟩
abbrev main_v57 : Ref sig .tc := ⟨.hbm, 87, rfl⟩
abbrev main_v58 : Ref sig .tc := ⟨.hbm, 88, rfl⟩
abbrev main_c_4 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst : Ref sig .tc := ⟨.hbm, 96, rfl⟩
abbrev main_v65 : Ref sig .tc := ⟨.hbm, 97, rfl⟩
abbrev main_c_5 : Ref sig .tc := ⟨.hbm, 98, rfl⟩
abbrev main_v66 : Ref sig .tc := ⟨.hbm, 99, rfl⟩
abbrev main_v67 : Ref sig .tc := ⟨.hbm, 100, rfl⟩
abbrev main_c_6 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_7 : Ref sig .tc := ⟨.hbm, 105, rfl⟩
abbrev main_v71 : Ref sig .tc := ⟨.hbm, 106, rfl⟩
abbrev main_v72 : Ref sig .tc := ⟨.hbm, 107, rfl⟩
abbrev main_c_8 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S8x1024x768_S8x1024x768_0_0_0 : ∀ a, (![0, 0, 0] : Fin 3 → Nat) a + S8x1024x768.size a ≤ S8x1024x768.size a
  h_S8x1024x768 : 0 < S8x1024x768.numel
  reduces_S8x1024x768_S8x768 : S8x1024x768.Reduces [1] S8x768
  transposes_S768x768_S768x768_1_0 : S768x768.Transposes [1, 0] S768x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  bcast_S_S16x768 : S_.BroadcastsInDim S16x768 (![] : Fin 0 → Fin S16x768.rank)
  slices_S1024x5_S1024x1_0_0 : S1024x5.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x257_S1024x256_0_1 : S1024x257.Slices ![0, 1] S1024x256
  transposes_S768x256_S256x768_1_0 : S768x256.Transposes [1, 0] S256x768
  bcast_S1x768_S1024x768_0_1 : S1x768.BroadcastsInDim S1024x768 (![0, 1] : Fin 2 → Fin S1024x768.rank)
  bcast_S_S1024x768 : S_.BroadcastsInDim S1024x768 (![] : Fin 0 → Fin S1024x768.rank)
  concatenates_S1024x768_S1024x768_S1024x1536_d1 : Shape.Concatenates [S1024x768, S1024x768] S1024x1536 1
  transposes_S768x1536_S1536x768_1_0 : S768x1536.Transposes [1, 0] S1536x768
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S16x128x768 : S_.BroadcastsInDim S16x128x768 (![] : Fin 0 → Fin S16x128x768.rank)
  concatenates_S1024x1_S1024x1_S1024x2_d1 : Shape.Concatenates [S1024x1, S1024x1] S1024x2 1
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  dot_S16x768_S768x768_S16x768_1_0_0_1_n_n_wf : DotDims.WF S16x768 S768x768 S16x768 [1] [0] [0] [1] [] []
  gather_S16x768_S1024x1_S1024x768_1_0_n_n_0_1_1768_wf : GatherDims.WF S16x768 S1024x1 S1024x768 [1] [0] [] [0] [] 1 ![1, 768]
  dot_S1024x256_S256x768_S1024x768_1_0_0_1_n_n_wf : DotDims.WF S1024x256 S256x768 S1024x768 [1] [0] [0] [1] [] []
  dot_S1024x768_S768x768_S1024x768_1_0_0_1_n_n_wf : DotDims.WF S1024x768 S768x768 S1024x768 [1] [0] [0] [1] [] []
  dot_S1024x1536_S1536x768_S1024x768_1_0_0_1_n_n_wf : DotDims.WF S1024x1536 S1536x768 S1024x768 [1] [0] [0] [1] [] []
  scatter_S16_S1024x1_S1024_n_0_0_1_wf : ScatterDims.WF S16 S1024x1 S1024 [] [0] [0] 1
  gather_S16_S1024x1_S1024_n_0_n_n_0_1_1_wf : GatherDims.WF S16 S1024x1 S1024 [] [0] [] [0] [] 1 ![1]
  scatter_S16x128x768_S1024x2_S1024x768_1_01_01_1_wf : ScatterDims.WF S16x128x768 S1024x2 S1024x768 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x768.size a ≤ S16x4096x768.size a
  hwx0_0 : ∀ i : grid0.Coords, EltTy.bits .f32 = 32 ∨ (Rect.block (s := S16x4096x768) S8x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x768.size a ≤ S16x768.size a
  hwx0_1 : ∀ i : grid0.Coords, EltTy.bits .f32 = 32 ∨ (Rect.block (s := S16x768) S8x768.size (cc0_transform_1 i) (hinb0_1 i)).WholeWords (EltTy.packing .f32)

variable [Facts₀]

def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf
def gather_S16x768_S1024x1_S1024x768_1_0_n_n_0_1_1768 : GatherDims S16x768 S1024x1 S1024x768 where
  offsetDims := [1]
  collapsedSliceDims := [0]
  operandBatchingDims := []
  startIndicesBatchingDims := []
  startIndexMap := [0]
  indexVectorDim := 1
  sliceSizes := ![1, 768]
  wf := gather_S16x768_S1024x1_S1024x768_1_0_n_n_0_1_1768_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x1536_S1536x768_S1024x768_1_0_0_1_n_n : DotDims S1024x1536 S1536x768 S1024x768 where
  lhsContracting := [1]
  rhsContracting := [0]
  lhsNonContracting := [0]
  rhsNonContracting := [1]
  lhsBatch := []
  rhsBatch := []
  wf := dot_S1024x1536_S1536x768_S1024x768_1_0_0_1_n_n_wf
def scatter_S16_S1024x1_S1024_n_0_0_1 : ScatterDims S16 S1024x1 S1024 where
  updateWindowDims := []
  insertedWindowDims := [0]
  scatterDimsToOperandDims := [0]
  indexVectorDim := 1
  wf := scatter_S16_S1024x1_S1024_n_0_0_1_wf
def gather_S16_S1024x1_S1024_n_0_n_n_0_1_1 : GatherDims S16 S1024x1 S1024 where
  offsetDims := []
  collapsedSliceDims := [0]
  operandBatchingDims := []
  startIndicesBatchingDims := []
  startIndexMap := [0]
  indexVectorDim := 1
  sliceSizes := ![1]
  wf := gather_S16_S1024x1_S1024_n_0_n_n_0_1_1_wf
def scatter_S16x128x768_S1024x2_S1024x768_1_01_01_1 : ScatterDims S16x128x768 S1024x2 S1024x768 where
  updateWindowDims := [1]
  insertedWindowDims := [0, 1]
  scatterDimsToOperandDims := [0, 1]
  indexVectorDim := 1
  wf := scatter_S16x128x768_S1024x2_S1024x768_1_01_01_1_wf

abbrev win0_0 : Pipeline.Window sig grid0 :=
  Pipeline.Window.ofSpec (Memref.whole main_arg0) S8x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S1024x5 : Shape := ⟨2, ![1024, 5]⟩
abbrev S1024x257 : Shape := ⟨2, ![1024, 257]⟩
abbrev S768x768 : Shape := ⟨2, ![768, 768]⟩
abbrev S768 : Shape := ⟨1, ![768]⟩
abbrev S768x256 : Shape := ⟨2, ![768, 256]⟩
abbrev S768x1536 : Shape := ⟨2, ![768, 1536]⟩
abbrev S_ : Shape := ⟨0, ![]⟩
abbrev S16x768 : Shape := ⟨2, ![16, 768]⟩
abbrev S1x768 : Shape := ⟨2, ![1, 768]⟩
abbrev S1024x1 : Shape := ⟨2, ![1024, 1]⟩
abbrev S1024 : Shape := ⟨1, ![1024]⟩
abbrev S1024x768 : Shape := ⟨2, ![1024, 768]⟩
abbrev S1024x256 : Shape := ⟨2, ![1024, 256]⟩
abbrev S256x768 : Shape := ⟨2, ![256, 768]⟩
abbrev S1024x1536 : Shape := ⟨2, ![1024, 1536]⟩
abbrev S1536x768 : Shape := ⟨2, ![1536, 768]⟩
abbrev S16 : Shape := ⟨1, ![16]⟩
abbrev S16x128x768 : Shape := ⟨3, ![16, 128, 768]⟩
abbrev S1024x2 : Shape := ⟨2, ![1024, 2]⟩
abbrev S128 : Shape := ⟨1, ![128]⟩
abbrev S1x128 : Shape := ⟨2, ![1, 128]⟩
abbrev S16x1 : Shape := ⟨2, ![16, 1]⟩
abbrev S16x128 : Shape := ⟨2, ![16, 128]⟩

abbrev nBuf : Space → Nat
  | .hbm => 127
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S1024x5, .i32⟩
  | .hbm, ⟨2, _⟩ => ⟨S1024x257, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768x256, .f32⟩
  | .hbm, ⟨12, _⟩ => ⟨S768, .f32⟩
  | .hbm, ⟨13, _⟩ => ⟨S768x768, .f32⟩
  | .hbm, ⟨14, _⟩ => ⟨S768, .f32⟩
  | .hbm, ⟨15, _⟩ => ⟨S768x1536, .f32⟩
  | .hbm, ⟨16, _⟩ => ⟨S768, .f32⟩
  | .hbm, ⟨17, _⟩ => ⟨S_, .f32⟩
  | .hbm, ⟨18, _⟩ => ⟨S16x768, .f32⟩
  | .hbm, ⟨19, _⟩ => ⟨S_, .f32⟩
  | .hbm, ⟨20, _⟩ => ⟨S16x768, .f32⟩
  | .hbm, ⟨21, _⟩ => ⟨S16x768, .f32⟩
  | .hbm, ⟨22, _⟩ => ⟨S768x768, .f32⟩
  | .hbm, ⟨23, _⟩ => ⟨S16x768, .f32⟩
  | .hbm, ⟨24, _⟩ => ⟨S1x768, .f32⟩
  | .hbm, ⟨25, _⟩ => ⟨S16x768, .f32⟩
  | .hbm, ⟨26, _⟩ => ⟨S16x768, .f32⟩
  | .hbm, ⟨27, _⟩ => ⟨S_, .f32⟩
  | .hbm, ⟨28, _⟩ => ⟨S16x768, .f32⟩
  | .hbm, ⟨29, _⟩ => ⟨S16x768, .f32⟩
  | .hbm, ⟨30, _⟩ => ⟨S768x768, .f32⟩
  | .hbm, ⟨31, _⟩ => ⟨S16x768, .f32⟩
  | .hbm, ⟨32, _⟩ => ⟨S1x768, .f32⟩
  | .hbm, ⟨33, _⟩ => ⟨S16x768, .f32⟩
  | .hbm, ⟨34, _⟩ => ⟨S16x768, .f32⟩
  | .hbm, ⟨35, _⟩ => ⟨S768x768, .f32⟩
  | .hbm, ⟨36, _⟩ => ⟨S16x768, .f32⟩
  | .hbm, ⟨37, _⟩ => ⟨S1x768, .f32⟩
  | .hbm, ⟨38, _⟩ => ⟨S16x768, .f32⟩
  | .hbm, ⟨39, _⟩ => ⟨S16x768, .f32⟩
  | .hbm, ⟨40, _⟩ => ⟨S_, .f32⟩
  | .hbm, ⟨41, _⟩ => ⟨S16x768, .f32⟩
  | .hbm, ⟨42, _⟩ => ⟨S16x768, .f32⟩
  | .hbm, ⟨43, _⟩ => ⟨S768x768, .f32⟩
  | .hbm, ⟨44, _⟩ => ⟨S16x768, .f32⟩
  | .hbm, ⟨45, _⟩ => ⟨S1x768, .f32⟩
  | .hbm, ⟨46, _⟩ => ⟨S16x768, .f32⟩
  | .hbm, ⟨47, _⟩ => ⟨S16x768, .f32⟩
  | .hbm, ⟨48, _⟩ => ⟨S1024x1, .i32⟩
  | .hbm, ⟨49, _⟩ => ⟨S1024, .i32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S1024x1, .i32⟩
  | .hbm, ⟨58, _⟩ => ⟨S1024x768, .f32⟩
  | .hbm, ⟨59, _⟩ => ⟨S1024x256, .f32⟩
  | .hbm, ⟨60, _⟩ => ⟨S256x768, .f32⟩
  | .hbm, ⟨61, _⟩ => ⟨S1024x768, .f32⟩
  | .hbm, ⟨62, _⟩ => ⟨S1x768, .f32⟩
  | .hbm, ⟨63, _⟩ => ⟨S1024x768, .f32⟩
  | .hbm, ⟨64, _⟩ => ⟨S1024x768, .f32⟩
  | .hbm, ⟨65, _⟩ => ⟨S_, .f32⟩
  | .hbm, ⟨66, _⟩ => ⟨S1024x768, .f32⟩
  | .hbm, ⟨67, _⟩ => ⟨S1024x768, .f32⟩
  | .hbm, ⟨68, _⟩ => ⟨S768x768, .f32⟩
  | .hbm, ⟨69, _⟩ => ⟨S1024x768, .f32⟩
  | .hbm, ⟨70, _⟩ => ⟨S1x768, .f32⟩
  | .hbm, ⟨71, _⟩ => ⟨S1024x768, .f32⟩
  | .hbm, ⟨72, _⟩ => ⟨S1024x768, .f32⟩
  | .hbm, ⟨73, _⟩ => ⟨S1024x1536, .f32⟩
  | .hbm, ⟨74, _⟩ => ⟨S1536x768, .f32⟩
  | .hbm, ⟨75, _⟩ => ⟨S1024x768, .f32⟩
  | .hbm, ⟨76, _⟩ => ⟨S1x768, .f32⟩
  | .hbm, ⟨77, _⟩ => ⟨S1024x768, .f32⟩
  | .hbm, ⟨78, _⟩ => ⟨S1024x768, .f32⟩
  | .hbm, ⟨79, _⟩ => ⟨S_, .i32⟩
  | .hbm, ⟨80, _⟩ => ⟨S1024, .i32⟩
  | .hbm, ⟨81, _⟩ => ⟨S_, .i32⟩
  | .hbm, ⟨82, _⟩ => ⟨S16, .i32⟩
  | .hbm, ⟨83, _⟩ => ⟨S1024x1, .i32⟩
  | .hbm, ⟨84, _⟩ => ⟨S16, .i32⟩
  | .hbm, ⟨85, _⟩ => ⟨S_, .i32⟩
  | .hbm, ⟨86, _⟩ => ⟨S_, .i32⟩
  | .hbm, ⟨87, _⟩ => ⟨S16, .i32⟩
  | .hbm, ⟨88, _⟩ => ⟨S16, .i32⟩
  | .hbm, ⟨89, _⟩ => ⟨S1024, .i32⟩
  | .hbm, ⟨90, _⟩ => ⟨S_, .i32⟩
  | .hbm, ⟨91, _⟩ => ⟨S1024, .i32⟩
  | .hbm, ⟨92, _⟩ => ⟨S1024, .i1⟩
  | .hbm, ⟨93, _⟩ => ⟨S_, .i32⟩
  | .hbm, ⟨94, _⟩ => ⟨S1024, .i32⟩
  | .hbm, ⟨95, _⟩ => ⟨S1024, .i32⟩
  | .hbm, ⟨96, _⟩ => ⟨S1024, .i32⟩
  | .hbm, ⟨97, _⟩ => ⟨S1024x1, .i32⟩
  | .hbm, ⟨98, _⟩ => ⟨S1024, .i32⟩
  | .hbm, ⟨99, _⟩ => ⟨S1024, .i32⟩
  | .hbm, ⟨100, _⟩ => ⟨S_, .f32⟩
  | .hbm, ⟨101, _⟩ => ⟨S16x128x768, .f32⟩
  | .hbm, ⟨102, _⟩ => ⟨S_, .i32⟩
  | .hbm, ⟨103, _⟩ => ⟨S1024, .i32⟩
  | .hbm, ⟨104, _⟩ => ⟨S1024, .i1⟩
  | .hbm, ⟨105, _⟩ => ⟨S_, .i32⟩
  | .hbm, ⟨106, _⟩ => ⟨S1024, .i32⟩
  | .hbm, ⟨107, _⟩ => ⟨S1024, .i32⟩
  | .hbm, ⟨108, _⟩ => ⟨S1024, .i32⟩
  | .hbm, ⟨109, _⟩ => ⟨S_, .i32⟩
  | .hbm, ⟨110, _⟩ => ⟨S1024, .i32⟩
  | .hbm, ⟨111, _⟩ => ⟨S1024, .i1⟩
  | .hbm, ⟨112, _⟩ => ⟨S_, .i32⟩
  | .hbm, ⟨113, _⟩ => ⟨S1024, .i32⟩
  | .hbm, ⟨114, _⟩ => ⟨S1024, .i32⟩
  | .hbm, ⟨115, _⟩ => ⟨S1024, .i32⟩
  | .hbm, ⟨116, _⟩ => ⟨S1024x1, .i32⟩
  | .hbm, ⟨117, _⟩ => ⟨S1024x1, .i32⟩
  | .hbm, ⟨118, _⟩ => ⟨S1024x2, .i32⟩
  | .hbm, ⟨119, _⟩ => ⟨S16x128x768, .f32⟩
  | .hbm, ⟨120, _⟩ => ⟨S128, .i32⟩
  | .hbm, ⟨121, _⟩ => ⟨S1x128, .i32⟩
  | .hbm, ⟨122, _⟩ => ⟨S16x1, .i32⟩
  | .hbm, ⟨123, _⟩ => ⟨S16x128, .i32⟩
  | .hbm, ⟨124, _⟩ => ⟨S16x128, .i32⟩
  | .hbm, ⟨125, _⟩ => ⟨S16x128, .i1⟩
  | .hbm, ⟨126, _⟩ => ⟨S16x128, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_cst : Ref sig .tc := ⟨.hbm, 40, rfl⟩
abbrev main_call1_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c : Ref sig .tc := ⟨.hbm, 50, rfl⟩
abbrev main_v27 : Ref sig .tc := ⟨.hbm, 51, rfl⟩
abbrev main_v28 : Ref sig .tc := ⟨.hbm, 52, rfl⟩
abbrev main_c_1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_2 : Ref sig .tc := ⟨.hbm, 79, rfl⟩
abbrev main_v52 : Ref sig .tc := ⟨.hbm, 80, rfl⟩
abbrev main_c_3 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call3_call0_c : Ref sig .tc := ⟨.hbm, 85, rfl⟩
abbrev main_call3_call0_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_4 : Ref sig .tc := ⟨.hbm, 90, rfl⟩
abbrev main_v59 : Ref sig .tc := ⟨.hbm, 91, rfl⟩
abbrev main_v60 : Ref sig .tc := ⟨.hbm, 92, rfl⟩
abbrev main_c_5 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_6 : Ref sig .tc := ⟨.hbm, 100, rfl⟩
abbrev main_v67 : Ref sig .tc := ⟨.hbm, 101, rfl⟩
abbrev main_c_7 : Ref sig .tc := ⟨.hbm, 102, rfl⟩
abbrev main_v68 : Ref sig .tc := ⟨.hbm, 103, rfl⟩
abbrev main_v69 : Ref sig .tc := ⟨.hbm, 104, rfl⟩
abbrev main_c_8 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_9 : Ref sig .tc := ⟨.hbm, 109, rfl⟩
abbrev main_v73 : Ref sig .tc := ⟨.hbm, 110, rfl⟩
abbrev main_v74 : Ref sig .tc := ⟨.hbm, 111, rfl⟩
abbrev main_c_10 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]

class Facts₀ : Prop where
  reducesTo_S16x4096x768_S16x768_d1 : S16x4096x768.ReducesTo [1] S16x768
  h_S_ : 0 < S_.numel
  bcast_S_S16x768 : S_.BroadcastsInDim S16x768 (![] : Fin 0 → Fin S16x768.rank)
  transposes_S768x768_S768x768_1_0 : S768x768.Transposes [1, 0] S768x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  slices_S1024x5_S1024x1_0_0 : S1024x5.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x257_S1024x256_0_1 : S1024x257.Slices ![0, 1] S1024x256
  transposes_S768x256_S256x768_1_0 : S768x256.Transposes [1, 0] S256x768
  bcast_S1x768_S1024x768_0_1 : S1x768.BroadcastsInDim S1024x768 (![0, 1] : Fin 2 → Fin S1024x768.rank)
  bcast_S_S1024x768 : S_.BroadcastsInDim S1024x768 (![] : Fin 0 → Fin S1024x768.rank)
  concatenates_S1024x768_S1024x768_S1024x1536_d1 : Shape.Concatenates [S1024x768, S1024x768] S1024x1536 1
  transposes_S768x1536_S1536x768_1_0 : S768x1536.Transposes [1, 0] S1536x768
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  bcast_S_S16x128x768 : S_.BroadcastsInDim S16x128x768 (![] : Fin 0 → Fin S16x128x768.rank)
  concatenates_S1024x1_S1024x1_S1024x2_d1 : Shape.Concatenates [S1024x1, S1024x1] S1024x2 1
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  dot_S16x768_S768x768_S16x768_1_0_0_1_n_n_wf : DotDims.WF S16x768 S768x768 S16x768 [1] [0] [0] [1] [] []
  gather_S16x768_S1024x1_S1024x768_1_0_n_n_0_1_1768_wf : GatherDims.WF S16x768 S1024x1 S1024x768 [1] [0] [] [0] [] 1 ![1, 768]
  dot_S1024x256_S256x768_S1024x768_1_0_0_1_n_n_wf : DotDims.WF S1024x256 S256x768 S1024x768 [1] [0] [0] [1] [] []
  dot_S1024x768_S768x768_S1024x768_1_0_0_1_n_n_wf : DotDims.WF S1024x768 S768x768 S1024x768 [1] [0] [0] [1] [] []
  dot_S1024x1536_S1536x768_S1024x768_1_0_0_1_n_n_wf : DotDims.WF S1024x1536 S1536x768 S1024x768 [1] [0] [0] [1] [] []
  scatter_S16_S1024x1_S1024_n_0_0_1_wf : ScatterDims.WF S16 S1024x1 S1024 [] [0] [0] 1
  gather_S16_S1024x1_S1024_n_0_n_n_0_1_1_wf : GatherDims.WF S16 S1024x1 S1024 [] [0] [] [0] [] 1 ![1]
  scatter_S16x128x768_S1024x2_S1024x768_1_01_01_1_wf : ScatterDims.WF S16x128x768 S1024x2 S1024x768 [1] [0, 1] [0, 1] 1

variable [Facts₀]

def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf
def gather_S16x768_S1024x1_S1024x768_1_0_n_n_0_1_1768 : GatherDims S16x768 S1024x1 S1024x768 where
  offsetDims := [1]
  collapsedSliceDims := [0]
  operandBatchingDims := []
  startIndicesBatchingDims := []
  startIndexMap := [0]
  indexVectorDim := 1
  sliceSizes := ![1, 768]
  wf := gather_S16x768_S1024x1_S1024x768_1_0_n_n_0_1_1768_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x1536_S1536x768_S1024x768_1_0_0_1_n_n : DotDims S1024x1536 S1536x768 S1024x768 where
  lhsContracting := [1]
  rhsContracting := [0]
  lhsNonContracting := [0]
  rhsNonContracting := [1]
  lhsBatch := []
  rhsBatch := []
  wf := dot_S1024x1536_S1536x768_S1024x768_1_0_0_1_n_n_wf
def scatter_S16_S1024x1_S1024_n_0_0_1 : ScatterDims S16 S1024x1 S1024 where
  updateWindowDims := []
  insertedWindowDims := [0]
  scatterDimsToOperandDims := [0]
  indexVectorDim := 1
  wf := scatter_S16_S1024x1_S1024_n_0_0_1_wf
def gather_S16_S1024x1_S1024_n_0_n_n_0_1_1 : GatherDims S16 S1024x1 S1024 where
  offsetDims := []
  collapsedSliceDims := [0]
  operandBatchingDims := []
  startIndicesBatchingDims := []
  startIndexMap := [0]
  indexVectorDim := 1
  sliceSizes := ![1]
  wf := gather_S16_S1024x1_S1024_n_0_n_n_0_1_1_wf
def scatter_S16x128x768_S1024x2_S1024x768_1_01_01_1 : ScatterDims S16x128x768 S1024x2 S1024x768 where
  updateWindowDims := [1]
  insertedWindowDims := [0, 1]
  scatterDimsToOperandDims := [0, 1]
  indexVectorDim := 1
  wf := scatter_S16x128x768_S1024x2_S1024x768_1_01_01_1_wf

class Facts : Prop extends Facts₀ where

variable [Facts]
-- ==== Proof.K.Runs.lean ====
/-
  The mean-pool region of `Kernel`: what its proof shares across the three control cases of the body.
  The grid is 2 × 4: the leading coordinate picks a half of the batch (8 rows), the trailing one a tile of 1024
  tokens. The output block of a batch half stays resident across the four token tiles: it is reset at tile 0,
  added to at every tile, and scaled by 1/4096 at tile 3, after which it is written back. Here: the buffers'
  contents when the region is entered (the program starts with the region, so they are the launch contents), the
  host lines after the region as a list of stretches, each window's block at a grid point, and the two branch
  conditions of the body decided over the grid (tile 0 ⇔ point ≡ 0 mod 4, tile 3 ⇔ point ≡ 3 mod 4).
-/
import proofs.«121203_j91044716741010_2_alg».proof.Proof.Gen.Kernel.Launch
import proofs.«121203_j91044716741010_2_alg».proof.Proof.Gen.Kernel.Skeleton
import proofs.«121203_j91044716741010_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch (the outlined relu and cumsum bodies are stretches of their own). -/
abbrev opss : List (List (HloOp τ sig (Elt F))) :=
  [hostOps1, hostOps1_1, hostOps1_2, hostOps1_3, hostOps1_4, hostOps1_5, hostOps1_6, hostOps1_7, hostOps1_8]

/-- Core `c`'s buffer contents when the region is entered, as a valuation: no host line precedes the region. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The region finds every buffer as launched. -/
theorem V_eq (c : Dev nD) (b : Ref sig .tc) : V m c b = m ((c : Thread nD τ).loc b) := rfl

/-- @main is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall]) (by simp only [List.Forall]) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point), for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is token tile 0": the condition under which the body resets the output block. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- "This is token tile 3", the last: the condition under which the body scales the sum by 1/4096. -/
abbrev cond0_1 (i : grid0.Coords) : Prop := (Scalar.cmpi .ne (Scalar.extui (Scalar.cmpi .eq (BitVec.ofNat 32 (i 1).val) 3#32)) 0#32) = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## The staging memrefs the body is called with -/

/-- One staging buffer of the output window, through which its contents are stated (the choice does not matter). -/
abbrev VO0_1 : View sig .tc .vmem S8x768 .f32 := (Memref.whole cc0_stg1_0 : Memref sig .tc .vmem S8x768 .f32).view
/-- Each window's current staging memref at point `t`, spelled as the pipeline passes it, and its wholeness. -/
abbrev ms0_0 (t : Fin cfg0.N) : Memref sig .tc .vmem S8x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x768 .f32 := win0_1.stage (cfg0.slots t 1)
abbrev hs0_1 (t : Fin cfg0.N) : (ms0_1 t).IsWhole := hstage0_1 ((cfg0.slots t 1).cast nbuf0_1)

end Cert.Kernel.Region

end
-- ==== Proof.K.RunA.lean ====
/-
  The mean-pool body of `Kernel` run symbolically in the reset case (token tile 0): the block is zeroed, then the tile's sum is added to it.
  The result is the list of stores the output block ends with (last first), found by the run itself, together
  with the triple: from whole staging buffers — the input's at its block, the output's at anything — the body
  runs to a continuation that holds the input's buffer unchanged and the output's with those stores written.
-/
import proofs.«121203_j91044716741010_2_alg».proof.Proof.K.Runs

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output block in this case, with the proof that the body runs to them. -/
noncomputable def kernelRun0_A (c : Dev nD) (i : grid0.Coords) (arg2 : Memref sig .tc .vmem S8x1024x768 .f32) (harg2 : arg2.IsWhole) (arg3 : Memref sig .tc .vmem S8x768 .f32) (harg3 : arg3.IsWhole) (hc0 : cond0_0 i) (hc1 : ¬cond0_1 i)
    (x0 : Vec F S8x1024x768 .f32) :
    { L1 : List (View.Piece (Elt F) S8x768 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_pool_kernel i arg2 harg2 arg3 harg3) K } := by
  refine ⟨?_, fun E K => ?run⟩
  case run =>
    simp only [cc0__mean_pool_kernel_eq_skeleton]; unfold cc0__mean_pool_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.Kernel.Region

end
-- ==== Proof.K.RunB.lean ====
/-
  The mean-pool body of `Kernel` run symbolically in the middle case (token tiles 1 and 2): the tile's sum is added to what the block holds.
  The result is the list of stores the output block ends with (last first), found by the run itself, together
  with the triple: from whole staging buffers — the input's at its block, the output's at its running contents — the body
  runs to a continuation that holds the input's buffer unchanged and the output's with those stores written.
-/
import proofs.«121203_j91044716741010_2_alg».proof.Proof.K.Runs

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output block in this case, with the proof that the body runs to them. -/
noncomputable def kernelRun0_B (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : ¬cond0_1 i)
    (x0 : Vec F S8x1024x768 .f32) (xo1 : Vec F S8x768 .f32) :
    { L1 : List (View.Piece (Elt F) S8x768 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_pool_kernel i arg2 harg2 arg3 harg3) K } := by
  refine ⟨?_, fun E K => ?run⟩
  case run =>
    simp only [cc0__mean_pool_kernel_eq_skeleton]; unfold cc0__mean_pool_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Region

end
-- ==== Proof.K.RunC.lean ====
/-
  The mean-pool body of `Kernel` run symbolically in the closing case (token tile 3): the tile's sum is added to what the block holds, and the total is scaled by 1/4096.
  The result is the list of stores the output block ends with (last first), found by the run itself, together
  with the triple: from whole staging buffers — the input's at its block, the output's at its running contents — the body
  runs to a continuation that holds the input's buffer unchanged and the output's with those stores written.
-/
import proofs.«121203_j91044716741010_2_alg».proof.Proof.K.Runs

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output block in this case, with the proof that the body runs to them. -/
noncomputable def kernelRun0_C (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : cond0_1 i)
    (x0 : Vec F S8x1024x768 .f32) (xo1 : Vec F S8x768 .f32) :
    { L1 : List (View.Piece (Elt F) S8x768 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_pool_kernel i arg2 harg2 arg3 harg3) K } := by
  refine ⟨?_, fun E K => ?run⟩
  case run =>
    simp only [cc0__mean_pool_kernel_eq_skeleton]; unfold cc0__mean_pool_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Region

end
-- ==== Proof.K.Body.lean ====
/-
  The mean-pool region of `Kernel`: what the output block holds after each grid point, and the body's obligation.
  A point's case is fixed by its token tile (point mod 4): tile 0 resets the block and adds the tile's sum, tiles
  1 and 2 add to what the point before left (the block is not written back in between), tile 3 adds and scales.
  `outsAt0` follows that recursion over the points; the proof data names it as what the body leaves; the body
  obligation is then the three symbolic runs, one per case.
-/
import proofs.«121203_j91044716741010_2_alg».proof.Proof.K.RunA
import proofs.«121203_j91044716741010_2_alg».proof.Proof.K.RunB
import proofs.«121203_j91044716741010_2_alg».proof.Proof.K.RunC

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In case A the stores the body leaves tile the output block, so they cover it. -/
theorem cover0_A_1 (c : Dev nD) (i : grid0.Coords) (arg2 : Memref sig .tc .vmem S8x1024x768 .f32) (harg2 : arg2.IsWhole) (arg3 : Memref sig .tc .vmem S8x768 .f32) (harg3 : arg3.IsWhole) (hc0 : cond0_0 i) (hc1 : ¬cond0_1 i)
    (x0 : Vec F S8x1024x768 .f32) (y : S8x768.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S8x768.size (by sl_kernel_rfl) y

/-- What case A leaves in the output block: its stores read back. -/
def out0_A_1 (c : Dev nD) (i : grid0.Coords) (arg2 : Memref sig .tc .vmem S8x1024x768 .f32) (harg2 : arg2.IsWhole) (arg3 : Memref sig .tc .vmem S8x768 .f32) (harg3 : arg3.IsWhole) (hc0 : cond0_0 i) (hc1 : ¬cond0_1 i)
    (x0 : Vec F S8x1024x768 .f32) : Vec F S8x768 .f32 :=
  VO0_1.read (Elt F) (VO0_1.writes (Elt F) VO0_1.junk (kernelRun0_A c i arg2 harg2 arg3 harg3 hc0 hc1 x0).1)

/-- In case B the stores the body leaves tile the output block, so they cover it. -/
theorem cover0_B_1 (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : ¬cond0_1 i)
    (x0 : Vec F S8x1024x768 .f32) (xo1 : Vec F S8x768 .f32) (y : S8x768.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S8x768.size (by sl_kernel_rfl) y

/-- What case B leaves in the output block: its stores read back. -/
def out0_B_1 (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : ¬cond0_1 i)
    (x0 : Vec F S8x1024x768 .f32) (xo1 : Vec F S8x768 .f32) : Vec F S8x768 .f32 :=
  VO0_1.read (Elt F) (VO0_1.writes (Elt F) VO0_1.junk (kernelRun0_B c i arg2 harg2 arg3 harg3 hc0 hc1 x0 xo1).1)

/-- In case C the stores the body leaves tile the output block, so they cover it. -/
theorem cover0_C_1 (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : cond0_1 i)
    (x0 : Vec F S8x1024x768 .f32) (xo1 : Vec F S8x768 .f32) (y : S8x768.Idx) :
    ∃ pc ∈ (kernelRun0_C c i arg2 harg2 arg3 harg3 hc0 hc1 x0 xo1).1, y ∈ pc.1.set :=
  View.cover_of_tiledL (kernelRun0_C c i arg2 harg2 arg3 harg3 hc0 hc1 x0 xo1).1 S8x768.size (by sl_kernel_rfl) y

/-- What case C leaves in the output block: its stores read back. -/
def out0_C_1 (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : cond0_1 i)
    (x0 : Vec F S8x1024x768 .f32) (xo1 : Vec F S8x768 .f32) : Vec F S8x768 .f32 :=
  VO0_1.read (Elt F) (VO0_1.writes (Elt F) VO0_1.junk (kernelRun0_C c i arg2 harg2 arg3 harg3 hc0 hc1 x0 xo1).1)

/-! ## What the output block holds after each point -/

/-- The accumulation: the output block after the body at position `n` — the case the token tile selects, run on the
    point's input block, and (tiles 1–3) on what the point before left. -/
def outsAt0 (c : Dev nD) : (n : ℕ) → n < cfg0.N → Vec F S8x768 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _))
      (fun h => by have h' : 0 % 4 = 3 := (hcond0_1 ⟨0, hn⟩).mp h; omega) (iblk m c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0)
        (fun h => by have h' : (n + 1) % 4 = 3 := (hcond0_1 ⟨n + 1, hn⟩).mp h; omega) (iblk m c 0 ⟨n + 1, hn⟩)
    else if h1 : (n + 1) % 4 = 3 then
      out0_C_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h))
        ((hcond0_1 ⟨n + 1, hn⟩).mpr h1) (iblk m c 0 ⟨n + 1, hn⟩) (outsAt0 c n (Nat.lt_of_succ_lt hn))
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h))
        (fun h => h1 ((hcond0_1 ⟨n + 1, hn⟩).mp h)) (iblk m c 0 ⟨n + 1, hn⟩) (outsAt0 c n (Nat.lt_of_succ_lt hn))

/-- `outsAt0` at a point of token tile 0. -/
theorem outsAt0_A (c : Dev nD) (t : Fin cfg0.N) (h0 : t.val % 4 = 0) :
    outsAt0 m c t.val t.isLt = out0_A_1 c (grid0.coords t) (ms0_0 t) (hs0_0 t) (ms0_1 t) (hs0_1 t) ((hcond0_0 t).mpr h0)
      (fun h => by have h' : t.val % 4 = 3 := (hcond0_1 t).mp h; omega) (iblk m c 0 t) := by
  obtain ⟨n, hn⟩ := t
  cases n with
  | zero => exact rfl
  | succ n => exact (dif_pos h0).trans rfl

/-- `outsAt0` at a point of token tile 1 or 2: over what the point before left. -/
theorem outsAt0_B (c : Dev nD) (t : Fin cfg0.N) (h0 : ¬t.val % 4 = 0) (h1 : ¬t.val % 4 = 3) :
    outsAt0 m c t.val t.isLt = out0_B_1 c (grid0.coords t) (ms0_0 t) (hs0_0 t) (ms0_1 t) (hs0_1 t) (fun h => h0 ((hcond0_0 t).mp h))
      (fun h => h1 ((hcond0_1 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of token tile 3: over what the point before left. -/
theorem outsAt0_C (c : Dev nD) (t : Fin cfg0.N) (h0 : ¬t.val % 4 = 0) (h1 : t.val % 4 = 3) :
    outsAt0 m c t.val t.isLt = out0_C_1 c (grid0.coords t) (ms0_0 t) (hs0_0 t) (ms0_1 t) (hs0_1 t) (fun h => h0 ((hcond0_0 t).mp h))
      ((hcond0_1 t).mpr h1) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the pipeline on core `c`: the arrays as the region finds them; after the body at point `t` the
    input's buffer at its block and the output's at `outsAt0`; the invariant is the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d
/-- At a point of token tile 1, 2 or 3 the output's current staging buffer holds what the body left at the point before:
    the point is not the first, and the block was not written back in between (that happens after tile 3 only). -/
theorem before0_1_kept (c : Dev nD) (t : Fin cfg0.N) (h0 : ¬t.val % 4 = 0) (d) :
    (dats m 0 c).before 1 t d = (outsAt0 m c (t.val - 1) (Nat.lt_of_le_of_lt (Nat.sub_le _ _) t.isLt)) := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 1600000 in
/-- The body at any point: the token tile says which case the point is in; in tiles 1–3 the output's buffer holds what
    the point before left; so that case's run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 8 := lt_of_lt_of_eq t.isLt (show cfg0.N = 8 from N_0)
  by_cases h0 : t.val % 4 = 0
  ·
    rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (fun h => by have h' : t.val % 4 = 3 := (hcond0_1 t).mp h; omega) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · by_cases h1 : t.val % 4 = 3
    ·
      rw [outsAt0_C m c t h0 h1]
      simp only [before0_1_kept m c t h0]
      unfold out0_C_1
      iintro ⟨HΦ, Ho, ⟨%d0, H0⟩, ⟨%d1, H1⟩⟩
      iapply ((kernelRun0_C c (grid0.coords t) _ _ _ _ (fun h => h0 ((hcond0_0 t).mp h)) ((hcond0_1 t).mpr h1) (iblk m c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_C_1 c _ _ _ _ _ _ _ _ _)
    ·
      rw [outsAt0_B m c t h0 h1]
      simp only [before0_1_kept m c t h0]
      unfold out0_B_1
      iintro ⟨HΦ, Ho, ⟨%d0, H0⟩, ⟨%d1, H1⟩⟩
      iapply ((kernelRun0_B c (grid0.coords t) _ _ _ _ (fun h => h0 ((hcond0_0 t).mp h)) (fun h => h1 ((hcond0_1 t).mp h)) (iblk m c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.K.KKeep.lean ====
import proofs.«121203_j91044716741010_2_alg».proof.Proof.Gen.Kernel.Launch
import Idealize.ShloMosaic.Lib.StableHlo.Run

/-!
# What the host tail leaves alone

The 105 host operations that follow the mean-pool each write exactly one buffer, their own result,
and these 105 result buffers are pairwise distinct from the seventeen arguments and from the pooled
features. Hence the tail changes none of those eighteen buffers, writes neither array of the
pipeline, allocates nothing fresh, and touches TensorCore references only.
-/

noncomputable section

namespace Cert.Kernel.KKeep

open Cert.Kernel Cert.Kernel.Gen Idealize.ShloMosaic Idealize.ShloMosaic.StableHlo

variable {F : FTy → Type} [FloatOps F]

/-- The tail, as its nine consecutive stretches of operations. -/
abbrev opss : List (List (HloOp τ sig (Elt F))) :=
  [hostOps1, hostOps1_1, hostOps1_2, hostOps1_3, hostOps1_4, hostOps1_5, hostOps1_6, hostOps1_7, hostOps1_8]

/-- The buffers the tail writes: one result per operation, 105 in all. -/
def written : List (Ref sig .tc) :=
  [
    main_v1, main_v2, main_v3, main_v4, main_v5, main_v6, main_v7, main_v8,
    main_v9, main_v10, main_v11, main_v12, main_v13, main_v14, main_v15, main_v16,
    main_v17, main_v18, main_v19, main_v20, main_v21, main_v22, main_v23, main_v24,
    main_v25, main_v26, main_v27, main_v28, main_v29, main_v30, main_v31, main_v32,
    main_v33, main_v34, main_v35, main_v36, main_v37, main_v38, main_v39, main_v40,
    main_v41, main_v42, main_v43, main_v44, main_v45, main_v46, main_v47, main_v48,
    main_v49, main_v50, main_v51, main_v52, main_v53, main_v54, main_v55, main_v56,
    main_v57, main_v58, main_v59, main_v60, main_v61, main_v62, main_v63, main_v64,
    main_v65, main_v66, main_v67, main_v68, main_v69, main_v70, main_v71, main_v72,
    main_v73, main_v74, main_v75, main_v76, main_v77, main_v78, main_v79, main_v80,
    main_v81, main_v82, main_v83, main_v84, main_v85, main_v86, main_call0_cst, main_call0_v0,
    main_call1_cst, main_call1_v0, main_call2_cst, main_call2_v0, main_call3_call0_c, main_call3_call0_v0, main_c, main_c_0,
    main_c_1, main_c_2, main_c_3, main_c_4, main_c_5, main_c_6, main_c_7, main_c_8,
    main_cst ]

set_option maxRecDepth 8192 in
set_option maxHeartbeats 4000000 in
/-- Every operation of the tail writes only buffers of that list. -/
theorem writes_sub : (List.flatten (opss (F := F))).Forall fun op =>
    op.writes ⊆ (written.map (Proc.devRef (τ := τ) .tc)).toFinset := by
  simp only [opss, hostOps1, hostOps1_1, hostOps1_2, hostOps1_3, hostOps1_4, hostOps1_5, hostOps1_6, hostOps1_7, hostOps1_8, List.flatten_cons, List.flatten_nil, List.append_nil, List.cons_append, List.nil_append, List.Forall,
    nullary_writes, unary_writes, binary_writes, ternary_writes, quaternary_writes, reshape_writes,
    Finset.singleton_subset_iff, List.mem_toFinset]
  repeat' apply And.intro
  all_goals exact List.mem_map_of_mem (by decide)

/-- A reference outside that list is written by no operation of the tail. -/
theorem not_written {r : Ref sig .tc} (hr : r ∉ written) :
    ∀ op ∈ List.flatten (opss (F := F)), Proc.devRef (τ := τ) .tc r ∉ op.writes := fun op hop hb => by
  obtain ⟨y, hy, he⟩ := List.mem_map.mp (List.mem_toFinset.mp ((List.forall_iff_forall_mem.mp writes_sub) op hop hb))
  exact hr (Proc.devRef_injective _ he ▸ hy)

/-! ## The arguments and the pooled features keep their contents -/

theorem keep_arg0 (W : Valuation τ sig (Elt F)) :
    after (List.flatten opss) W (Proc.devRef .tc main_arg0) = W (Proc.devRef .tc main_arg0) :=
  after_of_forall_not_mem _ _ (not_written (by decide))
theorem keep_arg1 (W : Valuation τ sig (Elt F)) :
    after (List.flatten opss) W (Proc.devRef .tc main_arg1) = W (Proc.devRef .tc main_arg1) :=
  after_of_forall_not_mem _ _ (not_written (by decide))
theorem keep_arg2 (W : Valuation τ sig (Elt F)) :
    after (List.flatten opss) W (Proc.devRef .tc main_arg2) = W (Proc.devRef .tc main_arg2) :=
  after_of_forall_not_mem _ _ (not_written (by decide))
theorem keep_arg3 (W : Valuation τ sig (Elt F)) :
    after (List.flatten opss) W (Proc.devRef .tc main_arg3) = W (Proc.devRef .tc main_arg3) :=
  after_of_forall_not_mem _ _ (not_written (by decide))
theorem keep_arg4 (W : Valuation τ sig (Elt F)) :
    after (List.flatten opss) W (Proc.devRef .tc main_arg4) = W (Proc.devRef .tc main_arg4) :=
  after_of_forall_not_mem _ _ (not_written (by decide))
theorem keep_arg5 (W : Valuation τ sig (Elt F)) :
    after (List.flatten opss) W (Proc.devRef .tc main_arg5) = W (Proc.devRef .tc main_arg5) :=
  after_of_forall_not_mem _ _ (not_written (by decide))
theorem keep_arg6 (W : Valuation τ sig (Elt F)) :
    after (List.flatten opss) W (Proc.devRef .tc main_arg6) = W (Proc.devRef .tc main_arg6) :=
  after_of_forall_not_mem _ _ (not_written (by decide))
theorem keep_arg7 (W : Valuation τ sig (Elt F)) :
    after (List.flatten opss) W (Proc.devRef .tc main_arg7) = W (Proc.devRef .tc main_arg7) :=
  after_of_forall_not_mem _ _ (not_written (by decide))
theorem keep_arg8 (W : Valuation τ sig (Elt F)) :
    after (List.flatten opss) W (Proc.devRef .tc main_arg8) = W (Proc.devRef .tc main_arg8) :=
  after_of_forall_not_mem _ _ (not_written (by decide))
theorem keep_arg9 (W : Valuation τ sig (Elt F)) :
    after (List.flatten opss) W (Proc.devRef .tc main_arg9) = W (Proc.devRef .tc main_arg9) :=
  after_of_forall_not_mem _ _ (not_written (by decide))
theorem keep_arg10 (W : Valuation τ sig (Elt F)) :
    after (List.flatten opss) W (Proc.devRef .tc main_arg10) = W (Proc.devRef .tc main_arg10) :=
  after_of_forall_not_mem _ _ (not_written (by decide))
theorem keep_arg11 (W : Valuation τ sig (Elt F)) :
    after (List.flatten opss) W (Proc.devRef .tc main_arg11) = W (Proc.devRef .tc main_arg11) :=
  after_of_forall_not_mem _ _ (not_written (by decide))
theorem keep_arg12 (W : Valuation τ sig (Elt F)) :
    after (List.flatten opss) W (Proc.devRef .tc main_arg12) = W (Proc.devRef .tc main_arg12) :=
  after_of_forall_not_mem _ _ (not_written (by decide))
theorem keep_arg13 (W : Valuation τ sig (Elt F)) :
    after (List.flatten opss) W (Proc.devRef .tc main_arg13) = W (Proc.devRef .tc main_arg13) :=
  after_of_forall_not_mem _ _ (not_written (by decide))
theorem keep_arg14 (W : Valuation τ sig (Elt F)) :
    after (List.flatten opss) W (Proc.devRef .tc main_arg14) = W (Proc.devRef .tc main_arg14) :=
  after_of_forall_not_mem _ _ (not_written (by decide))
theorem keep_arg15 (W : Valuation τ sig (Elt F)) :
    after (List.flatten opss) W (Proc.devRef .tc main_arg15) = W (Proc.devRef .tc main_arg15) :=
  after_of_forall_not_mem _ _ (not_written (by decide))
theorem keep_arg16 (W : Valuation τ sig (Elt F)) :
    after (List.flatten opss) W (Proc.devRef .tc main_arg16) = W (Proc.devRef .tc main_arg16) :=
  after_of_forall_not_mem _ _ (not_written (by decide))
theorem keep_v0 (W : Valuation τ sig (Elt F)) :
    after (List.flatten opss) W (Proc.devRef .tc main_v0) = W (Proc.devRef .tc main_v0) :=
  after_of_forall_not_mem _ _ (not_written (by decide))

/-! ## The three facts the frame takes -/

set_option maxRecDepth 8192 in
set_option maxHeartbeats 4000000 in
/-- No operation of the tail allocates a fresh buffer. -/
theorem flat_fresh : (List.flatten (opss (F := F))).Forall fun op => op.fresh = ∅ := by
  simp only [opss, hostOps1, hostOps1_1, hostOps1_2, hostOps1_3, hostOps1_4, hostOps1_5, hostOps1_6, hostOps1_7, hostOps1_8, List.flatten_cons, List.flatten_nil, List.append_nil, List.cons_append, List.nil_append, List.Forall]
  repeat' constructor

theorem opss_fresh : ∀ ops ∈ (opss : List (List (HloOp τ sig (Elt F)))), ∀ op ∈ ops, op.fresh = ∅ :=
  fun _ hops op hop => (List.forall_iff_forall_mem.mp flat_fresh) op (List.mem_flatten_of_mem hops hop)

/-- No operation of the tail writes an array of the pipeline: its input, argument 0, and its output,
    the pooled features. -/
theorem opss_keeps : ∀ ops ∈ (opss : List (List (HloOp τ sig (Elt F)))), ∀ op ∈ ops,
    ∀ w, Proc.devRef .tc (Pipeline.arrRef spec0 w) ∉ op.writes := by
  intro ops hops op hop w
  have hmem := List.mem_flatten_of_mem hops hop
  fin_cases w
  · exact not_written (r := main_arg0) (by decide) op hmem
  · exact not_written (r := main_v0) (by decide) op hmem

/-- Every operation of the tail touches TensorCore references only. -/
theorem opss_sub : ∀ ops ∈ (opss : List (List (HloOp τ sig (Elt F)))), ∀ op ∈ ops,
    op.bufs ⊆ StableHlo.tcRefs τ sig := by
  intro ops hops
  simp only [opss, List.mem_cons, List.not_mem_nil, or_false] at hops
  rcases hops with rfl | rfl | rfl | rfl | rfl | rfl | rfl | rfl | rfl
  · exact List.forall_iff_forall_mem.mp hostOps1_sub
  · exact List.forall_iff_forall_mem.mp hostOps1_1_sub
  · exact List.forall_iff_forall_mem.mp hostOps1_2_sub
  · exact List.forall_iff_forall_mem.mp hostOps1_3_sub
  · exact List.forall_iff_forall_mem.mp hostOps1_4_sub
  · exact List.forall_iff_forall_mem.mp hostOps1_5_sub
  · exact List.forall_iff_forall_mem.mp hostOps1_6_sub
  · exact List.forall_iff_forall_mem.mp hostOps1_7_sub
  · exact List.forall_iff_forall_mem.mp hostOps1_8_sub

end Cert.Kernel.KKeep

end
-- ==== Proof.K.Frame.lean ====
/-
  The run of `Kernel`'s @main: the mean-pool region under the pipeline's frame theorem, continued by the host
  lines after it. Those lines touch only unscoped TensorCore buffers, allocate nothing, and never write the two
  arrays the pipeline stages (the input and the pooled output), so the frame run carries through them: at the end
  every array of the pipeline holds what the proof data computes and every other buffer what the later lines leave.
  The argument arrays are written by no line, so they end as launched.
-/
import proofs.«121203_j91044716741010_2_alg».proof.Proof.K.Body
import proofs.«121203_j91044716741010_2_alg».proof.Proof.K.KKeep

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (KKeep.opss_sub ops hops op hop)

/-! ## The run -/

set_option backward.isDefEq.respectTransparency.types false in
/-- From any memory with zero counters every weakly fair execution of @main terminates; at the end every array of the
    pipeline holds what the proof data computes, every other unscoped buffer what the later lines leave. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := KKeep.opss_fresh) (hkeep := KKeep.opss_keeps)
    (hmain := hmain m Variants.none) (hA := A_eq m) (hΦ := fun _ _ => rfl)

/-! ## The argument arrays end as launched -/

theorem W_main_arg1 (c : Dev nD) :
    Pipeline.afterTail₀ cfgs (dats m) 0 (V0 m) opss c main_arg1 = m ((c : Thread nD τ).loc main_arg1) := by
  unfold Pipeline.afterTail₀
  refine (KKeep.keep_arg1 _).trans ?_
  exact Pipeline.withArrays_of_ne _ c (V0 m c) _ main_arg1 (by exact (by decide : ∀ w, Pipeline.arrRef spec0 w ≠ main_arg1))
theorem W_main_arg2 (c : Dev nD) :
    Pipeline.afterTail₀ cfgs (dats m) 0 (V0 m) opss c main_arg2 = m ((c : Thread nD τ).loc main_arg2) := by
  unfold Pipeline.afterTail₀
  refine (KKeep.keep_arg2 _).trans ?_
  exact Pipeline.withArrays_of_ne _ c (V0 m c) _ main_arg2 (by exact (by decide : ∀ w, Pipeline.arrRef spec0 w ≠ main_arg2))
theorem W_main_arg3 (c : Dev nD) :
    Pipeline.afterTail₀ cfgs (dats m) 0 (V0 m) opss c main_arg3 = m ((c : Thread nD τ).loc main_arg3) := by
  unfold Pipeline.afterTail₀
  refine (KKeep.keep_arg3 _).trans ?_
  exact Pipeline.withArrays_of_ne _ c (V0 m c) _ main_arg3 (by exact (by decide : ∀ w, Pipeline.arrRef spec0 w ≠ main_arg3))
theorem W_main_arg4 (c : Dev nD) :
    Pipeline.afterTail₀ cfgs (dats m) 0 (V0 m) opss c main_arg4 = m ((c : Thread nD τ).loc main_arg4) := by
  unfold Pipeline.afterTail₀
  refine (KKeep.keep_arg4 _).trans ?_
  exact Pipeline.withArrays_of_ne _ c (V0 m c) _ main_arg4 (by exact (by decide : ∀ w, Pipeline.arrRef spec0 w ≠ main_arg4))
theorem W_main_arg5 (c : Dev nD) :
    Pipeline.afterTail₀ cfgs (dats m) 0 (V0 m) opss c main_arg5 = m ((c : Thread nD τ).loc main_arg5) := by
  unfold Pipeline.afterTail₀
  refine (KKeep.keep_arg5 _).trans ?_
  exact Pipeline.withArrays_of_ne _ c (V0 m c) _ main_arg5 (by exact (by decide : ∀ w, Pipeline.arrRef spec0 w ≠ main_arg5))
theorem W_main_arg6 (c : Dev nD) :
    Pipeline.afterTail₀ cfgs (dats m) 0 (V0 m) opss c main_arg6 = m ((c : Thread nD τ).loc main_arg6) := by
  unfold Pipeline.afterTail₀
  refine (KKeep.keep_arg6 _).trans ?_
  exact Pipeline.withArrays_of_ne _ c (V0 m c) _ main_arg6 (by exact (by decide : ∀ w, Pipeline.arrRef spec0 w ≠ main_arg6))
theorem W_main_arg7 (c : Dev nD) :
    Pipeline.afterTail₀ cfgs (dats m) 0 (V0 m) opss c main_arg7 = m ((c : Thread nD τ).loc main_arg7) := by
  unfold Pipeline.afterTail₀
  refine (KKeep.keep_arg7 _).trans ?_
  exact Pipeline.withArrays_of_ne _ c (V0 m c) _ main_arg7 (by exact (by decide : ∀ w, Pipeline.arrRef spec0 w ≠ main_arg7))
theorem W_main_arg8 (c : Dev nD) :
    Pipeline.afterTail₀ cfgs (dats m) 0 (V0 m) opss c main_arg8 = m ((c : Thread nD τ).loc main_arg8) := by
  unfold Pipeline.afterTail₀
  refine (KKeep.keep_arg8 _).trans ?_
  exact Pipeline.withArrays_of_ne _ c (V0 m c) _ main_arg8 (by exact (by decide : ∀ w, Pipeline.arrRef spec0 w ≠ main_arg8))
theorem W_main_arg9 (c : Dev nD) :
    Pipeline.afterTail₀ cfgs (dats m) 0 (V0 m) opss c main_arg9 = m ((c : Thread nD τ).loc main_arg9) := by
  unfold Pipeline.afterTail₀
  refine (KKeep.keep_arg9 _).trans ?_
  exact Pipeline.withArrays_of_ne _ c (V0 m c) _ main_arg9 (by exact (by decide : ∀ w, Pipeline.arrRef spec0 w ≠ main_arg9))
theorem W_main_arg10 (c : Dev nD) :
    Pipeline.afterTail₀ cfgs (dats m) 0 (V0 m) opss c main_arg10 = m ((c : Thread nD τ).loc main_arg10) := by
  unfold Pipeline.afterTail₀
  refine (KKeep.keep_arg10 _).trans ?_
  exact Pipeline.withArrays_of_ne _ c (V0 m c) _ main_arg10 (by exact (by decide : ∀ w, Pipeline.arrRef spec0 w ≠ main_arg10))
theorem W_main_arg11 (c : Dev nD) :
    Pipeline.afterTail₀ cfgs (dats m) 0 (V0 m) opss c main_arg11 = m ((c : Thread nD τ).loc main_arg11) := by
  unfold Pipeline.afterTail₀
  refine (KKeep.keep_arg11 _).trans ?_
  exact Pipeline.withArrays_of_ne _ c (V0 m c) _ main_arg11 (by exact (by decide : ∀ w, Pipeline.arrRef spec0 w ≠ main_arg11))
theorem W_main_arg12 (c : Dev nD) :
    Pipeline.afterTail₀ cfgs (dats m) 0 (V0 m) opss c main_arg12 = m ((c : Thread nD τ).loc main_arg12) := by
  unfold Pipeline.afterTail₀
  refine (KKeep.keep_arg12 _).trans ?_
  exact Pipeline.withArrays_of_ne _ c (V0 m c) _ main_arg12 (by exact (by decide : ∀ w, Pipeline.arrRef spec0 w ≠ main_arg12))
theorem W_main_arg13 (c : Dev nD) :
    Pipeline.afterTail₀ cfgs (dats m) 0 (V0 m) opss c main_arg13 = m ((c : Thread nD τ).loc main_arg13) := by
  unfold Pipeline.afterTail₀
  refine (KKeep.keep_arg13 _).trans ?_
  exact Pipeline.withArrays_of_ne _ c (V0 m c) _ main_arg13 (by exact (by decide : ∀ w, Pipeline.arrRef spec0 w ≠ main_arg13))
theorem W_main_arg14 (c : Dev nD) :
    Pipeline.afterTail₀ cfgs (dats m) 0 (V0 m) opss c main_arg14 = m ((c : Thread nD τ).loc main_arg14) := by
  unfold Pipeline.afterTail₀
  refine (KKeep.keep_arg14 _).trans ?_
  exact Pipeline.withArrays_of_ne _ c (V0 m c) _ main_arg14 (by exact (by decide : ∀ w, Pipeline.arrRef spec0 w ≠ main_arg14))
theorem W_main_arg15 (c : Dev nD) :
    Pipeline.afterTail₀ cfgs (dats m) 0 (V0 m) opss c main_arg15 = m ((c : Thread nD τ).loc main_arg15) := by
  unfold Pipeline.afterTail₀
  refine (KKeep.keep_arg15 _).trans ?_
  exact Pipeline.withArrays_of_ne _ c (V0 m c) _ main_arg15 (by exact (by decide : ∀ w, Pipeline.arrRef spec0 w ≠ main_arg15))
theorem W_main_arg16 (c : Dev nD) :
    Pipeline.afterTail₀ cfgs (dats m) 0 (V0 m) opss c main_arg16 = m ((c : Thread nD τ).loc main_arg16) := by
  unfold Pipeline.afterTail₀
  refine (KKeep.keep_arg16 _).trans ?_
  exact Pipeline.withArrays_of_ne _ c (V0 m c) _ main_arg16 (by exact (by decide : ∀ w, Pipeline.arrRef spec0 w ≠ main_arg16))

/-- The frame claim's post: the seventeen argument arrays end unchanged. The input array is the pipeline's (read, never
    written back); the other sixteen bypass the region and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats m 0 c).arrAt_in 0 rfl _).trans ((A_eq m c 0).trans (V_eq m c main_arg0))),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c),
    ((h c).2 main_arg5 (Pipeline.mem_restRefs_of main_arg5 (by decide) (by decide))).trans (W_main_arg5 m c),
    ((h c).2 main_arg6 (Pipeline.mem_restRefs_of main_arg6 (by decide) (by decide))).trans (W_main_arg6 m c),
    ((h c).2 main_arg7 (Pipeline.mem_restRefs_of main_arg7 (by decide) (by decide))).trans (W_main_arg7 m c),
    ((h c).2 main_arg8 (Pipeline.mem_restRefs_of main_arg8 (by decide) (by decide))).trans (W_main_arg8 m c),
    ((h c).2 main_arg9 (Pipeline.mem_restRefs_of main_arg9 (by decide) (by decide))).trans (W_main_arg9 m c),
    ((h c).2 main_arg10 (Pipeline.mem_restRefs_of main_arg10 (by decide) (by decide))).trans (W_main_arg10 m c),
    ((h c).2 main_arg11 (Pipeline.mem_restRefs_of main_arg11 (by decide) (by decide))).trans (W_main_arg11 m c),
    ((h c).2 main_arg12 (Pipeline.mem_restRefs_of main_arg12 (by decide) (by decide))).trans (W_main_arg12 m c),
    ((h c).2 main_arg13 (Pipeline.mem_restRefs_of main_arg13 (by decide) (by decide))).trans (W_main_arg13 m c),
    ((h c).2 main_arg14 (Pipeline.mem_restRefs_of main_arg14 (by decide) (by decide))).trans (W_main_arg14 m c),
    ((h c).2 main_arg15 (Pipeline.mem_restRefs_of main_arg15 (by decide) (by decide))).trans (W_main_arg15 m c),
    ((h c).2 main_arg16 (Pipeline.mem_restRefs_of main_arg16 (by decide) (by decide))).trans (W_main_arg16 m c)⟩) (run_main m ρ)

end Cert.Kernel.Region

end
-- ==== Proof.KI.Runs.lean ====
/-
  The mean-pool region of `KernelIdeal`: what its proof shares across the three control cases of the body.
  The grid is 2 × 4: the leading coordinate picks a half of the batch (8 rows), the trailing one a tile of 1024
  tokens. The output block of a batch half stays resident across the four token tiles: it is reset at tile 0,
  added to at every tile, and scaled by 1/4096 at tile 3, after which it is written back. Here: the buffers'
  contents when the region is entered (the program starts with the region, so they are the launch contents), the
  host lines after the region as a list of stretches, each window's block at a grid point, and the two branch
  conditions of the body decided over the grid (tile 0 ⇔ point ≡ 0 mod 4, tile 3 ⇔ point ≡ 3 mod 4).
-/
import proofs.«121203_j91044716741010_2_alg».proof.Proof.Gen.KernelIdeal.Launch
import proofs.«121203_j91044716741010_2_alg».proof.Proof.Gen.KernelIdeal.Skeleton
import proofs.«121203_j91044716741010_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch (the outlined relu and cumsum bodies are stretches of their own). -/
abbrev opss : List (List (HloOp τ sig (Elt F))) :=
  [hostOps1, hostOps1_1, hostOps1_2, hostOps1_3, hostOps1_4, hostOps1_5, hostOps1_6, hostOps1_7, hostOps1_8]

/-- Core `c`'s buffer contents when the region is entered, as a valuation: no host line precedes the region. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The region finds every buffer as launched. -/
theorem V_eq (c : Dev nD) (b : Ref sig .tc) : V m c b = m ((c : Thread nD τ).loc b) := rfl

/-- @main is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall]) (by simp only [List.Forall]) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point), for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is token tile 0": the condition under which the body resets the output block. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- "This is token tile 3", the last: the condition under which the body scales the sum by 1/4096. -/
abbrev cond0_1 (i : grid0.Coords) : Prop := (Scalar.cmpi .ne (Scalar.extui (Scalar.cmpi .eq (BitVec.ofNat 32 (i 1).val) 3#32)) 0#32) = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## The staging memrefs the body is called with -/

/-- One staging buffer of the output window, through which its contents are stated (the choice does not matter). -/
abbrev VO0_1 : View sig .tc .vmem S8x768 .f32 := (Memref.whole cc0_stg1_0 : Memref sig .tc .vmem S8x768 .f32).view
/-- Each window's current staging memref at point `t`, spelled as the pipeline passes it, and its wholeness. -/
abbrev ms0_0 (t : Fin cfg0.N) : Memref sig .tc .vmem S8x1024x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x768 .f32 := win0_1.stage (cfg0.slots t 1)
abbrev hs0_1 (t : Fin cfg0.N) : (ms0_1 t).IsWhole := hstage0_1 ((cfg0.slots t 1).cast nbuf0_1)

end Cert.KernelIdeal.Region

end
-- ==== Proof.KI.RunA.lean ====
/-
  The mean-pool body of `KernelIdeal` run symbolically in the reset case (token tile 0): the block is zeroed, then the tile's sum is added to it.
  The result is the list of stores the output block ends with (last first), found by the run itself, together
  with the triple: from whole staging buffers — the input's at its block, the output's at anything — the body
  runs to a continuation that holds the input's buffer unchanged and the output's with those stores written.
-/
import proofs.«121203_j91044716741010_2_alg».proof.Proof.KI.Runs

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output block in this case, with the proof that the body runs to them. -/
noncomputable def kernelRun0_A (c : Dev nD) (i : grid0.Coords) (arg2 : Memref sig .tc .vmem S8x1024x768 .f32) (harg2 : arg2.IsWhole) (arg3 : Memref sig .tc .vmem S8x768 .f32) (harg3 : arg3.IsWhole) (hc0 : cond0_0 i) (hc1 : ¬cond0_1 i)
    (x0 : Vec F S8x1024x768 .f32) :
    { L1 : List (View.Piece (Elt F) S8x768 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_pool_kernel i arg2 harg2 arg3 harg3) K } := by
  refine ⟨?_, fun E K => ?run⟩
  case run =>
    simp only [cc0__mean_pool_kernel_eq_skeleton]; unfold cc0__mean_pool_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.KernelIdeal.Region

end
-- ==== Proof.KI.RunB.lean ====
/-
  The mean-pool body of `KernelIdeal` run symbolically in the middle case (token tiles 1 and 2): the tile's sum is added to what the block holds.
  The result is the list of stores the output block ends with (last first), found by the run itself, together
  with the triple: from whole staging buffers — the input's at its block, the output's at its running contents — the body
  runs to a continuation that holds the input's buffer unchanged and the output's with those stores written.
-/
import proofs.«121203_j91044716741010_2_alg».proof.Proof.KI.Runs

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output block in this case, with the proof that the body runs to them. -/
noncomputable def kernelRun0_B (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : ¬cond0_1 i)
    (x0 : Vec F S8x1024x768 .f32) (xo1 : Vec F S8x768 .f32) :
    { L1 : List (View.Piece (Elt F) S8x768 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_pool_kernel i arg2 harg2 arg3 harg3) K } := by
  refine ⟨?_, fun E K => ?run⟩
  case run =>
    simp only [cc0__mean_pool_kernel_eq_skeleton]; unfold cc0__mean_pool_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Region

end
-- ==== Proof.KI.RunC.lean ====
/-
  The mean-pool body of `KernelIdeal` run symbolically in the closing case (token tile 3): the tile's sum is added to what the block holds, and the total is scaled by 1/4096.
  The result is the list of stores the output block ends with (last first), found by the run itself, together
  with the triple: from whole staging buffers — the input's at its block, the output's at its running contents — the body
  runs to a continuation that holds the input's buffer unchanged and the output's with those stores written.
-/
import proofs.«121203_j91044716741010_2_alg».proof.Proof.KI.Runs

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output block in this case, with the proof that the body runs to them. -/
noncomputable def kernelRun0_C (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : cond0_1 i)
    (x0 : Vec F S8x1024x768 .f32) (xo1 : Vec F S8x768 .f32) :
    { L1 : List (View.Piece (Elt F) S8x768 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__mean_pool_kernel i arg2 harg2 arg3 harg3) K } := by
  refine ⟨?_, fun E K => ?run⟩
  case run =>
    simp only [cc0__mean_pool_kernel_eq_skeleton]; unfold cc0__mean_pool_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Region

end
-- ==== Proof.KI.Body.lean ====
/-
  The mean-pool region of `KernelIdeal`: what the output block holds after each grid point, and the body's obligation.
  A point's case is fixed by its token tile (point mod 4): tile 0 resets the block and adds the tile's sum, tiles
  1 and 2 add to what the point before left (the block is not written back in between), tile 3 adds and scales.
  `outsAt0` follows that recursion over the points; the proof data names it as what the body leaves; the body
  obligation is then the three symbolic runs, one per case.
-/
import proofs.«121203_j91044716741010_2_alg».proof.Proof.KI.RunA
import proofs.«121203_j91044716741010_2_alg».proof.Proof.KI.RunB
import proofs.«121203_j91044716741010_2_alg».proof.Proof.KI.RunC

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In case A the stores the body leaves tile the output block, so they cover it. -/
theorem cover0_A_1 (c : Dev nD) (i : grid0.Coords) (arg2 : Memref sig .tc .vmem S8x1024x768 .f32) (harg2 : arg2.IsWhole) (arg3 : Memref sig .tc .vmem S8x768 .f32) (harg3 : arg3.IsWhole) (hc0 : cond0_0 i) (hc1 : ¬cond0_1 i)
    (x0 : Vec F S8x1024x768 .f32) (y : S8x768.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S8x768.size (by sl_kernel_rfl) y

/-- What case A leaves in the output block: its stores read back. -/
def out0_A_1 (c : Dev nD) (i : grid0.Coords) (arg2 : Memref sig .tc .vmem S8x1024x768 .f32) (harg2 : arg2.IsWhole) (arg3 : Memref sig .tc .vmem S8x768 .f32) (harg3 : arg3.IsWhole) (hc0 : cond0_0 i) (hc1 : ¬cond0_1 i)
    (x0 : Vec F S8x1024x768 .f32) : Vec F S8x768 .f32 :=
  VO0_1.read (Elt F) (VO0_1.writes (Elt F) VO0_1.junk (kernelRun0_A c i arg2 harg2 arg3 harg3 hc0 hc1 x0).1)

/-- In case B the stores the body leaves tile the output block, so they cover it. -/
theorem cover0_B_1 (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : ¬cond0_1 i)
    (x0 : Vec F S8x1024x768 .f32) (xo1 : Vec F S8x768 .f32) (y : S8x768.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S8x768.size (by sl_kernel_rfl) y

/-- What case B leaves in the output block: its stores read back. -/
def out0_B_1 (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : ¬cond0_1 i)
    (x0 : Vec F S8x1024x768 .f32) (xo1 : Vec F S8x768 .f32) : Vec F S8x768 .f32 :=
  VO0_1.read (Elt F) (VO0_1.writes (Elt F) VO0_1.junk (kernelRun0_B c i arg2 harg2 arg3 harg3 hc0 hc1 x0 xo1).1)

/-- In case C the stores the body leaves tile the output block, so they cover it. -/
theorem cover0_C_1 (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : cond0_1 i)
    (x0 : Vec F S8x1024x768 .f32) (xo1 : Vec F S8x768 .f32) (y : S8x768.Idx) :
    ∃ pc ∈ (kernelRun0_C c i arg2 harg2 arg3 harg3 hc0 hc1 x0 xo1).1, y ∈ pc.1.set :=
  View.cover_of_tiledL (kernelRun0_C c i arg2 harg2 arg3 harg3 hc0 hc1 x0 xo1).1 S8x768.size (by sl_kernel_rfl) y

/-- What case C leaves in the output block: its stores read back. -/
def out0_C_1 (c : Dev nD) (i : grid0.Coords) (arg2 : Memref sig .tc .vmem S8x1024x768 .f32) (harg2 : arg2.IsWhole) (arg3 : Memref sig .tc .vmem S8x768 .f32) (harg3 : arg3.IsWhole) (hc0 : ¬cond0_0 i) (hc1 : cond0_1 i)
    (x0 : Vec F S8x1024x768 .f32) (xo1 : Vec F S8x768 .f32) : Vec F S8x768 .f32 :=
  VO0_1.read (Elt F) (VO0_1.writes (Elt F) VO0_1.junk (kernelRun0_C c i arg2 harg2 arg3 harg3 hc0 hc1 x0 xo1).1)

/-! ## What the output block holds after each point -/

/-- The accumulation: the output block after the body at position `n` — the case the token tile selects, run on the
    point's input block, and (tiles 1–3) on what the point before left. -/
def outsAt0 (c : Dev nD) : (n : ℕ) → n < cfg0.N → Vec F S8x768 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _))
      (fun h => by have h' : 0 % 4 = 3 := (hcond0_1 ⟨0, hn⟩).mp h; omega) (iblk m c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0)
        (fun h => by have h' : (n + 1) % 4 = 3 := (hcond0_1 ⟨n + 1, hn⟩).mp h; omega) (iblk m c 0 ⟨n + 1, hn⟩)
    else if h1 : (n + 1) % 4 = 3 then
      out0_C_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h))
        ((hcond0_1 ⟨n + 1, hn⟩).mpr h1) (iblk m c 0 ⟨n + 1, hn⟩) (outsAt0 c n (Nat.lt_of_succ_lt hn))
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h))
        (fun h => h1 ((hcond0_1 ⟨n + 1, hn⟩).mp h)) (iblk m c 0 ⟨n + 1, hn⟩) (outsAt0 c n (Nat.lt_of_succ_lt hn))

/-- `outsAt0` at a point of token tile 0. -/
theorem outsAt0_A (c : Dev nD) (t : Fin cfg0.N) (h0 : t.val % 4 = 0) :
    outsAt0 m c t.val t.isLt = out0_A_1 c (grid0.coords t) (ms0_0 t) (hs0_0 t) (ms0_1 t) (hs0_1 t) ((hcond0_0 t).mpr h0)
      (fun h => by have h' : t.val % 4 = 3 := (hcond0_1 t).mp h; omega) (iblk m c 0 t) := by
  obtain ⟨n, hn⟩ := t
  cases n with
  | zero => exact rfl
  | succ n => exact (dif_pos h0).trans rfl

/-- `outsAt0` at a point of token tile 1 or 2: over what the point before left. -/
theorem outsAt0_B (c : Dev nD) (t : Fin cfg0.N) (h0 : ¬t.val % 4 = 0) (h1 : ¬t.val % 4 = 3) :
    outsAt0 m c t.val t.isLt = out0_B_1 c (grid0.coords t) (ms0_0 t) (hs0_0 t) (ms0_1 t) (hs0_1 t) (fun h => h0 ((hcond0_0 t).mp h))
      (fun h => h1 ((hcond0_1 t).mp h)) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of token tile 3: over what the point before left. -/
theorem outsAt0_C (c : Dev nD) (t : Fin cfg0.N) (h0 : ¬t.val % 4 = 0) (h1 : t.val % 4 = 3) :
    outsAt0 m c t.val t.isLt = out0_C_1 c (grid0.coords t) (ms0_0 t) (hs0_0 t) (ms0_1 t) (hs0_1 t) (fun h => h0 ((hcond0_0 t).mp h))
      ((hcond0_1 t).mpr h1) (iblk m c 0 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the pipeline on core `c`: the arrays as the region finds them; after the body at point `t` the
    input's buffer at its block and the output's at `outsAt0`; the invariant is the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d
/-- At a point of token tile 1, 2 or 3 the output's current staging buffer holds what the body left at the point before:
    the point is not the first, and the block was not written back in between (that happens after tile 3 only). -/
theorem before0_1_kept (c : Dev nD) (t : Fin cfg0.N) (h0 : ¬t.val % 4 = 0) (d) :
    (dats m 0 c).before 1 t d = (outsAt0 m c (t.val - 1) (Nat.lt_of_le_of_lt (Nat.sub_le _ _) t.isLt)) := by
  have hN : t.val < 8 := lt_of_lt_of_eq t.isLt (show cfg0.N = 8 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 1600000 in
/-- The body at any point: the token tile says which case the point is in; in tiles 1–3 the output's buffer holds what
    the point before left; so that case's run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 8 := lt_of_lt_of_eq t.isLt (show cfg0.N = 8 from N_0)
  by_cases h0 : t.val % 4 = 0
  ·
    rw [outsAt0_A m c t h0]
    unfold out0_A_1
    iintro ⟨HΦ, Ho, ⟨%d0, H0⟩, ⟨%d1, H1⟩⟩
    iapply ((kernelRun0_A c (grid0.coords t) _ _ _ _ ((hcond0_0 t).mpr h0) (fun h => by have h' : t.val % 4 = 3 := (hcond0_1 t).mp h; omega) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · by_cases h1 : t.val % 4 = 3
    ·
      rw [outsAt0_C m c t h0 h1]
      simp only [before0_1_kept m c t h0]
      unfold out0_C_1
      iintro ⟨HΦ, Ho, ⟨%d0, H0⟩, ⟨%d1, H1⟩⟩
      iapply ((kernelRun0_C c (grid0.coords t) _ _ _ _ (fun h => h0 ((hcond0_0 t).mp h)) ((hcond0_1 t).mpr h1) (iblk m c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_C_1 c _ _ _ _ _ _ _ _ _)
    ·
      rw [outsAt0_B m c t h0 h1]
      simp only [before0_1_kept m c t h0]
      unfold out0_B_1
      iintro ⟨HΦ, Ho, ⟨%d0, H0⟩, ⟨%d1, H1⟩⟩
      iapply ((kernelRun0_B c (grid0.coords t) _ _ _ _ (fun h => h0 ((hcond0_0 t).mp h)) (fun h => h1 ((hcond0_1 t).mp h)) (iblk m c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KI.Pieces.lean ====
/-
  The three control cases of `KernelIdeal`'s mean-pool body, read as values. Each case leaves one covering store on top
  of the output block, so what the block holds is that store's payload of what the body loaded:
    tile 0      the zero block plus the tile's sum over its 1024 tokens;
    tiles 1, 2  what the block held plus the tile's sum;
    tile 3      what the block held plus the tile's sum, the total then multiplied by the constant 2⁻¹² = 1/4096.
  The payload names are the skeleton's: `k0_pay1` the zero block, `k0_pay2 acc x` = acc + (sum of x over the token
  axis), `k0_pay3 v` = v · 2⁻¹².
-/
import proofs.«121203_j91044716741010_2_alg».proof.Proof.KI.Body
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- Tiles 1 and 2: the block ends at its running contents plus the tile's sum. -/
theorem out_B (c : Dev nD) (i : grid0.Coords) (a2 : Memref sig .tc .vmem S8x1024x768 .f32) (h2 : a2.IsWhole)
    (a3 : Memref sig .tc .vmem S8x768 .f32) (h3 : a3.IsWhole) (hc0 : ¬cond0_0 i) (hc1 : ¬cond0_1 i) (x : Vec F S8x1024x768 .f32) (xo : Vec F S8x768 .f32) :
    out0_B_1 c i a2 h2 a3 h3 hc0 hc1 x xo = k0_pay2 xo x := by
  unfold out0_B_1
  rw [View.read_writes_eq_canon _ _ _ (cover0_B_1 c i a2 h2 a3 h3 hc0 hc1 x xo)]
  unfold kernelRun0_B
  dsimp only
  sl_unfold_words
  rw [View.canon_unit_zero hz]
  simp only [View.readAt_eq_ld, h2.read_unread, h3.read_unread, View.ld_unit_zero (S := S8x768) hz, View.ld_unit_zero (S := S8x1024x768) hz3]

/-- Tile 0: the body stores the zero block, reads it back, and leaves it plus the tile's sum. -/
theorem out_A (c : Dev nD) (i : grid0.Coords) (a2 : Memref sig .tc .vmem S8x1024x768 .f32) (h2 : a2.IsWhole)
    (a3 : Memref sig .tc .vmem S8x768 .f32) (h3 : a3.IsWhole) (hc0 : cond0_0 i) (hc1 : ¬cond0_1 i) (x : Vec F S8x1024x768 .f32) :
    out0_A_1 c i a2 h2 a3 h3 hc0 hc1 x = k0_pay2 (k0_pay1 (F := F)) x := by
  unfold out0_A_1
  rw [View.read_writes_eq_canon _ _ _ (cover0_A_1 c i a2 h2 a3 h3 hc0 hc1 x)]
  unfold kernelRun0_A
  dsimp only
  sl_unfold_words
  rw [View.canon_cons_unit_zero (S := S8x768) hz, View.readCov_unit_zero (S := S8x768) _ hz]
  simp only [View.readAt_eq_ld, h2.read_unread, View.ld_unit_zero (S := S8x768) hz, View.ld_unit_zero (S := S8x1024x768) hz3]

/-- Tile 3: the body adds the tile's sum to the running contents, reads the total back and leaves it scaled. -/
theorem out_C (c : Dev nD) (i : grid0.Coords) (a2 : Memref sig .tc .vmem S8x1024x768 .f32) (h2 : a2.IsWhole)
    (a3 : Memref sig .tc .vmem S8x768 .f32) (h3 : a3.IsWhole) (hc0 : ¬cond0_0 i) (hc1 : cond0_1 i) (x : Vec F S8x1024x768 .f32) (xo : Vec F S8x768 .f32) :
    out0_C_1 c i a2 h2 a3 h3 hc0 hc1 x xo = k0_pay3 (k0_pay2 xo x) := by
  unfold out0_C_1
  rw [View.read_writes_eq_canon _ _ _ (cover0_C_1 c i a2 h2 a3 h3 hc0 hc1 x xo)]
  unfold kernelRun0_C
  dsimp only
  sl_unfold_words
  rw [View.canon_cons_unit_zero (S := S8x768) hz, View.readCov_unit_zero (S := S8x768) _ hz]
  simp only [View.readAt_eq_ld, h2.read_unread, h3.read_unread, View.ld_unit_zero (S := S8x768) hz, View.ld_unit_zero (S := S8x1024x768) hz3]

/-- A full pass over the four token tiles of one batch half, ending at a point of tile 3: the block holds the zero
    block plus the four tiles' sums, added in tile order, times 2⁻¹². -/
theorem acc_tile3 (c : Dev nD) (n : ℕ) (h : n + 3 < cfg0.N) (h4 : n % 4 = 0) :
    outsAt0 m c (n + 3) h = k0_pay3 (k0_pay2 (k0_pay2 (k0_pay2 (k0_pay2 (k0_pay1 (F := F))
      (iblk m c 0 ⟨n, by omega⟩)) (iblk m c 0 ⟨n + 1, by omega⟩)) (iblk m c 0 ⟨n + 2, by omega⟩)) (iblk m c 0 ⟨n + 3, h⟩)) := by
  rw [outsAt0_C m c ⟨n + 3, h⟩ (by dsimp only; omega) (by dsimp only; omega), out_C]
  show k0_pay3 (k0_pay2 (outsAt0 m c (n + 2) _) _) = _
  rw [outsAt0_B m c ⟨n + 2, by omega⟩ (by dsimp only; omega) (by dsimp only; omega), out_B]
  show k0_pay3 (k0_pay2 (k0_pay2 (outsAt0 m c (n + 1) _) _) _) = _
  rw [outsAt0_B m c ⟨n + 1, by omega⟩ (by dsimp only; omega) (by dsimp only; omega), out_B]
  show k0_pay3 (k0_pay2 (k0_pay2 (k0_pay2 (outsAt0 m c n _) _) _) _) = _
  rw [outsAt0_A m c ⟨n, by omega⟩ (by dsimp only; omega), out_A]

end Cert.KernelIdeal.Region

end
-- ==== Proof.KKeep.lean ====
import proofs.«121203_j91044716741010_2_alg».proof.Proof.Gen.KernelIdeal.Launch
import Idealize.ShloMosaic.Lib.StableHlo.Run

/-!
# What the host tail leaves alone

The 105 host operations that follow the mean-pool each write exactly one buffer, their own result,
and these 105 result buffers are pairwise distinct from the seventeen arguments and from the pooled
features. Hence the tail changes none of those eighteen buffers, writes neither array of the
pipeline, allocates nothing fresh, and touches TensorCore references only.
-/

noncomputable section

namespace Cert.KernelIdeal.KKeep

open Cert.KernelIdeal Cert.KernelIdeal.Gen Idealize.ShloMosaic Idealize.ShloMosaic.StableHlo

variable {F : FTy → Type} [FloatOps F]

/-- The tail, as its nine consecutive stretches of operations. -/
abbrev opss : List (List (HloOp τ sig (Elt F))) :=
  [hostOps1, hostOps1_1, hostOps1_2, hostOps1_3, hostOps1_4, hostOps1_5, hostOps1_6, hostOps1_7, hostOps1_8]

/-- The buffers the tail writes: one result per operation, 105 in all. -/
def written : List (Ref sig .tc) :=
  [
    main_v1, main_v2, main_v3, main_v4, main_v5, main_v6, main_v7, main_v8,
    main_v9, main_v10, main_v11, main_v12, main_v13, main_v14, main_v15, main_v16,
    main_v17, main_v18, main_v19, main_v20, main_v21, main_v22, main_v23, main_v24,
    main_v25, main_v26, main_v27, main_v28, main_v29, main_v30, main_v31, main_v32,
    main_v33, main_v34, main_v35, main_v36, main_v37, main_v38, main_v39, main_v40,
    main_v41, main_v42, main_v43, main_v44, main_v45, main_v46, main_v47, main_v48,
    main_v49, main_v50, main_v51, main_v52, main_v53, main_v54, main_v55, main_v56,
    main_v57, main_v58, main_v59, main_v60, main_v61, main_v62, main_v63, main_v64,
    main_v65, main_v66, main_v67, main_v68, main_v69, main_v70, main_v71, main_v72,
    main_v73, main_v74, main_v75, main_v76, main_v77, main_v78, main_v79, main_v80,
    main_v81, main_v82, main_v83, main_v84, main_v85, main_v86, main_call0_cst, main_call0_v0,
    main_call1_cst, main_call1_v0, main_call2_cst, main_call2_v0, main_call3_call0_c, main_call3_call0_v0, main_c, main_c_0,
    main_c_1, main_c_2, main_c_3, main_c_4, main_c_5, main_c_6, main_c_7, main_c_8,
    main_cst ]

set_option maxRecDepth 8192 in
set_option maxHeartbeats 4000000 in
/-- Every operation of the tail writes only buffers of that list. -/
theorem writes_sub : (List.flatten (opss (F := F))).Forall fun op =>
    op.writes ⊆ (written.map (Proc.devRef (τ := τ) .tc)).toFinset := by
  simp only [opss, hostOps1, hostOps1_1, hostOps1_2, hostOps1_3, hostOps1_4, hostOps1_5, hostOps1_6, hostOps1_7, hostOps1_8, List.flatten_cons, List.flatten_nil, List.append_nil, List.cons_append, List.nil_append, List.Forall,
    nullary_writes, unary_writes, binary_writes, ternary_writes, quaternary_writes, reshape_writes,
    Finset.singleton_subset_iff, List.mem_toFinset]
  repeat' apply And.intro
  all_goals exact List.mem_map_of_mem (by decide)

/-- A reference outside that list is written by no operation of the tail. -/
theorem not_written {r : Ref sig .tc} (hr : r ∉ written) :
    ∀ op ∈ List.flatten (opss (F := F)), Proc.devRef (τ := τ) .tc r ∉ op.writes := fun op hop hb => by
  obtain ⟨y, hy, he⟩ := List.mem_map.mp (List.mem_toFinset.mp ((List.forall_iff_forall_mem.mp writes_sub) op hop hb))
  exact hr (Proc.devRef_injective _ he ▸ hy)

/-! ## The arguments and the pooled features keep their contents -/

theorem keep_arg0 (W : Valuation τ sig (Elt F)) :
    after (List.flatten opss) W (Proc.devRef .tc main_arg0) = W (Proc.devRef .tc main_arg0) :=
  after_of_forall_not_mem _ _ (not_written (by decide))
theorem keep_arg1 (W : Valuation τ sig (Elt F)) :
    after (List.flatten opss) W (Proc.devRef .tc main_arg1) = W (Proc.devRef .tc main_arg1) :=
  after_of_forall_not_mem _ _ (not_written (by decide))
theorem keep_arg2 (W : Valuation τ sig (Elt F)) :
    after (List.flatten opss) W (Proc.devRef .tc main_arg2) = W (Proc.devRef .tc main_arg2) :=
  after_of_forall_not_mem _ _ (not_written (by decide))
theorem keep_arg3 (W : Valuation τ sig (Elt F)) :
    after (List.flatten opss) W (Proc.devRef .tc main_arg3) = W (Proc.devRef .tc main_arg3) :=
  after_of_forall_not_mem _ _ (not_written (by decide))
theorem keep_arg4 (W : Valuation τ sig (Elt F)) :
    after (List.flatten opss) W (Proc.devRef .tc main_arg4) = W (Proc.devRef .tc main_arg4) :=
  after_of_forall_not_mem _ _ (not_written (by decide))
theorem keep_arg5 (W : Valuation τ sig (Elt F)) :
    after (List.flatten opss) W (Proc.devRef .tc main_arg5) = W (Proc.devRef .tc main_arg5) :=
  after_of_forall_not_mem _ _ (not_written (by decide))
theorem keep_arg6 (W : Valuation τ sig (Elt F)) :
    after (List.flatten opss) W (Proc.devRef .tc main_arg6) = W (Proc.devRef .tc main_arg6) :=
  after_of_forall_not_mem _ _ (not_written (by decide))
theorem keep_arg7 (W : Valuation τ sig (Elt F)) :
    after (List.flatten opss) W (Proc.devRef .tc main_arg7) = W (Proc.devRef .tc main_arg7) :=
  after_of_forall_not_mem _ _ (not_written (by decide))
theorem keep_arg8 (W : Valuation τ sig (Elt F)) :
    after (List.flatten opss) W (Proc.devRef .tc main_arg8) = W (Proc.devRef .tc main_arg8) :=
  after_of_forall_not_mem _ _ (not_written (by decide))
theorem keep_arg9 (W : Valuation τ sig (Elt F)) :
    after (List.flatten opss) W (Proc.devRef .tc main_arg9) = W (Proc.devRef .tc main_arg9) :=
  after_of_forall_not_mem _ _ (not_written (by decide))
theorem keep_arg10 (W : Valuation τ sig (Elt F)) :
    after (List.flatten opss) W (Proc.devRef .tc main_arg10) = W (Proc.devRef .tc main_arg10) :=
  after_of_forall_not_mem _ _ (not_written (by decide))
theorem keep_arg11 (W : Valuation τ sig (Elt F)) :
    after (List.flatten opss) W (Proc.devRef .tc main_arg11) = W (Proc.devRef .tc main_arg11) :=
  after_of_forall_not_mem _ _ (not_written (by decide))
theorem keep_arg12 (W : Valuation τ sig (Elt F)) :
    after (List.flatten opss) W (Proc.devRef .tc main_arg12) = W (Proc.devRef .tc main_arg12) :=
  after_of_forall_not_mem _ _ (not_written (by decide))
theorem keep_arg13 (W : Valuation τ sig (Elt F)) :
    after (List.flatten opss) W (Proc.devRef .tc main_arg13) = W (Proc.devRef .tc main_arg13) :=
  after_of_forall_not_mem _ _ (not_written (by decide))
theorem keep_arg14 (W : Valuation τ sig (Elt F)) :
    after (List.flatten opss) W (Proc.devRef .tc main_arg14) = W (Proc.devRef .tc main_arg14) :=
  after_of_forall_not_mem _ _ (not_written (by decide))
theorem keep_arg15 (W : Valuation τ sig (Elt F)) :
    after (List.flatten opss) W (Proc.devRef .tc main_arg15) = W (Proc.devRef .tc main_arg15) :=
  after_of_forall_not_mem _ _ (not_written (by decide))
theorem keep_arg16 (W : Valuation τ sig (Elt F)) :
    after (List.flatten opss) W (Proc.devRef .tc main_arg16) = W (Proc.devRef .tc main_arg16) :=
  after_of_forall_not_mem _ _ (not_written (by decide))
theorem keep_v0 (W : Valuation τ sig (Elt F)) :
    after (List.flatten opss) W (Proc.devRef .tc main_v0) = W (Proc.devRef .tc main_v0) :=
  after_of_forall_not_mem _ _ (not_written (by decide))

/-! ## The three facts the frame takes -/

set_option maxRecDepth 8192 in
set_option maxHeartbeats 4000000 in
/-- No operation of the tail allocates a fresh buffer. -/
theorem flat_fresh : (List.flatten (opss (F := F))).Forall fun op => op.fresh = ∅ := by
  simp only [opss, hostOps1, hostOps1_1, hostOps1_2, hostOps1_3, hostOps1_4, hostOps1_5, hostOps1_6, hostOps1_7, hostOps1_8, List.flatten_cons, List.flatten_nil, List.append_nil, List.cons_append, List.nil_append, List.Forall]
  repeat' constructor

theorem opss_fresh : ∀ ops ∈ (opss : List (List (HloOp τ sig (Elt F)))), ∀ op ∈ ops, op.fresh = ∅ :=
  fun _ hops op hop => (List.forall_iff_forall_mem.mp flat_fresh) op (List.mem_flatten_of_mem hops hop)

/-- No operation of the tail writes an array of the pipeline: its input, argument 0, and its output,
    the pooled features. -/
theorem opss_keeps : ∀ ops ∈ (opss : List (List (HloOp τ sig (Elt F)))), ∀ op ∈ ops,
    ∀ w, Proc.devRef .tc (Pipeline.arrRef spec0 w) ∉ op.writes := by
  intro ops hops op hop w
  have hmem := List.mem_flatten_of_mem hops hop
  fin_cases w
  · exact not_written (r := main_arg0) (by decide) op hmem
  · exact not_written (r := main_v0) (by decide) op hmem

/-- Every operation of the tail touches TensorCore references only. -/
theorem opss_sub : ∀ ops ∈ (opss : List (List (HloOp τ sig (Elt F)))), ∀ op ∈ ops,
    op.bufs ⊆ StableHlo.tcRefs τ sig := by
  intro ops hops
  simp only [opss, List.mem_cons, List.not_mem_nil, or_false] at hops
  rcases hops with rfl | rfl | rfl | rfl | rfl | rfl | rfl | rfl | rfl
  · exact List.forall_iff_forall_mem.mp hostOps1_sub
  · exact List.forall_iff_forall_mem.mp hostOps1_1_sub
  · exact List.forall_iff_forall_mem.mp hostOps1_2_sub
  · exact List.forall_iff_forall_mem.mp hostOps1_3_sub
  · exact List.forall_iff_forall_mem.mp hostOps1_4_sub
  · exact List.forall_iff_forall_mem.mp hostOps1_5_sub
  · exact List.forall_iff_forall_mem.mp hostOps1_6_sub
  · exact List.forall_iff_forall_mem.mp hostOps1_7_sub
  · exact List.forall_iff_forall_mem.mp hostOps1_8_sub

end Cert.KernelIdeal.KKeep

end
-- ==== Proof.KI.Frame.lean ====
/-
  The run of `KernelIdeal`'s @main: the mean-pool region under the pipeline's frame theorem, continued by the host
  lines after it. Those lines touch only unscoped TensorCore buffers, allocate nothing, and never write the two
  arrays the pipeline stages (the input and the pooled output), so the frame run carries through them: at the end
  every array of the pipeline holds what the proof data computes and every other buffer what the later lines leave.
  The argument arrays are written by no line, so they end as launched.
-/
import proofs.«121203_j91044716741010_2_alg».proof.Proof.KI.Body
import proofs.«121203_j91044716741010_2_alg».proof.Proof.KKeep

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (KKeep.opss_sub ops hops op hop)

/-! ## The run -/

set_option backward.isDefEq.respectTransparency.types false in
/-- From any memory with zero counters every weakly fair execution of @main terminates; at the end every array of the
    pipeline holds what the proof data computes, every other unscoped buffer what the later lines leave. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := KKeep.opss_fresh) (hkeep := KKeep.opss_keeps)
    (hmain := hmain m Variants.none) (hA := A_eq m) (hΦ := fun _ _ => rfl)

/-! ## The argument arrays end as launched -/

theorem W_main_arg1 (c : Dev nD) :
    Pipeline.afterTail₀ cfgs (dats m) 0 (V0 m) opss c main_arg1 = m ((c : Thread nD τ).loc main_arg1) := by
  unfold Pipeline.afterTail₀
  refine (KKeep.keep_arg1 _).trans ?_
  exact Pipeline.withArrays_of_ne _ c (V0 m c) _ main_arg1 (by exact (by decide : ∀ w, Pipeline.arrRef spec0 w ≠ main_arg1))
theorem W_main_arg2 (c : Dev nD) :
    Pipeline.afterTail₀ cfgs (dats m) 0 (V0 m) opss c main_arg2 = m ((c : Thread nD τ).loc main_arg2) := by
  unfold Pipeline.afterTail₀
  refine (KKeep.keep_arg2 _).trans ?_
  exact Pipeline.withArrays_of_ne _ c (V0 m c) _ main_arg2 (by exact (by decide : ∀ w, Pipeline.arrRef spec0 w ≠ main_arg2))
theorem W_main_arg3 (c : Dev nD) :
    Pipeline.afterTail₀ cfgs (dats m) 0 (V0 m) opss c main_arg3 = m ((c : Thread nD τ).loc main_arg3) := by
  unfold Pipeline.afterTail₀
  refine (KKeep.keep_arg3 _).trans ?_
  exact Pipeline.withArrays_of_ne _ c (V0 m c) _ main_arg3 (by exact (by decide : ∀ w, Pipeline.arrRef spec0 w ≠ main_arg3))
theorem W_main_arg4 (c : Dev nD) :
    Pipeline.afterTail₀ cfgs (dats m) 0 (V0 m) opss c main_arg4 = m ((c : Thread nD τ).loc main_arg4) := by
  unfold Pipeline.afterTail₀
  refine (KKeep.keep_arg4 _).trans ?_
  exact Pipeline.withArrays_of_ne _ c (V0 m c) _ main_arg4 (by exact (by decide : ∀ w, Pipeline.arrRef spec0 w ≠ main_arg4))
theorem W_main_arg5 (c : Dev nD) :
    Pipeline.afterTail₀ cfgs (dats m) 0 (V0 m) opss c main_arg5 = m ((c : Thread nD τ).loc main_arg5) := by
  unfold Pipeline.afterTail₀
  refine (KKeep.keep_arg5 _).trans ?_
  exact Pipeline.withArrays_of_ne _ c (V0 m c) _ main_arg5 (by exact (by decide : ∀ w, Pipeline.arrRef spec0 w ≠ main_arg5))
theorem W_main_arg6 (c : Dev nD) :
    Pipeline.afterTail₀ cfgs (dats m) 0 (V0 m) opss c main_arg6 = m ((c : Thread nD τ).loc main_arg6) := by
  unfold Pipeline.afterTail₀
  refine (KKeep.keep_arg6 _).trans ?_
  exact Pipeline.withArrays_of_ne _ c (V0 m c) _ main_arg6 (by exact (by decide : ∀ w, Pipeline.arrRef spec0 w ≠ main_arg6))
theorem W_main_arg7 (c : Dev nD) :
    Pipeline.afterTail₀ cfgs (dats m) 0 (V0 m) opss c main_arg7 = m ((c : Thread nD τ).loc main_arg7) := by
  unfold Pipeline.afterTail₀
  refine (KKeep.keep_arg7 _).trans ?_
  exact Pipeline.withArrays_of_ne _ c (V0 m c) _ main_arg7 (by exact (by decide : ∀ w, Pipeline.arrRef spec0 w ≠ main_arg7))
theorem W_main_arg8 (c : Dev nD) :
    Pipeline.afterTail₀ cfgs (dats m) 0 (V0 m) opss c main_arg8 = m ((c : Thread nD τ).loc main_arg8) := by
  unfold Pipeline.afterTail₀
  refine (KKeep.keep_arg8 _).trans ?_
  exact Pipeline.withArrays_of_ne _ c (V0 m c) _ main_arg8 (by exact (by decide : ∀ w, Pipeline.arrRef spec0 w ≠ main_arg8))
theorem W_main_arg9 (c : Dev nD) :
    Pipeline.afterTail₀ cfgs (dats m) 0 (V0 m) opss c main_arg9 = m ((c : Thread nD τ).loc main_arg9) := by
  unfold Pipeline.afterTail₀
  refine (KKeep.keep_arg9 _).trans ?_
  exact Pipeline.withArrays_of_ne _ c (V0 m c) _ main_arg9 (by exact (by decide : ∀ w, Pipeline.arrRef spec0 w ≠ main_arg9))
theorem W_main_arg10 (c : Dev nD) :
    Pipeline.afterTail₀ cfgs (dats m) 0 (V0 m) opss c main_arg10 = m ((c : Thread nD τ).loc main_arg10) := by
  unfold Pipeline.afterTail₀
  refine (KKeep.keep_arg10 _).trans ?_
  exact Pipeline.withArrays_of_ne _ c (V0 m c) _ main_arg10 (by exact (by decide : ∀ w, Pipeline.arrRef spec0 w ≠ main_arg10))
theorem W_main_arg11 (c : Dev nD) :
    Pipeline.afterTail₀ cfgs (dats m) 0 (V0 m) opss c main_arg11 = m ((c : Thread nD τ).loc main_arg11) := by
  unfold Pipeline.afterTail₀
  refine (KKeep.keep_arg11 _).trans ?_
  exact Pipeline.withArrays_of_ne _ c (V0 m c) _ main_arg11 (by exact (by decide : ∀ w, Pipeline.arrRef spec0 w ≠ main_arg11))
theorem W_main_arg12 (c : Dev nD) :
    Pipeline.afterTail₀ cfgs (dats m) 0 (V0 m) opss c main_arg12 = m ((c : Thread nD τ).loc main_arg12) := by
  unfold Pipeline.afterTail₀
  refine (KKeep.keep_arg12 _).trans ?_
  exact Pipeline.withArrays_of_ne _ c (V0 m c) _ main_arg12 (by exact (by decide : ∀ w, Pipeline.arrRef spec0 w ≠ main_arg12))
theorem W_main_arg13 (c : Dev nD) :
    Pipeline.afterTail₀ cfgs (dats m) 0 (V0 m) opss c main_arg13 = m ((c : Thread nD τ).loc main_arg13) := by
  unfold Pipeline.afterTail₀
  refine (KKeep.keep_arg13 _).trans ?_
  exact Pipeline.withArrays_of_ne _ c (V0 m c) _ main_arg13 (by exact (by decide : ∀ w, Pipeline.arrRef spec0 w ≠ main_arg13))
theorem W_main_arg14 (c : Dev nD) :
    Pipeline.afterTail₀ cfgs (dats m) 0 (V0 m) opss c main_arg14 = m ((c : Thread nD τ).loc main_arg14) := by
  unfold Pipeline.afterTail₀
  refine (KKeep.keep_arg14 _).trans ?_
  exact Pipeline.withArrays_of_ne _ c (V0 m c) _ main_arg14 (by exact (by decide : ∀ w, Pipeline.arrRef spec0 w ≠ main_arg14))
theorem W_main_arg15 (c : Dev nD) :
    Pipeline.afterTail₀ cfgs (dats m) 0 (V0 m) opss c main_arg15 = m ((c : Thread nD τ).loc main_arg15) := by
  unfold Pipeline.afterTail₀
  refine (KKeep.keep_arg15 _).trans ?_
  exact Pipeline.withArrays_of_ne _ c (V0 m c) _ main_arg15 (by exact (by decide : ∀ w, Pipeline.arrRef spec0 w ≠ main_arg15))
theorem W_main_arg16 (c : Dev nD) :
    Pipeline.afterTail₀ cfgs (dats m) 0 (V0 m) opss c main_arg16 = m ((c : Thread nD τ).loc main_arg16) := by
  unfold Pipeline.afterTail₀
  refine (KKeep.keep_arg16 _).trans ?_
  exact Pipeline.withArrays_of_ne _ c (V0 m c) _ main_arg16 (by exact (by decide : ∀ w, Pipeline.arrRef spec0 w ≠ main_arg16))

/-- The frame claim's post: the seventeen argument arrays end unchanged. The input array is the pipeline's (read, never
    written back); the other sixteen bypass the region and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats m 0 c).arrAt_in 0 rfl _).trans ((A_eq m c 0).trans (V_eq m c main_arg0))),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c),
    ((h c).2 main_arg5 (Pipeline.mem_restRefs_of main_arg5 (by decide) (by decide))).trans (W_main_arg5 m c),
    ((h c).2 main_arg6 (Pipeline.mem_restRefs_of main_arg6 (by decide) (by decide))).trans (W_main_arg6 m c),
    ((h c).2 main_arg7 (Pipeline.mem_restRefs_of main_arg7 (by decide) (by decide))).trans (W_main_arg7 m c),
    ((h c).2 main_arg8 (Pipeline.mem_restRefs_of main_arg8 (by decide) (by decide))).trans (W_main_arg8 m c),
    ((h c).2 main_arg9 (Pipeline.mem_restRefs_of main_arg9 (by decide) (by decide))).trans (W_main_arg9 m c),
    ((h c).2 main_arg10 (Pipeline.mem_restRefs_of main_arg10 (by decide) (by decide))).trans (W_main_arg10 m c),
    ((h c).2 main_arg11 (Pipeline.mem_restRefs_of main_arg11 (by decide) (by decide))).trans (W_main_arg11 m c),
    ((h c).2 main_arg12 (Pipeline.mem_restRefs_of main_arg12 (by decide) (by decide))).trans (W_main_arg12 m c),
    ((h c).2 main_arg13 (Pipeline.mem_restRefs_of main_arg13 (by decide) (by decide))).trans (W_main_arg13 m c),
    ((h c).2 main_arg14 (Pipeline.mem_restRefs_of main_arg14 (by decide) (by decide))).trans (W_main_arg14 m c),
    ((h c).2 main_arg15 (Pipeline.mem_restRefs_of main_arg15 (by decide) (by decide))).trans (W_main_arg15 m c),
    ((h c).2 main_arg16 (Pipeline.mem_restRefs_of main_arg16 (by decide) (by decide))).trans (W_main_arg16 m c)⟩) (run_main m ρ)

end Cert.KernelIdeal.Region

end
-- ==== Proof.MeanSpec.lean ====
/-
  The mean over the token axis, in the two arrangements the two programs compute it, over the extended reals.
  For an array A of shape [16, 4096, 768] and an output index i = (row, lane):
    the pooling kernel walks the 4096 tokens in four tiles of 1024 and leaves
        ((((0 + T₀) + T₁) + T₂) + T₃) · 2⁻¹²,   Tₖ = the sum of A(row, 1024·k + j, lane) over j < 1024;
    the reference computes (0 + the sum of A(row, j, lane) over j < 4096) / 4096.
  Addition of extended reals is associative and commutative with 0 neutral (−∞ absorbs), so regrouping the 4096
  terms into four consecutive tiles changes nothing, and dividing by the real 4096 is multiplying by the real
  1/4096 = 2⁻¹² at every extended real, the infinities included. No finiteness of A is used.
-/
import Idealize.ShloMosaic.PureOps.Ideal
import Idealize.ShloMosaic.Lib.ValueIdx
import Mathlib.Algebra.BigOperators.Fin
import Mathlib.Logic.Equiv.Fin.Basic

noncomputable section

namespace Cert.MeanSpec

open Idealize.ShloMosaic

/-- The input's shape [16, 4096, 768] and the pooled output's [16, 768]. -/
abbrev SA : Shape := ⟨3, ![16, 4096, 768]⟩
abbrev SO : Shape := ⟨2, ![16, 768]⟩

/-- Token `k` of the row and lane of output index `i`. -/
def tokAll (i : SO.Idx) (k : Fin 4096) : SA.Idx := fun a => match a with
  | ⟨0, _⟩ => i 0
  | ⟨1, _⟩ => k
  | ⟨2, _⟩ => i 1

/-- Token `j` of tile `kk`: token 1024·kk + j. -/
def tok (i : SO.Idx) (kk : Fin 4) (j : Fin 1024) : SA.Idx :=
  tokAll i ⟨1024 * kk.val + j.val, by have := kk.isLt; have := j.isLt; omega⟩

/-- One tile's sum at output index `i`. -/
def tileSum (A : SA.Idx → EReal) (i : SO.Idx) (kk : Fin 4) : EReal := ∑ j : Fin 1024, A (tok i kk j)

/-- The kernel's arrangement: the zero word, the four tile sums added in order, times the word 2⁻¹². -/
def pooledTiles (A : SA.Idx → EReal) (i : SO.Idx) : EReal :=
  ((((Ideal.ofBits .f32 0x00000000#32 + tileSum A i 0) + tileSum A i 1) + tileSum A i 2) + tileSum A i 3)
    * Ideal.ofBits .f32 0x39800000#32

/-- The reference's arrangement: the zero word plus the sum over all 4096 tokens, divided by the word 4096.0. -/
def pooledWhole (A : SA.Idx → EReal) (i : SO.Idx) : EReal :=
  Ideal.div (Ideal.ofBits .f32 0x00000000#32 + ∑ k : Fin 4096, A (tokAll i k)) (Ideal.ofBits .f32 0x45800000#32)

/-- The three float words, as the reals they denote. -/
theorem word_zero : Ideal.ofBits .f32 0x00000000#32 = 0 := by
  simp [Ideal.ofBits, Ideal.ieee]
theorem word_4096 : Ideal.ofBits .f32 0x45800000#32 = ((4096 : ℝ) : EReal) := by
  simp [Ideal.ofBits, Ideal.ieee, -EReal.coe_mul]; norm_num
theorem word_inv4096 : Ideal.ofBits .f32 0x39800000#32 = ((1 / 4096 : ℝ) : EReal) := by
  simp [Ideal.ofBits, Ideal.ieee, -EReal.coe_mul]; norm_num

/-- A sum over 4096 consecutive terms is the sum of its four consecutive quarters. -/
theorem sum_quarters (f : Fin 4096 → EReal) :
    ∑ k : Fin 4096, f k = ∑ kk : Fin 4, ∑ j : Fin 1024, f ⟨1024 * kk.val + j.val, by have := kk.isLt; have := j.isLt; omega⟩ := by
  rw [← (finProdFinEquiv (m := 4) (n := 1024)).sum_comp f, Fintype.sum_prod_type]
  refine Finset.sum_congr rfl fun kk _ => Finset.sum_congr rfl fun j _ => ?_
  congr 1
  apply Fin.ext
  simp only [finProdFinEquiv_apply_val]
  omega

/-- The two arrangements agree at every array of extended reals. -/
theorem pooled_eq (A : SA.Idx → EReal) (i : SO.Idx) : pooledTiles A i = pooledWhole A i := by
  unfold pooledTiles pooledWhole tileSum tok
  rw [word_zero, word_4096, word_inv4096, Ideal.div_coe (by norm_num : (4096 : ℝ) ≠ 0),
    sum_quarters (fun k => A (tokAll i k)), Fin.sum_univ_four]
  simp only [zero_add, add_assoc]

end Cert.MeanSpec

end
-- ==== Proof.KI.Value.lean ====
/-
  What the pooled array holds after the idealized kernel's run, over the extended reals.
  Read at an index, the body's payloads are: the zero word; "running contents plus the sum of the tile over its
  1024 tokens"; "contents times the word 2⁻¹²". Entry (b, j, d) of the input block at grid point t is entry
  (8·(t/4) + b, 1024·(t mod 4) + j, d) of the input array. A batch half's output block is written back once, after
  its fourth tile, holding the zero word plus the four tile sums in order, times 2⁻¹²; the two write-backs (points 3
  and 7) cover the 16 rows. So the array ends at `MeanSpec.pooledTiles` of the input array, index by index.
-/
import proofs.«121203_j91044716741010_2_alg».proof.Proof.KI.Pieces
import proofs.«121203_j91044716741010_2_alg».proof.Proof.KI.Frame
import proofs.«121203_j91044716741010_2_alg».proof.Proof.MeanSpec
import Idealize.ShloMosaic.PureOps.Ideal.Laws
import Idealize.ShloMosaic.Lib.Pipeline.Value

noncomputable section

namespace Cert.KernelIdeal.Region

open Cert.KernelIdeal Cert.KernelIdeal.Gen Idealize.ShloMosaic Idealize.ShloMosaic.TcCoe Idealize.SL.Sem Cert.MeanSpec
open Idealize.ShloMosaic.Pipeline (Dat)

variable (m : (ℓ : Loc nD τ sig) → Buf (Elt Ideal) ℓ) (ρ : Dev nD → PrngReg)

/-! ## The payloads at an index -/

theorem pay1_apply (y : S8x768.Idx) : k0_pay1 (F := Ideal) y = Ideal.ofBits .f32 0x00000000#32 := rfl

theorem pay3_apply (v : Vec Ideal S8x768 .f32) (y : S8x768.Idx) : k0_pay3 v y = v y * Ideal.ofBits .f32 0x39800000#32 := by
  unfold k0_pay3
  simp only [shapeCast_self]
  rfl

/-- The lane reduction over the token axis of a tile, at (b, d), is the sum over the tile's 1024 tokens j of the
    tile at (b, j, d). -/
theorem pay2_apply (v3 : Vec Ideal S8x768 .f32) (v5 : Vec Ideal S8x1024x768 .f32) (y : S8x768.Idx) :
    k0_pay2 v3 v5 y = v3 y + ∑ j : Fin 1024, v5 (reduces_S8x1024x768_S8x768.lift y j) := by
  unfold k0_pay2
  simp only [shapeCast_self]
  exact congrArg (v3 y + ·) (Ideal.multiReduction_add_single v5 0x00000000#32 reduces_S8x1024x768_S8x768 (.inl rfl) rfl y)

/-- A full pass over four tiles, at an index of the block. -/
theorem tile3_apply (x0 x1 x2 x3 : Vec Ideal S8x1024x768 .f32) (y : S8x768.Idx) :
    k0_pay3 (k0_pay2 (k0_pay2 (k0_pay2 (k0_pay2 (k0_pay1 (F := Ideal)) x0) x1) x2) x3) y
      = ((((Ideal.ofBits .f32 0x00000000#32 + ∑ j : Fin 1024, x0 (reduces_S8x1024x768_S8x768.lift y j))
          + ∑ j : Fin 1024, x1 (reduces_S8x1024x768_S8x768.lift y j)) + ∑ j : Fin 1024, x2 (reduces_S8x1024x768_S8x768.lift y j))
          + ∑ j : Fin 1024, x3 (reduces_S8x1024x768_S8x768.lift y j)) * Ideal.ofBits .f32 0x39800000#32 := by
  rw [pay3_apply, pay2_apply, pay2_apply, pay2_apply, pay2_apply, pay1_apply]

/-! ## The windows' blocks in the arrays -/

/-- The printed index maps over the grid: point t is batch half t/4, token tile t mod 4. -/
theorem idx_in : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_out : ∀ t : Fin cfg0.N, win0_1.index t (0 : Fin 2) = t.val / 4 ∧ win0_1.index t (1 : Fin 2) = 0 :=
  (by decide +kernel : ∀ t : Fin grid0.N, _)

/-- Entry y of the input block at point t is the input array's entry i, when i's coordinates are the block's
    offsets plus y's. -/
theorem iblk_apply (c : Dev nD) (t : Fin cfg0.N) (y : S8x1024x768.Idx) (i : S16x4096x768.Idx)
    (h0 : (i 0).val = 8 * (t.val / 4) + (y 0).val) (h1 : (i 1).val = 1024 * (t.val % 4) + (y 1).val) (h2 : (i 2).val = (y 2).val) :
    (iblk m c 0 t : Vec Ideal S8x1024x768 .f32) y = m ((c : Thread nD τ).loc main_arg0) i := by
  obtain ⟨e0, e1, e2⟩ := idx_in t
  unfold iblk
  rw [View.read_apply]
  show m ((c : Thread nD τ).loc main_arg0) (((cfg0.win 0).blk t).view.emb y) = m ((c : Thread nD τ).loc main_arg0) i
  refine congrArg (m ((c : Thread nD τ).loc main_arg0)) ?_
  funext a
  apply Fin.ext
  match a with
  | ⟨0, _⟩ => show win0_0.index t (0 : Fin 3) * 8 + 1 * (y 0).val = (i 0).val; rw [e0, h0]; omega
  | ⟨1, _⟩ => show win0_0.index t (1 : Fin 3) * 1024 + 1 * (y 1).val = (i 1).val; rw [e1, h1]; omega
  | ⟨2, _⟩ => show win0_0.index t (2 : Fin 3) * 768 + 1 * (y 2).val = (i 2).val; rw [e2, h2]; omega

/-- The input block at a point, typed by its literal shape. -/
def inBlock (c : Dev nD) (t : Fin cfg0.N) : Vec Ideal S8x1024x768 .f32 := iblk m c 0 t

/-- One tile's sum through the input window: at an output index i = (8·(n/4) + b, d) of the batch half that starts at
    point n (a multiple of 4), the sum over the tile at point n + kk of its entries (b, j, d) is the kk-th tile sum
    of the array at i. -/
theorem tile_sum_eq (c : Dev nD) (n : ℕ) (h4 : n % 4 = 0) (kk : Fin 4) (hk : n + kk.val < cfg0.N) (y : S8x768.Idx) (i : S16x768.Idx)
    (hi0 : (i 0).val = 8 * (n / 4) + (y 0).val) (hi1 : (i 1).val = (y 1).val) :
    ∑ j : Fin 1024, inBlock m c ⟨n + kk.val, hk⟩ (reduces_S8x1024x768_S8x768.lift y j)
      = tileSum (m ((c : Thread nD τ).loc main_arg0)) i kk := by
  unfold tileSum
  refine Finset.sum_congr rfl fun j _ => ?_
  have hkk : kk.val < 4 := kk.isLt
  unfold inBlock
  refine iblk_apply m c ⟨n + kk.val, hk⟩ (reduces_S8x1024x768_S8x768.lift y j) (tok i kk j) ?_ ?_ ?_
  · show (i 0).val = 8 * ((n + kk.val) / 4) + (y 0).val
    rw [hi0]; omega
  · show 1024 * kk.val + j.val = 1024 * ((n + kk.val) % 4) + j.val
    omega
  · show (i 1).val = (y 1).val
    exact hi1

/-! ## What is written back, and the array after the run -/

set_option maxHeartbeats 1600000 in
/-- A write-back happens after a batch half's fourth tile, and writes the block of `pooledTiles` of the input array. -/
theorem flushed_eq (c : Dev nD) (t : Fin cfg0.N) (hf : (cfg0.win 1).flush t = true) :
    (dats m 0 c).flushed 1 t = ((cfg0.win 1).blk t).view.read (Elt Ideal) (pooledTiles (m ((c : Thread nD τ).loc main_arg0))) := by
  have hN : cfg0.N = 8 := N_0
  have h3 : t.val % 4 = 3 := (flush0_1 t).mp hf
  show (cfg0.win 1).cut (grid0.coords t) ((dats m 0 c).after 1 t) = _
  rw [after0_1]
  obtain ⟨tv, ht⟩ := t
  dsimp only at h3
  obtain ⟨n, rfl⟩ : ∃ n, tv = n + 3 := ⟨tv - 3, by omega⟩
  have h4 : n % 4 = 0 := by omega
  obtain ⟨e0, e1⟩ := idx_out ⟨n + 3, ht⟩
  dsimp only at e0 e1
  funext y
  show outsAt0 m c (n + 3) ht y = pooledTiles (m ((c : Thread nD τ).loc main_arg0)) (((cfg0.win 1).blk ⟨n + 3, ht⟩).view.emb y)
  rw [acc_tile3 m c n ht h4]
  refine (tile3_apply (iblk m c 0 ⟨n, by omega⟩) (iblk m c 0 ⟨n + 1, by omega⟩) (iblk m c 0 ⟨n + 2, by omega⟩) (iblk m c 0 ⟨n + 3, ht⟩) y).trans ?_
  have hy0 : (y 0).val < 8 := (y 0).isLt
  have hi0 : ((((cfg0.win 1).blk ⟨n + 3, ht⟩).view.emb y) 0).val = 8 * (n / 4) + (y 0).val := by
    show win0_1.index ⟨n + 3, ht⟩ (0 : Fin 2) * 8 + 1 * (y 0).val = _
    rw [e0]; omega
  have hi1 : ((((cfg0.win 1).blk ⟨n + 3, ht⟩).view.emb y) 1).val = (y 1).val := by
    show win0_1.index ⟨n + 3, ht⟩ (1 : Fin 2) * 768 + 1 * (y 1).val = _
    rw [e1]; omega
  have s0 := tile_sum_eq m c n h4 0 (by show n + 0 < cfg0.N; omega) y _ hi0 hi1
  have s1 := tile_sum_eq m c n h4 1 (by show n + 1 < cfg0.N; omega) y _ hi0 hi1
  have s2 := tile_sum_eq m c n h4 2 (by show n + 2 < cfg0.N; omega) y _ hi0 hi1
  have s3 := tile_sum_eq m c n h4 3 (by show n + 3 < cfg0.N; omega) y _ hi0 hi1
  unfold pooledTiles
  rw [← s0, ← s1, ← s2, ← s3]
  rfl

/-- An index of the pooled array is in point t's block iff each coordinate is in the block's range on its axis. -/
theorem mem_blk (t : Fin cfg0.N) (i : S16x768.Idx) :
    i ∈ ((cfg0.win 1).blk t).view.set ↔ ∀ a : Fin 2, win0_1.index t a * S8x768.size a ≤ (i a).val ∧ (i a).val < win0_1.index t a * S8x768.size a + S8x768.size a := by
  show i ∈ ((View.whole main_v0).slice (win0_1.rect t)).set ↔ _
  rw [View.set_slice_whole, Rect.mem_set_unit]
  exact Iff.rfl

/-- Row r of the pooled array is written back at the fourth tile of its batch half r / 8. -/
theorem cover (i : S16x768.Idx) : ∃ t : Fin cfg0.N, (cfg0.win 1).flush t = true ∧ i ∈ ((cfg0.win 1).blk t).view.set := by
  have hN : cfg0.N = 8 := N_0
  have hi0 : (i 0).val < 16 := (i 0).isLt
  have hi1 : (i 1).val < 768 := (i 1).isLt
  have ht : 4 * ((i 0).val / 8) + 3 < cfg0.N := by omega
  refine ⟨⟨4 * ((i 0).val / 8) + 3, ht⟩, (flush0_1 _).mpr (by dsimp only; omega), ?_⟩
  rw [mem_blk]
  obtain ⟨e0, e1⟩ := idx_out ⟨4 * ((i 0).val / 8) + 3, ht⟩
  dsimp only at e0 e1
  intro a
  match a with
  | ⟨0, _⟩ =>
    show win0_1.index ⟨4 * ((i 0).val / 8) + 3, ht⟩ (0 : Fin 2) * 8 ≤ (i 0).val ∧ (i 0).val < win0_1.index ⟨4 * ((i 0).val / 8) + 3, ht⟩ (0 : Fin 2) * 8 + 8
    rw [e0]; omega
  | ⟨1, _⟩ =>
    show win0_1.index ⟨4 * ((i 0).val / 8) + 3, ht⟩ (1 : Fin 2) * 768 ≤ (i 1).val ∧ (i 1).val < win0_1.index ⟨4 * ((i 0).val / 8) + 3, ht⟩ (1 : Fin 2) * 768 + 768
    rw [e1]; omega

/-- The pooled array after the run: the tiled mean of the input array, index by index. -/
theorem final_pooled (c : Dev nD) : (dats m 0 c).arrAt 1 cfg0.N = pooledTiles (m ((c : Thread nD τ).loc main_arg0)) :=
  (dats m 0 c).arrAt_eq_of_cover 1 (pooledTiles (m ((c : Thread nD τ).loc main_arg0))) (flushed_eq m c) (fun i => cover i)

end Cert.KernelIdeal.Region

end
-- ==== Proof.Tail.lean ====
import proofs.«121203_j91044716741010_2_alg».proof.KernelIdeal
import Idealize.ShloMosaic.PureOps

/-!
# The host tail as mathematics

Everything the program computes after the mean-pool, written as plain functions of the pooled
features `x : f32[16,768]` and the sixteen remaining arguments. Each definition below is built from
the same pure operations, with the same arguments in the same order, as the printed host
operations, so that evaluating the operation list yields these terms on the nose.

With `B = 16` images, `N = 1024` boxes, `D = 768` features and `M = 128` slots per image:

* `retx  = relu(x · w7ᵀ + b8) · w9ᵀ + b10`                       (the deep transform of `x`);
* `xt    = relu(x · w3ᵀ + b4) · w5ᵀ + b6`                        (the transform of `x`);
* `img   = bboxes[:, 0]`, the image each box belongs to;
* `fm    = relu(features[:, 1:] · w11ᵀ + b12) · w13ᵀ + b14`      (the box features' MLP);
* `h     = concat(xt[img], fm) · w15ᵀ + b16`                      (one row per box);
* `counts[b] = #{n | img n = b}`, `offsets = cumsum(counts) − counts`, `pos n = n − offsets[img n]`;
* `vis   = zeros[B, M, D]` with row `h n` written at `(img n, pos n)`;
* `mask[b, m] = 1` if `m < counts[b]` else `0`.
-/

noncomputable section

namespace Cert.Tail

open Idealize.ShloMosaic Cert.KernelIdeal

variable {F : FTy → Type} [FloatOps F] [Cert.KernelIdeal.Facts]
open Cert.KernelIdeal.Facts₀

set_option quotPrecheck false in
local notation "T[" S ", " e "]" => ((⟨S, e⟩ : BufTy).Contents (Elt F))

/-! ## Dense layers -/

/-- A bias vector `b : [768]` as the row matrix `[1,768]`. -/
def biasRow (b : T[S768, .f32]) : T[S1x768, .f32] :=
  broadcastInDim S1x768 ![1] bcast_S768_S1x768_1 b

/-- `x · wᵀ + b` on 16 rows: `w : [768,768]` is transposed, contracted with `x`'s columns, and the
    bias is added to every row. -/
def dense16 (x : T[S16x768, .f32]) (w : T[S768x768, .f32]) (b : T[S768, .f32]) : T[S16x768, .f32] :=
  addf (Host.dotGeneral dot_S16x768_S768x768_S16x768_1_0_0_1_n_n none x
          (transpose S768x768 [1, 0] w transposes_S768x768_S768x768_1_0))
       (broadcastInDim S16x768 ![0, 1] bcast_S1x768_S16x768_0_1 (biasRow b))

/-- `relu` on 16 rows: the elementwise maximum with `0`. -/
def relu16 (x : T[S16x768, .f32]) : T[S16x768, .f32] :=
  maximumf x (broadcastInDim S16x768 ![] bcast_S_S16x768 (constant S_ .f32 0x00000000#32))

/-- The two-layer perceptron `relu(x · w1ᵀ + b1) · w2ᵀ + b2` on 16 rows. -/
def mlp16 (x : T[S16x768, .f32]) (w1 : T[S768x768, .f32]) (b1 : T[S768, .f32])
    (w2 : T[S768x768, .f32]) (b2 : T[S768, .f32]) : T[S16x768, .f32] :=
  dense16 (relu16 (dense16 x w1 b1)) w2 b2

/-- `relu` on 1024 rows. -/
def relu1024 (x : T[S1024x768, .f32]) : T[S1024x768, .f32] :=
  maximumf x (broadcastInDim S1024x768 ![] bcast_S_S1024x768 (constant S_ .f32 0x00000000#32))

/-- A bias vector added to each of 1024 rows: the `[1024,768]` matrix whose every row is `b`. -/
def biasRows1024 (b : T[S768, .f32]) : T[S1024x768, .f32] :=
  broadcastInDim S1024x768 ![0, 1] bcast_S1x768_S1024x768_0_1 (biasRow b)

/-- The box features without their first column: `features[:, 1:] : [1024,256]`. -/
def feat (a2 : T[S1024x257, .f32]) : T[S1024x256, .f32] :=
  extractStridedSlice S1024x256 ![0, 1] a2 slices_S1024x257_S1024x256_0_1

/-- The box features' perceptron `relu(f · w1ᵀ + b1) · w2ᵀ + b2`, 1024 rows from 256 features,
    `w1 : [768,256]`, `w2 : [768,768]`. -/
def mlp1024 (f : T[S1024x256, .f32]) (w1 : T[S768x256, .f32]) (b1 : T[S768, .f32])
    (w2 : T[S768x768, .f32]) (b2 : T[S768, .f32]) : T[S1024x768, .f32] :=
  addf (Host.dotGeneral dot_S1024x768_S768x768_S1024x768_1_0_0_1_n_n none
          (relu1024
            (addf (Host.dotGeneral dot_S1024x256_S256x768_S1024x768_1_0_0_1_n_n none f
                    (transpose S256x768 [1, 0] w1 transposes_S768x256_S256x768_1_0))
                  (biasRows1024 b1)))
          (transpose S768x768 [1, 0] w2 transposes_S768x768_S768x768_1_0))
       (biasRows1024 b2)

/-! ## Indices -/

/-- The scalar integer `c` at every one of the 1024 boxes. -/
def constN (c : BitVec 32) : T[S1024, .i32] :=
  broadcastInDim S1024 ![] bcast_S_S1024 (constantI S_ 32 c)

/-- The image of each box: column 0 of `bboxes : [1024,5]`, as a vector of 1024 integers. -/
def img (a1 : T[S1024x5, .i32]) : T[S1024, .i32] :=
  fun i => shapeCast S1024 (extractStridedSlice S1024x1 ![0, 0] a1 slices_S1024x5_S1024x1_0_0) shapeCasts_S1024x1_S1024 i

/-- An index read modulo its axis: `i + n` where `i < 0`, else `i`. -/
def wrap (n : BitVec 32) (i : T[S1024, .i32]) : T[S1024, .i32] :=
  select (cmpi .slt i (constN (F := F) 0#32)) (addi i (constN (F := F) n)) i

/-- A vector of 1024 indices as the one-column index matrix `[1024,1]`. -/
def col (i : T[S1024, .i32]) : T[S1024x1, .i32] :=
  broadcastInDim S1024x1 ![0] bcast_S1024_S1024x1_0 i

/-- `counts[b]`, the number of boxes of image `b`: ones scatter-added into sixteen zeros at `img`. -/
def counts (a1 : T[S1024x5, .i32]) : T[S16, .i32] :=
  Host.scatter scatter_S16_S1024x1_S1024_n_0_0_1 IntOp.addi
    (broadcastInDim S16 ![] bcast_S_S16 (constantI S_ 32 0#32)) (col (img a1)) (constN 1#32)

/-- The inclusive running sum of `c : [16]`: a window of 16 ending at each position, padded with 15
    zeros on the left, summed from `0`. -/
def cumsum (c : T[S16, .i32]) : T[S16, .i32] :=
  Host.reduceWindow IntOp.addi ![16] ![1] ![15] ![0] c
    (broadcastInDim S_ ![] bcast_S_S_ (constantI S_ 32 0#32)) reduceWindows_S16_S16_w16s1p15_0 h_S_

/-- `offsets[b] = Σ_{b' < b} counts[b']`: the inclusive running sum minus the counts. -/
def offsets (a1 : T[S1024x5, .i32]) : T[S16, .i32] :=
  subi (cumsum (counts a1)) (counts a1)

/-- `pos n = n − offsets[img n]`: the rank of box `n` among the boxes of its image (the boxes
    being sorted by image). -/
def pos (a1 : T[S1024x5, .i32]) : T[S1024, .i32] :=
  subi (iotaInDim S1024 32 0)
    (Host.gather gather_S16_S1024x1_S1024_n_0_n_n_0_1_1 (offsets a1) (col (wrap 16#32 (img a1))))

/-- The slot of each box: the index pairs `(img n, pos n) : [1024,2]`, each read modulo its axis. -/
def slots (a1 : T[S1024x5, .i32]) : T[S1024x2, .i32] :=
  concatenate S1024x2 1 [⟨S1024x1, col (wrap 16#32 (img a1))⟩, ⟨S1024x1, col (wrap 128#32 (pos a1))⟩]
    concatenates_S1024x1_S1024x1_S1024x2_d1

/-! ## The projection and the three results -/

/-- `h = concat(xt[img], fm) · wᵀ + b : [1024,768]`, where `xt` is the transform of `x`, gathered
    at each box's image, and `fm` the box features' perceptron; `w : [768,1536]`. -/
def proj (xt : T[S16x768, .f32]) (a1 : T[S1024x5, .i32]) (fm : T[S1024x768, .f32])
    (w : T[S768x1536, .f32]) (b : T[S768, .f32]) : T[S1024x768, .f32] :=
  addf (Host.dotGeneral dot_S1024x1536_S1536x768_S1024x768_1_0_0_1_n_n none
          (concatenate S1024x1536 1
            [⟨S1024x768, Host.gather gather_S16x768_S1024x1_S1024x768_1_0_n_n_0_1_1768 xt (col (wrap 16#32 (img a1)))⟩,
             ⟨S1024x768, fm⟩]
            concatenates_S1024x768_S1024x768_S1024x1536_d1)
          (transpose S1536x768 [1, 0] w transposes_S768x1536_S1536x768_1_0))
       (biasRows1024 b)

/-- `vis : [16,128,768]`: zeros, with row `h n` written at slot `(img n, pos n)` for each box `n`
    (a later box overwrites an earlier one at the same slot). -/
def vis (x : T[S16x768, .f32]) (a1 : T[S1024x5, .i32]) (a2 : T[S1024x257, .f32])
    (a3 : T[S768x768, .f32]) (a4 : T[S768, .f32]) (a5 : T[S768x768, .f32]) (a6 : T[S768, .f32])
    (a7 : T[S768x768, .f32]) (a8 : T[S768, .f32]) (a9 : T[S768x768, .f32]) (a10 : T[S768, .f32])
    (a11 : T[S768x256, .f32]) (a12 : T[S768, .f32]) (a13 : T[S768x768, .f32]) (a14 : T[S768, .f32])
    (a15 : T[S768x1536, .f32]) (a16 : T[S768, .f32]) : T[S16x128x768, .f32] :=
  Host.scatter scatter_S16x128x768_S1024x2_S1024x768_1_01_01_1 (fun _ b => b)
    (broadcastInDim S16x128x768 ![] bcast_S_S16x128x768 (constant S_ .f32 0x00000000#32))
    (slots a1)
    (proj (mlp16 x a3 a4 a5 a6) a1 (mlp1024 (feat a2) a11 a12 a13 a14) a15 a16)

/-- `mask : [16,128]`: `mask[b, m] = 1` where `m < counts[b]`, else `0`. -/
def mask (x : T[S16x768, .f32]) (a1 : T[S1024x5, .i32]) (a2 : T[S1024x257, .f32])
    (a3 : T[S768x768, .f32]) (a4 : T[S768, .f32]) (a5 : T[S768x768, .f32]) (a6 : T[S768, .f32])
    (a7 : T[S768x768, .f32]) (a8 : T[S768, .f32]) (a9 : T[S768x768, .f32]) (a10 : T[S768, .f32])
    (a11 : T[S768x256, .f32]) (a12 : T[S768, .f32]) (a13 : T[S768x768, .f32]) (a14 : T[S768, .f32])
    (a15 : T[S768x1536, .f32]) (a16 : T[S768, .f32]) : T[S16x128, .f32] :=
  uitofp .f32
    (cmpi .slt
      (broadcastInDim S16x128 ![0, 1] bcast_S1x128_S16x128_0_1
        (broadcastInDim S1x128 ![1] bcast_S128_S1x128_1 (iotaInDim S128 32 0)))
      (broadcastInDim S16x128 ![0, 1] bcast_S16x1_S16x128_0_1
        (broadcastInDim S16x1 ![0] bcast_S16_S16x1_0 (counts a1))))

/-- `retx : [16,768]`: the deep transform `relu(x · w7ᵀ + b8) · w9ᵀ + b10` of the pooled features. -/
def retx (x : T[S16x768, .f32]) (a1 : T[S1024x5, .i32]) (a2 : T[S1024x257, .f32])
    (a3 : T[S768x768, .f32]) (a4 : T[S768, .f32]) (a5 : T[S768x768, .f32]) (a6 : T[S768, .f32])
    (a7 : T[S768x768, .f32]) (a8 : T[S768, .f32]) (a9 : T[S768x768, .f32]) (a10 : T[S768, .f32])
    (a11 : T[S768x256, .f32]) (a12 : T[S768, .f32]) (a13 : T[S768x768, .f32]) (a14 : T[S768, .f32])
    (a15 : T[S768x1536, .f32]) (a16 : T[S768, .f32]) : T[S16x768, .f32] :=
  mlp16 x a7 a8 a9 a10

end Cert.Tail

end
-- ==== Proof.KTail.lean ====
import proofs.«121203_j91044716741010_2_alg».proof.Proof.KKeep
import proofs.«121203_j91044716741010_2_alg».proof.Proof.Tail

/-!
# The host tail evaluated

From any contents `W` of the buffers, the 105 host operations that follow the mean-pool leave in
the three result buffers exactly the three functions of `Cert.Tail` applied to the pooled features
and the sixteen remaining arguments as `W` holds them.
-/

noncomputable section

namespace Cert.KernelIdeal.KTail

open Cert.KernelIdeal Cert.KernelIdeal.Gen Idealize.ShloMosaic Idealize.ShloMosaic.StableHlo

variable {F : FTy → Type} [FloatOps F]

set_option maxRecDepth 16384 in
set_option maxHeartbeats 40000000 in
/-- The third result: the deep transform of the pooled features. -/
theorem eval_v11 (W : Valuation τ sig (Elt F)) :
    after (List.flatten KKeep.opss) W (Proc.devRef .tc main_v11)
      = Cert.Tail.retx (W (Proc.devRef .tc main_v0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  simp only [KKeep.opss, hostOps1, hostOps1_1, hostOps1_2, hostOps1_3, hostOps1_4, hostOps1_5, hostOps1_6, hostOps1_7, hostOps1_8, List.flatten_cons, List.flatten_nil, List.append_nil, List.cons_append, List.nil_append]
  after_results_simp
  rfl

end Cert.KernelIdeal.KTail

end
-- ==== Proof.KTail86.lean ====
import proofs.«121203_j91044716741010_2_alg».proof.Proof.KKeep
import proofs.«121203_j91044716741010_2_alg».proof.Proof.Tail

/-!
# The host tail evaluated: the mask

From any contents `W` of the buffers, the 105 host operations that follow the mean-pool leave in the
second result buffer the mask `Cert.Tail.mask`: `1` at `[b, m]` where `m` is below the number of boxes
of image `b`, else `0`. The count is a scatter-add, kept folded: the equation never looks inside it.
-/

noncomputable section

namespace Cert.KernelIdeal.KTail

open Cert.KernelIdeal Cert.KernelIdeal.Gen Idealize.ShloMosaic Idealize.ShloMosaic.StableHlo

variable {F : FTy → Type} [FloatOps F]

attribute [local irreducible] Host.scatter Host.gather Host.reduceWindow in
set_option maxRecDepth 16384 in
set_option maxHeartbeats 4000000 in
/-- The second result: the mask of the occupied slots. -/
theorem eval_v86 (W : Valuation τ sig (Elt F)) :
    after (List.flatten KKeep.opss) W (Proc.devRef .tc main_v86)
      = Cert.Tail.mask (F := F) (W (Proc.devRef .tc main_v0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  simp only [KKeep.opss, hostOps1, hostOps1_1, hostOps1_2, hostOps1_3, hostOps1_4, hostOps1_5, hostOps1_6, hostOps1_7, hostOps1_8, List.flatten_cons, List.flatten_nil, List.append_nil, List.cons_append, List.nil_append]
  after_results_simp <;> rfl

end Cert.KernelIdeal.KTail

end
-- ==== Proof.KTail79.lean ====
import proofs.«121203_j91044716741010_2_alg».proof.Proof.KKeep
import proofs.«121203_j91044716741010_2_alg».proof.Proof.Tail

/-!
# The first result of the host tail

After the 105 host operations that follow the mean-pool, from any contents `W`, the buffer of the first result
holds the tail's scatter of the projected rows into their slots, as a function of the pooled features' buffer and
the sixteen remaining arguments' contents.
-/

noncomputable section

namespace Cert.KernelIdeal.KTail

open Cert.KernelIdeal Cert.KernelIdeal.Gen Idealize.ShloMosaic Idealize.ShloMosaic.StableHlo

variable {F : FTy → Type} [FloatOps F]

attribute [local irreducible] Host.scatter Host.gather Host.reduceWindow in
set_option maxRecDepth 16384 in
set_option maxHeartbeats 4000000 in
/-- The fold of the 105 operations is read back operation by operation; what remains is the tail's definition
    unfolded. The gathers, scatters, the windowed reduction and the concatenations are kept folded: the equation
    never looks inside them. -/
theorem eval_v79 (W : Valuation τ sig (Elt F)) :
    after (List.flatten KKeep.opss) W (Proc.devRef .tc main_v79)
      = Cert.Tail.vis (F := F) (W (Proc.devRef .tc main_v0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  simp only [KKeep.opss, hostOps1, hostOps1_1, hostOps1_2, hostOps1_3, hostOps1_4, hostOps1_5, hostOps1_6, hostOps1_7, hostOps1_8, List.flatten_cons, List.flatten_nil, List.append_nil, List.cons_append, List.nil_append]
  after_results_simp <;> rfl

end Cert.KernelIdeal.KTail

end
-- ==== Proof.KI.Results.lean ====
/-
  The idealized kernel's three results. The host lines after the region start from the buffers as the region leaves
  them: the pooled array at the tiled mean of the input array, every argument as launched. Evaluated from there, the
  tail leaves in the three result buffers the three functions of `Cert.Tail` of that mean and the sixteen other
  arguments.
-/
import proofs.«121203_j91044716741010_2_alg».proof.Proof.KI.Value
import proofs.«121203_j91044716741010_2_alg».proof.Proof.KTail
import proofs.«121203_j91044716741010_2_alg».proof.Proof.KTail86
import proofs.«121203_j91044716741010_2_alg».proof.Proof.KTail79

noncomputable section

namespace Cert.KernelIdeal.Region

open Cert.KernelIdeal Cert.KernelIdeal.Gen Idealize.ShloMosaic Idealize.ShloMosaic.TcCoe Idealize.SL.Sem Cert.MeanSpec
open Idealize.ShloMosaic.Pipeline (Dat)

variable (m : (ℓ : Loc nD τ sig) → Buf (Elt Ideal) ℓ) (ρ : Dev nD → PrngReg)

/-- The buffers' contents when the region is left: the pipeline's arrays at what the run computes, the rest as found. -/
def Wk (c : Dev nD) : Valuation τ sig (Elt Ideal) :=
  Pipeline.withArrays (cfgs 0).spec c (V0 m c) fun w => (dats m 0 c).arrAt w (cfgs 0).N

/-- What the later lines leave in a buffer is their fold from those contents. -/
theorem afterTail_eq (c : Dev nD) (b : Ref sig .tc) :
    Pipeline.afterTail₀ cfgs (dats m) 0 (V0 m) opss c b = StableHlo.after (List.flatten KKeep.opss) (Wk m c) (Proc.devRef .tc b) := rfl

/-- The pooled array is left at the tiled mean of the input array. -/
theorem Wk_v0 (c : Dev nD) : Wk m c (Proc.devRef .tc main_v0) = pooledTiles (m ((c : Thread nD τ).loc main_arg0)) :=
  (Pipeline.withArrays_arr spec0 launch0.win.arr_inj c (V0 m c) (fun w => (dats m 0 c).arrAt w (cfgs 0).N) 1).trans (final_pooled m c)

theorem Wk_arg1 (c : Dev nD) : Wk m c (Proc.devRef .tc main_arg1) = m ((c : Thread nD τ).loc main_arg1) :=
  Pipeline.withArrays_of_ne _ c (V0 m c) _ main_arg1 (by exact (by decide : ∀ w, Pipeline.arrRef spec0 w ≠ main_arg1))
theorem Wk_arg2 (c : Dev nD) : Wk m c (Proc.devRef .tc main_arg2) = m ((c : Thread nD τ).loc main_arg2) :=
  Pipeline.withArrays_of_ne _ c (V0 m c) _ main_arg2 (by exact (by decide : ∀ w, Pipeline.arrRef spec0 w ≠ main_arg2))
theorem Wk_arg3 (c : Dev nD) : Wk m c (Proc.devRef .tc main_arg3) = m ((c : Thread nD τ).loc main_arg3) :=
  Pipeline.withArrays_of_ne _ c (V0 m c) _ main_arg3 (by exact (by decide : ∀ w, Pipeline.arrRef spec0 w ≠ main_arg3))
theorem Wk_arg4 (c : Dev nD) : Wk m c (Proc.devRef .tc main_arg4) = m ((c : Thread nD τ).loc main_arg4) :=
  Pipeline.withArrays_of_ne _ c (V0 m c) _ main_arg4 (by exact (by decide : ∀ w, Pipeline.arrRef spec0 w ≠ main_arg4))
theorem Wk_arg5 (c : Dev nD) : Wk m c (Proc.devRef .tc main_arg5) = m ((c : Thread nD τ).loc main_arg5) :=
  Pipeline.withArrays_of_ne _ c (V0 m c) _ main_arg5 (by exact (by decide : ∀ w, Pipeline.arrRef spec0 w ≠ main_arg5))
theorem Wk_arg6 (c : Dev nD) : Wk m c (Proc.devRef .tc main_arg6) = m ((c : Thread nD τ).loc main_arg6) :=
  Pipeline.withArrays_of_ne _ c (V0 m c) _ main_arg6 (by exact (by decide : ∀ w, Pipeline.arrRef spec0 w ≠ main_arg6))
theorem Wk_arg7 (c : Dev nD) : Wk m c (Proc.devRef .tc main_arg7) = m ((c : Thread nD τ).loc main_arg7) :=
  Pipeline.withArrays_of_ne _ c (V0 m c) _ main_arg7 (by exact (by decide : ∀ w, Pipeline.arrRef spec0 w ≠ main_arg7))
theorem Wk_arg8 (c : Dev nD) : Wk m c (Proc.devRef .tc main_arg8) = m ((c : Thread nD τ).loc main_arg8) :=
  Pipeline.withArrays_of_ne _ c (V0 m c) _ main_arg8 (by exact (by decide : ∀ w, Pipeline.arrRef spec0 w ≠ main_arg8))
theorem Wk_arg9 (c : Dev nD) : Wk m c (Proc.devRef .tc main_arg9) = m ((c : Thread nD τ).loc main_arg9) :=
  Pipeline.withArrays_of_ne _ c (V0 m c) _ main_arg9 (by exact (by decide : ∀ w, Pipeline.arrRef spec0 w ≠ main_arg9))
theorem Wk_arg10 (c : Dev nD) : Wk m c (Proc.devRef .tc main_arg10) = m ((c : Thread nD τ).loc main_arg10) :=
  Pipeline.withArrays_of_ne _ c (V0 m c) _ main_arg10 (by exact (by decide : ∀ w, Pipeline.arrRef spec0 w ≠ main_arg10))
theorem Wk_arg11 (c : Dev nD) : Wk m c (Proc.devRef .tc main_arg11) = m ((c : Thread nD τ).loc main_arg11) :=
  Pipeline.withArrays_of_ne _ c (V0 m c) _ main_arg11 (by exact (by decide : ∀ w, Pipeline.arrRef spec0 w ≠ main_arg11))
theorem Wk_arg12 (c : Dev nD) : Wk m c (Proc.devRef .tc main_arg12) = m ((c : Thread nD τ).loc main_arg12) :=
  Pipeline.withArrays_of_ne _ c (V0 m c) _ main_arg12 (by exact (by decide : ∀ w, Pipeline.arrRef spec0 w ≠ main_arg12))
theorem Wk_arg13 (c : Dev nD) : Wk m c (Proc.devRef .tc main_arg13) = m ((c : Thread nD τ).loc main_arg13) :=
  Pipeline.withArrays_of_ne _ c (V0 m c) _ main_arg13 (by exact (by decide : ∀ w, Pipeline.arrRef spec0 w ≠ main_arg13))
theorem Wk_arg14 (c : Dev nD) : Wk m c (Proc.devRef .tc main_arg14) = m ((c : Thread nD τ).loc main_arg14) :=
  Pipeline.withArrays_of_ne _ c (V0 m c) _ main_arg14 (by exact (by decide : ∀ w, Pipeline.arrRef spec0 w ≠ main_arg14))
theorem Wk_arg15 (c : Dev nD) : Wk m c (Proc.devRef .tc main_arg15) = m ((c : Thread nD τ).loc main_arg15) :=
  Pipeline.withArrays_of_ne _ c (V0 m c) _ main_arg15 (by exact (by decide : ∀ w, Pipeline.arrRef spec0 w ≠ main_arg15))
theorem Wk_arg16 (c : Dev nD) : Wk m c (Proc.devRef .tc main_arg16) = m ((c : Thread nD τ).loc main_arg16) :=
  Pipeline.withArrays_of_ne _ c (V0 m c) _ main_arg16 (by exact (by decide : ∀ w, Pipeline.arrRef spec0 w ≠ main_arg16))

theorem res_v79 (c : Dev nD) : Pipeline.afterTail₀ cfgs (dats m) 0 (V0 m) opss c main_v79
    = Cert.Tail.vis (F := Ideal) (pooledTiles (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [afterTail_eq, KTail.eval_v79, Wk_v0, Wk_arg1, Wk_arg2, Wk_arg3, Wk_arg4, Wk_arg5, Wk_arg6, Wk_arg7, Wk_arg8, Wk_arg9, Wk_arg10, Wk_arg11, Wk_arg12, Wk_arg13, Wk_arg14, Wk_arg15, Wk_arg16]
theorem res_v86 (c : Dev nD) : Pipeline.afterTail₀ cfgs (dats m) 0 (V0 m) opss c main_v86
    = Cert.Tail.mask (F := Ideal) (pooledTiles (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [afterTail_eq, KTail.eval_v86, Wk_v0, Wk_arg1, Wk_arg2, Wk_arg3, Wk_arg4, Wk_arg5, Wk_arg6, Wk_arg7, Wk_arg8, Wk_arg9, Wk_arg10, Wk_arg11, Wk_arg12, Wk_arg13, Wk_arg14, Wk_arg15, Wk_arg16]
theorem res_v11 (c : Dev nD) : Pipeline.afterTail₀ cfgs (dats m) 0 (V0 m) opss c main_v11
    = Cert.Tail.retx (F := Ideal) (pooledTiles (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [afterTail_eq, KTail.eval_v11, Wk_v0, Wk_arg1, Wk_arg2, Wk_arg3, Wk_arg4, Wk_arg5, Wk_arg6, Wk_arg7, Wk_arg8, Wk_arg9, Wk_arg10, Wk_arg11, Wk_arg12, Wk_arg13, Wk_arg14, Wk_arg15, Wk_arg16]

/-- The idealized kernel's run, read: the three results at the tail's functions of the tiled mean and the other
    arguments, the seventeen arguments unchanged. -/
theorem run_results : θ_run defs (onTc (τ := τ) (main (F := Ideal))) ⟨m, fun _ => 0, ρ⟩ (fun r => ∀ c : Dev nD,
      r.2.mem ((c.tc : Thread nD τ).loc main_v79) = Cert.Tail.vis (F := Ideal) (pooledTiles (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_v86) = Cert.Tail.mask (F := Ideal) (pooledTiles (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_v11) = Cert.Tail.retx (F := Ideal) (pooledTiles (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨
    ((h c).2 main_v79 (Pipeline.mem_restRefs_of main_v79 (by decide) (by decide))).trans (res_v79 m c),
    ((h c).2 main_v86 (Pipeline.mem_restRefs_of main_v86 (by decide) (by decide))).trans (res_v86 m c),
    ((h c).2 main_v11 (Pipeline.mem_restRefs_of main_v11 (by decide) (by decide))).trans (res_v11 m c),
    ((h c).1 0).trans (((dats m 0 c).arrAt_in 0 rfl _).trans ((A_eq m c 0).trans (V_eq m c main_arg0))),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c),
    ((h c).2 main_arg5 (Pipeline.mem_restRefs_of main_arg5 (by decide) (by decide))).trans (W_main_arg5 m c),
    ((h c).2 main_arg6 (Pipeline.mem_restRefs_of main_arg6 (by decide) (by decide))).trans (W_main_arg6 m c),
    ((h c).2 main_arg7 (Pipeline.mem_restRefs_of main_arg7 (by decide) (by decide))).trans (W_main_arg7 m c),
    ((h c).2 main_arg8 (Pipeline.mem_restRefs_of main_arg8 (by decide) (by decide))).trans (W_main_arg8 m c),
    ((h c).2 main_arg9 (Pipeline.mem_restRefs_of main_arg9 (by decide) (by decide))).trans (W_main_arg9 m c),
    ((h c).2 main_arg10 (Pipeline.mem_restRefs_of main_arg10 (by decide) (by decide))).trans (W_main_arg10 m c),
    ((h c).2 main_arg11 (Pipeline.mem_restRefs_of main_arg11 (by decide) (by decide))).trans (W_main_arg11 m c),
    ((h c).2 main_arg12 (Pipeline.mem_restRefs_of main_arg12 (by decide) (by decide))).trans (W_main_arg12 m c),
    ((h c).2 main_arg13 (Pipeline.mem_restRefs_of main_arg13 (by decide) (by decide))).trans (W_main_arg13 m c),
    ((h c).2 main_arg14 (Pipeline.mem_restRefs_of main_arg14 (by decide) (by decide))).trans (W_main_arg14 m c),
    ((h c).2 main_arg15 (Pipeline.mem_restRefs_of main_arg15 (by decide) (by decide))).trans (W_main_arg15 m c),
    ((h c).2 main_arg16 (Pipeline.mem_restRefs_of main_arg16 (by decide) (by decide))).trans (W_main_arg16 m c)⟩) (run_main m ρ)

end Cert.KernelIdeal.Region

end
-- ==== Proof.RefRun.lean ====
import proofs.«121203_j91044716741010_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's 110 host operations, in order: @main's own, with the bodies of the functions it
    calls (three rectifiers; the running sum, whose body is one more call) written out at their call sites over
    each call's own buffers. -/
abbrev ops : List (HloOp τ sig (Elt F)) :=
  [ nullary main_cst (constant S_ .f32 0x00000000#32),
    binary main_arg0 main_cst main_v0 ((fun x v => Host.reduceAdd x v reducesTo_S16x4096x768_S16x768_d1 h_S_) : (⟨S16x4096x768, .f32⟩ : BufTy).Contents (Elt F) → (⟨S_, .f32⟩ : BufTy).Contents (Elt F) → (⟨S16x768, .f32⟩ : BufTy).Contents (Elt F)),
    nullary main_cst_0 (constant S_ .f32 0x45800000#32),
    unary main_cst_0 main_v1 (broadcastInDim S16x768 ![] bcast_S_S16x768 : (⟨S_, .f32⟩ : BufTy).Contents (Elt F) → (⟨S16x768, .f32⟩ : BufTy).Contents (Elt F)),
    binary main_v0 main_v1 main_v2 (Host.divf : (⟨S16x768, .f32⟩ : BufTy).Contents (Elt F) → (⟨S16x768, .f32⟩ : BufTy).Contents (Elt F) → (⟨S16x768, .f32⟩ : BufTy).Contents (Elt F)),
    unary main_arg7 main_v3 ((transpose S768x768 [1, 0] · transposes_S768x768_S768x768_1_0) : (⟨S768x768, .f32⟩ : BufTy).Contents (Elt F) → (⟨S768x768, .f32⟩ : BufTy).Contents (Elt F)),
    binary main_v2 main_v3 main_v4 ((fun l r => Host.dotGeneral dot_S16x768_S768x768_S16x768_1_0_0_1_n_n none l r) : (⟨S16x768, .f32⟩ : BufTy).Contents (Elt F) → (⟨S768x768, .f32⟩ : BufTy).Contents (Elt F) → (⟨S16x768, .f32⟩ : BufTy).Contents (Elt F)),
    unary main_arg8 main_v5 (broadcastInDim S1x768 ![1] bcast_S768_S1x768_1 : (⟨S768, .f32⟩ : BufTy).Contents (Elt F) → (⟨S1x768, .f32⟩ : BufTy).Contents (Elt F)),
    unary main_v5 main_v6 (broadcastInDim S16x768 ![0, 1] bcast_S1x768_S16x768_0_1 : (⟨S1x768, .f32⟩ : BufTy).Contents (Elt F) → (⟨S16x768, .f32⟩ : BufTy).Contents (Elt F)),
    binary main_v4 main_v6 main_v7 (addf : (⟨S16x768, .f32⟩ : BufTy).Contents (Elt F) → (⟨S16x768, .f32⟩ : BufTy).Contents (Elt F) → (⟨S16x768, .f32⟩ : BufTy).Contents (Elt F)),
    TRef.nullary main_call0.cst (constant S_ .f32 0x00000000#32),
    TRef.unary main_call0.cst main_call0.v0 (broadcastInDim S16x768 ![] bcast_S_S16x768),
    TRef.binary (.of main_v7 : TRef sig ⟨S16x768, .f32⟩) main_call0.v0 main_call0.v1 maximumf,
    unary main_arg9 main_v9 ((transpose S768x768 [1, 0] · transposes_S768x768_S768x768_1_0) : (⟨S768x768, .f32⟩ : BufTy).Contents (Elt F) → (⟨S768x768, .f32⟩ : BufTy).Contents (Elt F)),
    binary main_v8 main_v9 main_v10 ((fun l r => Host.dotGeneral dot_S16x768_S768x768_S16x768_1_0_0_1_n_n none l r) : (⟨S16x768, .f32⟩ : BufTy).Contents (Elt F) → (⟨S768x768, .f32⟩ : BufTy).Contents (Elt F) → (⟨S16x768, .f32⟩ : BufTy).Contents (Elt F)),
    unary main_arg10 main_v11 (broadcastInDim S1x768 ![1] bcast_S768_S1x768_1 : (⟨S768, .f32⟩ : BufTy).Contents (Elt F) → (⟨S1x768, .f32⟩ : BufTy).Contents (Elt F)),
    unary main_v11 main_v12 (broadcastInDim S16x768 ![0, 1] bcast_S1x768_S16x768_0_1 : (⟨S1x768, .f32⟩ : BufTy).Contents (Elt F) → (⟨S16x768, .f32⟩ : BufTy).Contents (Elt F)),
    binary main_v10 main_v12 main_v13 (addf : (⟨S16x768, .f32⟩ : BufTy).Contents (Elt F) → (⟨S16x768, .f32⟩ : BufTy).Contents (Elt F) → (⟨S16x768, .f32⟩ : BufTy).Contents (Elt F)),
    unary main_arg3 main_v14 ((transpose S768x768 [1, 0] · transposes_S768x768_S768x768_1_0) : (⟨S768x768, .f32⟩ : BufTy).Contents (Elt F) → (⟨S768x768, .f32⟩ : BufTy).Contents (Elt F)),
    binary main_v2 main_v14 main_v15 ((fun l r => Host.dotGeneral dot_S16x768_S768x768_S16x768_1_0_0_1_n_n none l r) : (⟨S16x768, .f32⟩ : BufTy).Contents (Elt F) → (⟨S768x768, .f32⟩ : BufTy).Contents (Elt F) → (⟨S16x768, .f32⟩ : BufTy).Contents (Elt F)),
    unary main_arg4 main_v16 (broadcastInDim S1x768 ![1] bcast_S768_S1x768_1 : (⟨S768, .f32⟩ : BufTy).Contents (Elt F) → (⟨S1x768, .f32⟩ : BufTy).Contents (Elt F)),
    unary main_v16 main_v17 (broadcastInDim S16x768 ![0, 1] bcast_S1x768_S16x768_0_1 : (⟨S1x768, .f32⟩ : BufTy).Contents (Elt F) → (⟨S16x768, .f32⟩ : BufTy).Contents (Elt F)),
    binary main_v15 main_v17 main_v18 (addf : (⟨S16x768, .f32⟩ : BufTy).Contents (Elt F) → (⟨S16x768, .f32⟩ : BufTy).Contents (Elt F) → (⟨S16x768, .f32⟩ : BufTy).Contents (Elt F)),
    TRef.nullary main_call1.cst (constant S_ .f32 0x00000000#32),
    TRef.unary main_call1.cst main_call1.v0 (broadcastInDim S16x768 ![] bcast_S_S16x768),
    TRef.binary (.of main_v18 : TRef sig ⟨S16x768, .f32⟩) main_call1.v0 main_call1.v1 maximumf,
    unary main_arg5 main_v20 ((transpose S768x768 [1, 0] · transposes_S768x768_S768x768_1_0) : (⟨S768x768, .f32⟩ : BufTy).Contents (Elt F) → (⟨S768x768, .f32⟩ : BufTy).Contents (Elt F)),
    binary main_v19 main_v20 main_v21 ((fun l r => Host.dotGeneral dot_S16x768_S768x768_S16x768_1_0_0_1_n_n none l r) : (⟨S16x768, .f32⟩ : BufTy).Contents (Elt F) → (⟨S768x768, .f32⟩ : BufTy).Contents (Elt F) → (⟨S16x768, .f32⟩ : BufTy).Contents (Elt F)),
    unary main_arg6 main_v22 (broadcastInDim S1x768 ![1] bcast_S768_S1x768_1 : (⟨S768, .f32⟩ : BufTy).Contents (Elt F) → (⟨S1x768, .f32⟩ : BufTy).Contents (Elt F)),
    unary main_v22 main_v23 (broadcastInDim S16x768 ![0, 1] bcast_S1x768_S16x768_0_1 : (⟨S1x768, .f32⟩ : BufTy).Contents (Elt F) → (⟨S16x768, .f32⟩ : BufTy).Contents (Elt F)),
    binary main_v21 main_v23 main_v24 (addf : (⟨S16x768, .f32⟩ : BufTy).Contents (Elt F) → (⟨S16x768, .f32⟩ : BufTy).Contents (Elt F) → (⟨S16x768, .f32⟩ : BufTy).Contents (Elt F)),
    unary main_arg1 main_v25 ((extractStridedSlice S1024x1 ![0, 0] · slices_S1024x5_S1024x1_0_0) : (⟨S1024x5, .i32⟩ : BufTy).Contents (Elt F) → (⟨S1024x1, .i32⟩ : BufTy).Contents (Elt F)),
    reshape main_v25 main_v26 rfl shapeCasts_S1024x1_S1024,
    nullary main_c (constantI S_ 32 0#32),
    unary main_c main_v27 (broadcastInDim S1024 ![] bcast_S_S1024 : (⟨S_, .i32⟩ : BufTy).Contents (Elt F) → (⟨S1024, .i32⟩ : BufTy).Contents (Elt F)),
    binary main_v26 main_v27 main_v28 (cmpi .slt : (⟨S1024, .i32⟩ : BufTy).Contents (Elt F) → (⟨S1024, .i32⟩ : BufTy).Contents (Elt F) → (⟨S1024, .i1⟩ : BufTy).Contents (Elt F)),
    nullary main_c_1 (constantI S_ 32 16#32),
    unary main_c_1 main_v29 (broadcastInDim S1024 ![] bcast_S_S1024 : (⟨S_, .i32⟩ : BufTy).Contents (Elt F) → (⟨S1024, .i32⟩ : BufTy).Contents (Elt F)),
    binary main_v26 main_v29 main_v30 (addi : (⟨S1024, .i32⟩ : BufTy).Contents (Elt F) → (⟨S1024, .i32⟩ : BufTy).Contents (Elt F) → (⟨S1024, .i32⟩ : BufTy).Contents (Elt F)),
    ternary main_v28 main_v30 main_v26 main_v31 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v31 main_v32 (broadcastInDim S1024x1 ![0] bcast_S1024_S1024x1_0 : (⟨S1024, .i32⟩ : BufTy).Contents (Elt F) → (⟨S1024x1, .i32⟩ : BufTy).Contents (Elt F)),
    binary main_v24 main_v32 main_v33 ((fun x i => Host.gather gather_S16x768_S1024x1_S1024x768_1_0_n_n_0_1_1768 x i) : (⟨S16x768, .f32⟩ : BufTy).Contents (Elt F) → (⟨S1024x1, .i32⟩ : BufTy).Contents (Elt F) → (⟨S1024x768, .f32⟩ : BufTy).Contents (Elt F)),
    unary main_arg2 main_v34 ((extractStridedSlice S1024x256 ![0, 1] · slices_S1024x257_S1024x256_0_1) : (⟨S1024x257, .f32⟩ : BufTy).Contents (Elt F) → (⟨S1024x256, .f32⟩ : BufTy).Contents (Elt F)),
    unary main_arg11 main_v35 ((transpose S256x768 [1, 0] · transposes_S768x256_S256x768_1_0) : (⟨S768x256, .f32⟩ : BufTy).Contents (Elt F) → (⟨S256x768, .f32⟩ : BufTy).Contents (Elt F)),
    binary main_v34 main_v35 main_v36 ((fun l r => Host.dotGeneral dot_S1024x256_S256x768_S1024x768_1_0_0_1_n_n none l r) : (⟨S1024x256, .f32⟩ : BufTy).Contents (Elt F) → (⟨S256x768, .f32⟩ : BufTy).Contents (Elt F) → (⟨S1024x768, .f32⟩ : BufTy).Contents (Elt F)),
    unary main_arg12 main_v37 (broadcastInDim S1x768 ![1] bcast_S768_S1x768_1 : (⟨S768, .f32⟩ : BufTy).Contents (Elt F) → (⟨S1x768, .f32⟩ : BufTy).Contents (Elt F)),
    unary main_v37 main_v38 (broadcastInDim S1024x768 ![0, 1] bcast_S1x768_S1024x768_0_1 : (⟨S1x768, .f32⟩ : BufTy).Contents (Elt F) → (⟨S1024x768, .f32⟩ : BufTy).Contents (Elt F)),
    binary main_v36 main_v38 main_v39 (addf : (⟨S1024x768, .f32⟩ : BufTy).Contents (Elt F) → (⟨S1024x768, .f32⟩ : BufTy).Contents (Elt F) → (⟨S1024x768, .f32⟩ : BufTy).Contents (Elt F)),
    TRef.nullary main_call2.cst (constant S_ .f32 0x00000000#32),
    TRef.unary main_call2.cst main_call2.v0 (broadcastInDim S1024x768 ![] bcast_S_S1024x768),
    TRef.binary (.of main_v39 : TRef sig ⟨S1024x768, .f32⟩) main_call2.v0 main_call2.v1 maximumf,
    unary main_arg13 main_v41 ((transpose S768x768 [1, 0] · transposes_S768x768_S768x768_1_0) : (⟨S768x768, .f32⟩ : BufTy).Contents (Elt F) → (⟨S768x768, .f32⟩ : BufTy).Contents (Elt F)),
    binary main_v40 main_v41 main_v42 ((fun l r => Host.dotGeneral dot_S1024x768_S768x768_S1024x768_1_0_0_1_n_n none l r) : (⟨S1024x768, .f32⟩ : BufTy).Contents (Elt F) → (⟨S768x768, .f32⟩ : BufTy).Contents (Elt F) → (⟨S1024x768, .f32⟩ : BufTy).Contents (Elt F)),
    unary main_arg14 main_v43 (broadcastInDim S1x768 ![1] bcast_S768_S1x768_1 : (⟨S768, .f32⟩ : BufTy).Contents (Elt F) → (⟨S1x768, .f32⟩ : BufTy).Contents (Elt F)),
    unary main_v43 main_v44 (broadcastInDim S1024x768 ![0, 1] bcast_S1x768_S1024x768_0_1 : (⟨S1x768, .f32⟩ : BufTy).Contents (Elt F) → (⟨S1024x768, .f32⟩ : BufTy).Contents (Elt F)),
    binary main_v42 main_v44 main_v45 (addf : (⟨S1024x768, .f32⟩ : BufTy).Contents (Elt F) → (⟨S1024x768, .f32⟩ : BufTy).Contents (Elt F) → (⟨S1024x768, .f32⟩ : BufTy).Contents (Elt F)),
    binary main_v33 main_v45 main_v46 ((fun a b => concatenate S1024x1536 1 [⟨S1024x768, a⟩, ⟨S1024x768, b⟩] concatenates_S1024x768_S1024x768_S1024x1536_d1) : (⟨S1024x768, .f32⟩ : BufTy).Contents (Elt F) → (⟨S1024x768, .f32⟩ : BufTy).Contents (Elt F) → (⟨S1024x1536, .f32⟩ : BufTy).Contents (Elt F)),
    unary main_arg15 main_v47 ((transpose S1536x768 [1, 0] · transposes_S768x1536_S1536x768_1_0) : (⟨S768x1536, .f32⟩ : BufTy).Contents (Elt F) → (⟨S1536x768, .f32⟩ : BufTy).Contents (Elt F)),
    binary main_v46 main_v47 main_v48 ((fun l r => Host.dotGeneral dot_S1024x1536_S1536x768_S1024x768_1_0_0_1_n_n none l r) : (⟨S1024x1536, .f32⟩ : BufTy).Contents (Elt F) → (⟨S1536x768, .f32⟩ : BufTy).Contents (Elt F) → (⟨S1024x768, .f32⟩ : BufTy).Contents (Elt F)),
    unary main_arg16 main_v49 (broadcastInDim S1x768 ![1] bcast_S768_S1x768_1 : (⟨S768, .f32⟩ : BufTy).Contents (Elt F) → (⟨S1x768, .f32⟩ : BufTy).Contents (Elt F)),
    unary main_v49 main_v50 (broadcastInDim S1024x768 ![0, 1] bcast_S1x768_S1024x768_0_1 : (⟨S1x768, .f32⟩ : BufTy).Contents (Elt F) → (⟨S1024x768, .f32⟩ : BufTy).Contents (Elt F)),
    binary main_v48 main_v50 main_v51 (addf : (⟨S1024x768, .f32⟩ : BufTy).Contents (Elt F) → (⟨S1024x768, .f32⟩ : BufTy).Contents (Elt F) → (⟨S1024x768, .f32⟩ : BufTy).Contents (Elt F)),
    nullary main_c_2 (constantI S_ 32 1#32),
    unary main_c_2 main_v52 (broadcastInDim S1024 ![] bcast_S_S1024 : (⟨S_, .i32⟩ : BufTy).Contents (Elt F) → (⟨S1024, .i32⟩ : BufTy).Contents (Elt F)),
    nullary main_c_3 (constantI S_ 32 0#32),
    unary main_c_3 main_v53 (broadcastInDim S16 ![] bcast_S_S16 : (⟨S_, .i32⟩ : BufTy).Contents (Elt F) → (⟨S16, .i32⟩ : BufTy).Contents (Elt F)),
    unary main_v26 main_v54 (broadcastInDim S1024x1 ![0] bcast_S1024_S1024x1_0 : (⟨S1024, .i32⟩ : BufTy).Contents (Elt F) → (⟨S1024x1, .i32⟩ : BufTy).Contents (Elt F)),
    ternary main_v53 main_v54 main_v52 main_v55 ((fun x i u => Host.scatter scatter_S16_S1024x1_S1024_n_0_0_1 IntOp.addi x i u) : (⟨S16, .i32⟩ : BufTy).Contents (Elt F) → (⟨S1024x1, .i32⟩ : BufTy).Contents (Elt F) → (⟨S1024, .i32⟩ : BufTy).Contents (Elt F) → (⟨S16, .i32⟩ : BufTy).Contents (Elt F)),
    TRef.nullary main_call3.call0.c (constantI S_ 32 0#32),
    TRef.unary main_call3.call0.c main_call3.call0.v0 (broadcastInDim S_ ![] bcast_S_S_),
    TRef.binary (.of main_v55 : TRef sig ⟨S16, .i32⟩) main_call3.call0.v0 main_call3.call0.v1 (fun x v => Host.reduceWindow IntOp.addi ![16] ![1] ![15] ![0] x v reduceWindows_S16_S16_w16s1p15_0 h_S_),
    binary main_v56 main_v55 main_v57 (subi : (⟨S16, .i32⟩ : BufTy).Contents (Elt F) → (⟨S16, .i32⟩ : BufTy).Contents (Elt F) → (⟨S16, .i32⟩ : BufTy).Contents (Elt F)),
    nullary main_v58 (iotaInDim S1024 32 0),
    nullary main_c_4 (constantI S_ 32 0#32),
    unary main_c_4 main_v59 (broadcastInDim S1024 ![] bcast_S_S1024 : (⟨S_, .i32⟩ : BufTy).Contents (Elt F) → (⟨S1024, .i32⟩ : BufTy).Contents (Elt F)),
    binary main_v26 main_v59 main_v60 (cmpi .slt : (⟨S1024, .i32⟩ : BufTy).Contents (Elt F) → (⟨S1024, .i32⟩ : BufTy).Contents (Elt F) → (⟨S1024, .i1⟩ : BufTy).Contents (Elt F)),
    nullary main_c_5 (constantI S_ 32 16#32),
    unary main_c_5 main_v61 (broadcastInDim S1024 ![] bcast_S_S1024 : (⟨S_, .i32⟩ : BufTy).Contents (Elt F) → (⟨S1024, .i32⟩ : BufTy).Contents (Elt F)),
    binary main_v26 main_v61 main_v62 (addi : (⟨S1024, .i32⟩ : BufTy).Contents (Elt F) → (⟨S1024, .i32⟩ : BufTy).Contents (Elt F) → (⟨S1024, .i32⟩ : BufTy).Contents (Elt F)),
    ternary main_v60 main_v62 main_v26 main_v63 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v63 main_v64 (broadcastInDim S1024x1 ![0] bcast_S1024_S1024x1_0 : (⟨S1024, .i32⟩ : BufTy).Contents (Elt F) → (⟨S1024x1, .i32⟩ : BufTy).Contents (Elt F)),
    binary main_v57 main_v64 main_v65 ((fun x i => Host.gather gather_S16_S1024x1_S1024_n_0_n_n_0_1_1 x i) : (⟨S16, .i32⟩ : BufTy).Contents (Elt F) → (⟨S1024x1, .i32⟩ : BufTy).Contents (Elt F) → (⟨S1024, .i32⟩ : BufTy).Contents (Elt F)),
    binary main_v58 main_v65 main_v66 (subi : (⟨S1024, .i32⟩ : BufTy).Contents (Elt F) → (⟨S1024, .i32⟩ : BufTy).Contents (Elt F) → (⟨S1024, .i32⟩ : BufTy).Contents (Elt F)),
    nullary main_cst_6 (constant S_ .f32 0x00000000#32),
    unary main_cst_6 main_v67 (broadcastInDim S16x128x768 ![] bcast_S_S16x128x768 : (⟨S_, .f32⟩ : BufTy).Contents (Elt F) → (⟨S16x128x768, .f32⟩ : BufTy).Contents (Elt F)),
    nullary main_c_7 (constantI S_ 32 0#32),
    unary main_c_7 main_v68 (broadcastInDim S1024 ![] bcast_S_S1024 : (⟨S_, .i32⟩ : BufTy).Contents (Elt F) → (⟨S1024, .i32⟩ : BufTy).Contents (Elt F)),
    binary main_v26 main_v68 main_v69 (cmpi .slt : (⟨S1024, .i32⟩ : BufTy).Contents (Elt F) → (⟨S1024, .i32⟩ : BufTy).Contents (Elt F) → (⟨S1024, .i1⟩ : BufTy).Contents (Elt F)),
    nullary main_c_8 (constantI S_ 32 16#32),
    unary main_c_8 main_v70 (broadcastInDim S1024 ![] bcast_S_S1024 : (⟨S_, .i32⟩ : BufTy).Contents (Elt F) → (⟨S1024, .i32⟩ : BufTy).Contents (Elt F)),
    binary main_v26 main_v70 main_v71 (addi : (⟨S1024, .i32⟩ : BufTy).Contents (Elt F) → (⟨S1024, .i32⟩ : BufTy).Contents (Elt F) → (⟨S1024, .i32⟩ : BufTy).Contents (Elt F)),
    ternary main_v69 main_v71 main_v26 main_v72 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_9 (constantI S_ 32 0#32),
    unary main_c_9 main_v73 (broadcastInDim S1024 ![] bcast_S_S1024 : (⟨S_, .i32⟩ : BufTy).Contents (Elt F) → (⟨S1024, .i32⟩ : BufTy).Contents (Elt F)),
    binary main_v66 main_v73 main_v74 (cmpi .slt : (⟨S1024, .i32⟩ : BufTy).Contents (Elt F) → (⟨S1024, .i32⟩ : BufTy).Contents (Elt F) → (⟨S1024, .i1⟩ : BufTy).Contents (Elt F)),
    nullary main_c_10 (constantI S_ 32 128#32),
    unary main_c_10 main_v75 (broadcastInDim S1024 ![] bcast_S_S1024 : (⟨S_, .i32⟩ : BufTy).Contents (Elt F) → (⟨S1024, .i32⟩ : BufTy).Contents (Elt F)),
    binary main_v66 main_v75 main_v76 (addi : (⟨S1024, .i32⟩ : BufTy).Contents (Elt F) → (⟨S1024, .i32⟩ : BufTy).Contents (Elt F) → (⟨S1024, .i32⟩ : BufTy).Contents (Elt F)),
    ternary main_v74 main_v76 main_v66 main_v77 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v72 main_v78 (broadcastInDim S1024x1 ![0] bcast_S1024_S1024x1_0 : (⟨S1024, .i32⟩ : BufTy).Contents (Elt F) → (⟨S1024x1, .i32⟩ : BufTy).Contents (Elt F)),
    unary main_v77 main_v79 (broadcastInDim S1024x1 ![0] bcast_S1024_S1024x1_0 : (⟨S1024, .i32⟩ : BufTy).Contents (Elt F) → (⟨S1024x1, .i32⟩ : BufTy).Contents (Elt F)),
    binary main_v78 main_v79 main_v80 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    ternary main_v67 main_v80 main_v51 main_v81 ((fun x i u => Host.scatter scatter_S16x128x768_S1024x2_S1024x768_1_01_01_1 (fun _ b => b) x i u) : (⟨S16x128x768, .f32⟩ : BufTy).Contents (Elt F) → (⟨S1024x2, .i32⟩ : BufTy).Contents (Elt F) → (⟨S1024x768, .f32⟩ : BufTy).Contents (Elt F) → (⟨S16x128x768, .f32⟩ : BufTy).Contents (Elt F)),
    nullary main_v82 (iotaInDim S128 32 0),
    unary main_v82 main_v83 (broadcastInDim S1x128 ![1] bcast_S128_S1x128_1 : (⟨S128, .i32⟩ : BufTy).Contents (Elt F) → (⟨S1x128, .i32⟩ : BufTy).Contents (Elt F)),
    unary main_v55 main_v84 (broadcastInDim S16x1 ![0] bcast_S16_S16x1_0 : (⟨S16, .i32⟩ : BufTy).Contents (Elt F) → (⟨S16x1, .i32⟩ : BufTy).Contents (Elt F)),
    unary main_v83 main_v85 (broadcastInDim S16x128 ![0, 1] bcast_S1x128_S16x128_0_1 : (⟨S1x128, .i32⟩ : BufTy).Contents (Elt F) → (⟨S16x128, .i32⟩ : BufTy).Contents (Elt F)),
    unary main_v84 main_v86 (broadcastInDim S16x128 ![0, 1] bcast_S16x1_S16x128_0_1 : (⟨S16x1, .i32⟩ : BufTy).Contents (Elt F) → (⟨S16x128, .i32⟩ : BufTy).Contents (Elt F)),
    binary main_v85 main_v86 main_v87 (cmpi .slt : (⟨S16x128, .i32⟩ : BufTy).Contents (Elt F) → (⟨S16x128, .i32⟩ : BufTy).Contents (Elt F) → (⟨S16x128, .i1⟩ : BufTy).Contents (Elt F)),
    unary main_v87 main_v88 (uitofp .f32 : (⟨S16x128, .i1⟩ : BufTy).Contents (Elt F) → (⟨S16x128, .f32⟩ : BufTy).Contents (Elt F)) ]

set_option maxRecDepth 16384 in
set_option maxHeartbeats 40000000 in
/-- @main is that straight line: its two windows and the called functions unfolded, both sides are one chain of
    operation steps once sequencing is reassociated. -/
theorem main_eq (c : Dev nD) : main (F := F) c = seq ops := by
  simp only [main, main_part0, main_part1, fn_relu.body, fn_relu_0.body, fn_cumsum.body, fn_cumsum_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., binary_bufs_sub .., unary_bufs_sub .., binary_bufs_sub .., unary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., binary_bufs_sub ..,
    nullary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    ternary_bufs_sub .., nullary_bufs_sub .., unary_bufs_sub .., unary_bufs_sub .., unary_bufs_sub .., unary_bufs_sub ..,
    binary_bufs_sub .., unary_bufs_sub ..⟩

set_option maxRecDepth 16384 in
set_option maxHeartbeats 40000000 in
/-- On every device, for any float values, from any memory with zero counters: every weakly fair execution of
    @main terminates, and every final state has each TensorCore buffer at the fold of the operations' results over
    the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.RefEval.lean ====
import proofs.«121203_j91044716741010_2_alg».proof.Proof.Gen.ReferenceIdeal
import Idealize.ShloMosaic.Lib.StableHlo.Run
import proofs.«121203_j91044716741010_2_alg».proof.Proof.RefRun
import proofs.«121203_j91044716741010_2_alg».proof.Proof.Tail

noncomputable section

namespace Cert.ReferenceIdeal.RefEval

open Cert.ReferenceIdeal Cert.ReferenceIdeal.RefRun Cert.ReferenceIdeal.Gen Idealize.ShloMosaic Idealize.ShloMosaic.TcCoe Idealize.SL.Sem Idealize.ShloMosaic.StableHlo

variable {F : FTy → Type} [FloatOps F]

variable [Cert.KernelIdeal.Facts]

/-- The mean over axis 1 of the first argument, as the reference's first five operations compute it: the sum
    over the 4096 positions from zero, divided by 4096. -/
def mean (W : Valuation τ sig (Elt F)) : (⟨S16x768, .f32⟩ : BufTy).Contents (Elt F) :=
  Host.divf (Host.reduceAdd (W (Proc.devRef .tc main_arg0)) (constant S_ .f32 0x00000000#32) reducesTo_S16x4096x768_S16x768_d1 h_S_)
    (broadcastInDim S16x768 ![] bcast_S_S16x768 (constant S_ .f32 0x45800000#32))

theorem mean_def (W : Valuation τ sig (Elt F)) : mean W =
    Host.divf (Host.reduceAdd (W (Proc.devRef .tc main_arg0)) (constant S_ .f32 0x00000000#32) reducesTo_S16x4096x768_S16x768_d1 h_S_)
      (broadcastInDim S16x768 ![] bcast_S_S16x768 (constant S_ .f32 0x45800000#32)) := rfl

/-! ## The three results

Each result buffer, after the 110 operations from any contents `W`, holds the corresponding function of the
tail applied to the mean of the first argument and the other sixteen arguments' contents. The fold is read back
operation by operation; what remains differs from the tail's definition only in which copy of the shape
abbreviations and dimension records it names, and those are the same literals. The gathers, scatters, the
windowed reduction, the sum and the division are kept folded: the equation never looks inside them. -/

attribute [local irreducible] Host.scatter Host.gather Host.reduceWindow Host.reduceAdd Host.divf in
set_option maxRecDepth 16384 in
set_option maxHeartbeats 4000000 in
theorem eval_v13 (W : Valuation τ sig (Elt F)) :
    after ops W (Proc.devRef .tc main_v13) = Cert.Tail.retx (F := F) (mean W) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  after_results_simp <;> rfl

attribute [local irreducible] Host.scatter Host.gather Host.reduceWindow Host.reduceAdd Host.divf in
set_option maxRecDepth 16384 in
set_option maxHeartbeats 4000000 in
theorem eval_v88 (W : Valuation τ sig (Elt F)) :
    after ops W (Proc.devRef .tc main_v88) = Cert.Tail.mask (F := F) (mean W) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  after_results_simp <;> rfl

attribute [local irreducible] Host.scatter Host.gather Host.reduceWindow Host.reduceAdd Host.divf in
set_option maxRecDepth 16384 in
set_option maxHeartbeats 4000000 in
theorem eval_v81 (W : Valuation τ sig (Elt F)) :
    after ops W (Proc.devRef .tc main_v81) = Cert.Tail.vis (F := F) (mean W) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  after_results_simp <;> rfl

end Cert.ReferenceIdeal.RefEval

end
-- ==== Proof.RefKeep.lean ====
import proofs.«121203_j91044716741010_2_alg».proof.Proof.Gen.ReferenceIdeal
import Idealize.ShloMosaic.Lib.StableHlo.Run
import proofs.«121203_j91044716741010_2_alg».proof.Proof.RefRun

noncomputable section

namespace Cert.ReferenceIdeal.RefKeep

open Cert.ReferenceIdeal Cert.ReferenceIdeal.RefRun Cert.ReferenceIdeal.Gen Idealize.ShloMosaic Idealize.ShloMosaic.TcCoe Idealize.SL.Sem Idealize.ShloMosaic.StableHlo

variable {F : FTy → Type} [FloatOps F]

/-! ## The arguments

No operation of the reference writes an argument's buffer: after the 110 operations each holds what it held. -/

set_option maxRecDepth 16384 in
set_option maxHeartbeats 4000000 in
theorem keep_arg0 (W : Valuation τ sig (Elt F)) :
    after ops W (Proc.devRef .tc main_arg0) = W (Proc.devRef .tc main_arg0) := by
  after_results_simp <;> rfl

set_option maxRecDepth 16384 in
set_option maxHeartbeats 4000000 in
theorem keep_arg1 (W : Valuation τ sig (Elt F)) :
    after ops W (Proc.devRef .tc main_arg1) = W (Proc.devRef .tc main_arg1) := by
  after_results_simp <;> rfl

set_option maxRecDepth 16384 in
set_option maxHeartbeats 4000000 in
theorem keep_arg2 (W : Valuation τ sig (Elt F)) :
    after ops W (Proc.devRef .tc main_arg2) = W (Proc.devRef .tc main_arg2) := by
  after_results_simp <;> rfl

set_option maxRecDepth 16384 in
set_option maxHeartbeats 4000000 in
theorem keep_arg3 (W : Valuation τ sig (Elt F)) :
    after ops W (Proc.devRef .tc main_arg3) = W (Proc.devRef .tc main_arg3) := by
  after_results_simp <;> rfl

set_option maxRecDepth 16384 in
set_option maxHeartbeats 4000000 in
theorem keep_arg4 (W : Valuation τ sig (Elt F)) :
    after ops W (Proc.devRef .tc main_arg4) = W (Proc.devRef .tc main_arg4) := by
  after_results_simp <;> rfl

set_option maxRecDepth 16384 in
set_option maxHeartbeats 4000000 in
theorem keep_arg5 (W : Valuation τ sig (Elt F)) :
    after ops W (Proc.devRef .tc main_arg5) = W (Proc.devRef .tc main_arg5) := by
  after_results_simp <;> rfl

set_option maxRecDepth 16384 in
set_option maxHeartbeats 4000000 in
theorem keep_arg6 (W : Valuation τ sig (Elt F)) :
    after ops W (Proc.devRef .tc main_arg6) = W (Proc.devRef .tc main_arg6) := by
  after_results_simp <;> rfl

set_option maxRecDepth 16384 in
set_option maxHeartbeats 4000000 in
theorem keep_arg7 (W : Valuation τ sig (Elt F)) :
    after ops W (Proc.devRef .tc main_arg7) = W (Proc.devRef .tc main_arg7) := by
  after_results_simp <;> rfl

set_option maxRecDepth 16384 in
set_option maxHeartbeats 4000000 in
theorem keep_arg8 (W : Valuation τ sig (Elt F)) :
    after ops W (Proc.devRef .tc main_arg8) = W (Proc.devRef .tc main_arg8) := by
  after_results_simp <;> rfl

set_option maxRecDepth 16384 in
set_option maxHeartbeats 4000000 in
theorem keep_arg9 (W : Valuation τ sig (Elt F)) :
    after ops W (Proc.devRef .tc main_arg9) = W (Proc.devRef .tc main_arg9) := by
  after_results_simp <;> rfl

set_option maxRecDepth 16384 in
set_option maxHeartbeats 4000000 in
theorem keep_arg10 (W : Valuation τ sig (Elt F)) :
    after ops W (Proc.devRef .tc main_arg10) = W (Proc.devRef .tc main_arg10) := by
  after_results_simp <;> rfl

set_option maxRecDepth 16384 in
set_option maxHeartbeats 4000000 in
theorem keep_arg11 (W : Valuation τ sig (Elt F)) :
    after ops W (Proc.devRef .tc main_arg11) = W (Proc.devRef .tc main_arg11) := by
  after_results_simp <;> rfl

set_option maxRecDepth 16384 in
set_option maxHeartbeats 4000000 in
theorem keep_arg12 (W : Valuation τ sig (Elt F)) :
    after ops W (Proc.devRef .tc main_arg12) = W (Proc.devRef .tc main_arg12) := by
  after_results_simp <;> rfl

set_option maxRecDepth 16384 in
set_option maxHeartbeats 4000000 in
theorem keep_arg13 (W : Valuation τ sig (Elt F)) :
    after ops W (Proc.devRef .tc main_arg13) = W (Proc.devRef .tc main_arg13) := by
  after_results_simp <;> rfl

set_option maxRecDepth 16384 in
set_option maxHeartbeats 4000000 in
theorem keep_arg14 (W : Valuation τ sig (Elt F)) :
    after ops W (Proc.devRef .tc main_arg14) = W (Proc.devRef .tc main_arg14) := by
  after_results_simp <;> rfl

set_option maxRecDepth 16384 in
set_option maxHeartbeats 4000000 in
theorem keep_arg15 (W : Valuation τ sig (Elt F)) :
    after ops W (Proc.devRef .tc main_arg15) = W (Proc.devRef .tc main_arg15) := by
  after_results_simp <;> rfl

set_option maxRecDepth 16384 in
set_option maxHeartbeats 4000000 in
theorem keep_arg16 (W : Valuation τ sig (Elt F)) :
    after ops W (Proc.devRef .tc main_arg16) = W (Proc.devRef .tc main_arg16) := by
  after_results_simp <;> rfl

end Cert.ReferenceIdeal.RefKeep

end
-- ==== Proof.RefMean.lean ====
/-
  The reference's first five operations, read at an index over the extended reals: a host sum over the token axis
  from the zero word, divided elementwise by the splat of the word 4096.0 — `MeanSpec.pooledWhole` of the array.
-/
import proofs.«121203_j91044716741010_2_alg».proof.ReferenceIdeal
import proofs.«121203_j91044716741010_2_alg».proof.Proof.MeanSpec
import Idealize.ShloMosaic.PureOps.Ideal.Laws

noncomputable section

namespace Cert.ReferenceIdeal.RefMean

open Cert.ReferenceIdeal Idealize.ShloMosaic Cert.MeanSpec

variable [Cert.ReferenceIdeal.Facts]
open Cert.ReferenceIdeal.Facts₀

/-- Summing out the token axis of [16, 4096, 768] leaves [16, 768]. -/
theorem reducesTok : S16x4096x768.Reduces [1] S16x768 := by decide

/-- The host's mean at an index: (0 + the sum over the 4096 tokens) / 4096. -/
theorem mean_eq (A : FVec Ideal S16x4096x768 .f32) :
    Host.divf (Host.reduceAdd (F := Ideal) A (constant (F := Ideal) S_ .f32 0x00000000#32) reducesTo_S16x4096x768_S16x768_d1 h_S_)
      (broadcastInDim S16x768 ![] bcast_S_S16x768 (constant (F := Ideal) S_ .f32 0x45800000#32)) = pooledWhole A := by
  funext i
  unfold pooledWhole
  show Ideal.div (Ideal.hostReduceAdd reducesTo_S16x4096x768_S16x768_d1 A (Ideal.ofBits .f32 0x00000000#32) i) (Ideal.ofBits .f32 0x45800000#32) = _
  rw [Ideal.hostReduceAdd_single reducesTo_S16x4096x768_S16x768_d1 reducesTok A _ i]
  refine congrArg (fun s => Ideal.div (Ideal.ofBits .f32 0x00000000#32 + s) (Ideal.ofBits .f32 0x45800000#32)) ?_
  refine Finset.sum_congr rfl fun k _ => congrArg A (funext fun a => Fin.ext ?_)
  match a with
  | ⟨0, _⟩ => rfl
  | ⟨1, _⟩ => rfl
  | ⟨2, _⟩ => rfl

end Cert.ReferenceIdeal.RefMean

end
-- ==== Proof.RefResults.lean ====
/-
  The idealized reference's three results: its run evaluated. Its first five operations leave the mean of the input
  array over the token axis — at every index (0 + the sum over the 4096 tokens) / 4096 — and the rest is the shared
  tail, so the three result buffers end at the three functions of `Cert.Tail` of that mean and the sixteen other
  arguments; no operation writes an argument.
-/
import proofs.«121203_j91044716741010_2_alg».proof.Proof.Gen.KernelIdeal
import proofs.«121203_j91044716741010_2_alg».proof.Proof.RefEval
import proofs.«121203_j91044716741010_2_alg».proof.Proof.RefKeep
import proofs.«121203_j91044716741010_2_alg».proof.Proof.RefMean

noncomputable section

namespace Cert.ReferenceIdeal.RefResults

open Cert.ReferenceIdeal Cert.ReferenceIdeal.Gen Cert.ReferenceIdeal.RefRun Idealize.ShloMosaic Idealize.ShloMosaic.TcCoe Idealize.SL.Sem
open Idealize.ShloMosaic.StableHlo Cert.MeanSpec

variable (m : (ℓ : Loc nD τ sig) → Buf (Elt Ideal) ℓ) (ρ : Dev nD → PrngReg)

/-- The mean the first five operations compute from the launch contents is `pooledWhole` of the input array. -/
theorem mean_launch (c : Dev nD) :
    RefEval.mean (F := Ideal) (launchContents m c) = pooledWhole (m ((c.tc : Thread nD τ).loc main_arg0)) := by
  rw [RefEval.mean_def]
  exact RefMean.mean_eq _

theorem res_v81 (c : Dev nD) : after ops (launchContents m c) (Proc.devRef .tc main_v81)
    = Cert.Tail.vis (F := Ideal) (pooledWhole (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [RefEval.eval_v81, mean_launch]
theorem res_v88 (c : Dev nD) : after ops (launchContents m c) (Proc.devRef .tc main_v88)
    = Cert.Tail.mask (F := Ideal) (pooledWhole (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [RefEval.eval_v88, mean_launch]
theorem res_v13 (c : Dev nD) : after ops (launchContents m c) (Proc.devRef .tc main_v13)
    = Cert.Tail.retx (F := Ideal) (pooledWhole (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [RefEval.eval_v13, mean_launch]

/-- The reference's run, read. -/
theorem run_results : θ_run defs (onTc (τ := τ) (main (F := Ideal))) ⟨m, fun _ => 0, ρ⟩ (fun r => ∀ c : Dev nD,
      r.2.mem ((c.tc : Thread nD τ).loc main_v81) = Cert.Tail.vis (F := Ideal) (pooledWhole (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v88) = Cert.Tail.mask (F := Ideal) (pooledWhole (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v13) = Cert.Tail.retx (F := Ideal) (pooledWhole (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v81).trans (res_v81 m c), (h c main_v88).trans (res_v88 m c), (h c main_v13).trans (res_v13 m c),
    (h c main_arg0).trans (RefKeep.keep_arg0 _),
    (h c main_arg1).trans (RefKeep.keep_arg1 _),
    (h c main_arg2).trans (RefKeep.keep_arg2 _),
    (h c main_arg3).trans (RefKeep.keep_arg3 _),
    (h c main_arg4).trans (RefKeep.keep_arg4 _),
    (h c main_arg5).trans (RefKeep.keep_arg5 _),
    (h c main_arg6).trans (RefKeep.keep_arg6 _),
    (h c main_arg7).trans (RefKeep.keep_arg7 _),
    (h c main_arg8).trans (RefKeep.keep_arg8 _),
    (h c main_arg9).trans (RefKeep.keep_arg9 _),
    (h c main_arg10).trans (RefKeep.keep_arg10 _),
    (h c main_arg11).trans (RefKeep.keep_arg11 _),
    (h c main_arg12).trans (RefKeep.keep_arg12 _),
    (h c main_arg13).trans (RefKeep.keep_arg13 _),
    (h c main_arg14).trans (RefKeep.keep_arg14 _),
    (h c main_arg15).trans (RefKeep.keep_arg15 _),
    (h c main_arg16).trans (RefKeep.keep_arg16 _)⟩) (run_raw (F := Ideal) m ρ)

/-- The frame claim's post: the seventeen arguments end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_arg0).trans (RefKeep.keep_arg0 _),
    (h c main_arg1).trans (RefKeep.keep_arg1 _),
    (h c main_arg2).trans (RefKeep.keep_arg2 _),
    (h c main_arg3).trans (RefKeep.keep_arg3 _),
    (h c main_arg4).trans (RefKeep.keep_arg4 _),
    (h c main_arg5).trans (RefKeep.keep_arg5 _),
    (h c main_arg6).trans (RefKeep.keep_arg6 _),
    (h c main_arg7).trans (RefKeep.keep_arg7 _),
    (h c main_arg8).trans (RefKeep.keep_arg8 _),
    (h c main_arg9).trans (RefKeep.keep_arg9 _),
    (h c main_arg10).trans (RefKeep.keep_arg10 _),
    (h c main_arg11).trans (RefKeep.keep_arg11 _),
    (h c main_arg12).trans (RefKeep.keep_arg12 _),
    (h c main_arg13).trans (RefKeep.keep_arg13 _),
    (h c main_arg14).trans (RefKeep.keep_arg14 _),
    (h c main_arg15).trans (RefKeep.keep_arg15 _),
    (h c main_arg16).trans (RefKeep.keep_arg16 _)⟩) (run_raw (F := Ideal) m ρ)

end Cert.ReferenceIdeal.RefResults

end
-- ==== Proof.lean ====
/-
  The certificate of a mean-pooling kernel against its jnp reference.

  Both programs take an array x of shape [16, 4096, 768] (and sixteen further arguments), form its mean over the
  middle axis, and feed that [16, 768] mean through one and the same chain of host operations — two two-layer
  perceptrons, a gather of image rows to their boxes, a projection of the concatenated features, a count of boxes
  per image with its exclusive running sum, a scatter of each box's row into its (image, rank) slot, and the mask
  of the occupied slots — producing three results. They differ only in how the mean is formed:

    the kernel walks the 4096 positions in four tiles of 1024 on a 2 × 4 grid (batch half × tile); the output block
    of a batch half stays resident over its four tiles: it is zeroed at tile 0, each tile's sum over its 1024
    positions is added to it, and after tile 3 it is multiplied by the constant 2⁻¹² and written back;

    the reference sums all 4096 positions from zero and divides by 4096.

  Over the extended reals addition is associative and commutative with 0 neutral, and division by the real 4096 is
  multiplication by the real 2⁻¹² at every extended real, so the two means agree at every index for every input
  (no finiteness is needed); the shared chain then gives equal results.

  The three frame claims: each program runs to the end, faults nowhere, and leaves its seventeen argument arrays as
  launched. For the kernel and its idealization this is the pipeline's frame theorem over the three control cases
  of the body (tile 0, tiles 1–2, tile 3), continued through the host lines, none of which writes an argument or
  an array the pipeline stages; for the reference it is the straight-line run of its operations.
  The idealization rewrote nothing, so `preserves` is trivial.
-/
import proofs.«121203_j91044716741010_2_alg».proof.Defs
import proofs.«121203_j91044716741010_2_alg».proof.Proof.Gen.Kernel
import proofs.«121203_j91044716741010_2_alg».proof.Proof.Gen.KernelIdeal
import proofs.«121203_j91044716741010_2_alg».proof.Proof.Gen.ReferenceIdeal
import proofs.«121203_j91044716741010_2_alg».proof.Proof.Gen.Pre_finite_inputs
import proofs.«121203_j91044716741010_2_alg».proof.Proof.K.Frame
import proofs.«121203_j91044716741010_2_alg».proof.Proof.KI.Results
import proofs.«121203_j91044716741010_2_alg».proof.Proof.RefResults
import Idealize.ShloMosaic.Adequacy
import Idealize.ShloMosaic.Init

noncomputable section

namespace Cert.Proof

open Idealize.ShloMosaic Idealize.SL.Sem Cert.MeanSpec Idealize.ShloMosaic.TcCoe

theorem frame_p : Cert.frame_Kernel := fun m ρ _ => Cert.Kernel.Region.frame m ρ
theorem frame_pi : Cert.frame_KernelIdeal := fun m ρ _ => Cert.KernelIdeal.Region.frame m ρ
theorem frame_ri : Cert.frame_ReferenceIdeal := fun m ρ _ => Cert.ReferenceIdeal.RefResults.frame m ρ

theorem preserves : Cert.preserves_Kernel_KernelIdeal := trivial

set_option maxHeartbeats 1600000 in
/-- At the ideal instance both runs end with the three results at the shared chain's functions of the mean and of
    the other arguments: the kernel's mean is the tiled arrangement, the reference's the whole sum divided by 4096;
    the two arrangements are one function, and the arguments agree by hypothesis. -/
theorem algebraic : Cert.algebraic_KernelIdeal_ReferenceIdeal := by
  intro m ρ m' ρ' _ hagree
  refine ⟨(fun c => Cert.Tail.vis (F := Ideal) (pooledTiles (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))),
    (fun c => Cert.Tail.mask (F := Ideal) (pooledTiles (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))),
    (fun c => Cert.Tail.retx (F := Ideal) (pooledTiles (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))),
    Cert.KernelIdeal.Region.run_results m ρ, ?_⟩
  refine (θ_run Cert.ReferenceIdeal.defs _ _).mono (fun _ h c => ?_) (Cert.ReferenceIdeal.RefResults.run_results m' ρ')
  obtain ⟨a0, a1, a2, a3, a4, a5, a6, a7, a8, a9, a10, a11, a12, a13, a14, a15, a16⟩ := hagree c
  obtain ⟨h81, h88, h13, hk⟩ := h c
  have hp : pooledWhole (m' ((c.tc : Thread Cert.ReferenceIdeal.nD Cert.ReferenceIdeal.τ).loc Cert.ReferenceIdeal.main_arg0))
      = pooledTiles (m ((c.tc : Thread Cert.KernelIdeal.nD Cert.KernelIdeal.τ).loc Cert.KernelIdeal.main_arg0)) := by
    rw [a0]
    exact (funext (pooled_eq _)).symm
  rw [hp, a1, a2, a3, a4, a5, a6, a7, a8, a9, a10, a11, a12, a13, a14, a15, a16] at h81 h88 h13
  exact ⟨h81, h88, h13, hk⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
